-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x50 : Shape := ⟨2, ![50000, 50]⟩
abbrev S2x800000 : Shape := ⟨2, ![2, 800000]⟩
abbrev S50x256 : Shape := ⟨2, ![50, 256]⟩
abbrev S256 : Shape := ⟨1, ![256]⟩
abbrev S256x121 : Shape := ⟨2, ![256, 121]⟩
abbrev S121 : Shape := ⟨1, ![121]⟩
abbrev S_ : Shape := ⟨0, ![]⟩

class Facts : Prop where
  bcast_S_S50000x50 : S_.BroadcastsInDim S50000x50 (![] : Fin 0 → Fin S50000x50.rank)
  reducesTo_S50000x50_S_d0_1 : S50000x50.ReducesTo [0, 1] S_
  h_S_ : 0 < S_.numel
  bcast_S_S50x256 : S_.BroadcastsInDim S50x256 (![] : Fin 0 → Fin S50x256.rank)
  reducesTo_S50x256_S_d0_1 : S50x256.ReducesTo [0, 1] S_
  bcast_S_S256 : S_.BroadcastsInDim S256 (![] : Fin 0 → Fin S256.rank)
  reducesTo_S256_S_d0 : S256.ReducesTo [0] S_
  bcast_S_S256x121 : S_.BroadcastsInDim S256x121 (![] : Fin 0 → Fin S256x121.rank)
  reducesTo_S256x121_S_d0_1 : S256x121.ReducesTo [0, 1] S_
  bcast_S_S121 : S_.BroadcastsInDim S121 (![] : Fin 0 → Fin S121.rank)
  reducesTo_S121_S_d0 : S121.ReducesTo [0] S_

variable [Facts]

def fn_part3 {F : FTy → Type} [FloatOps F] (main_v48 : IVec S_ 1) (main_v49 : FVec F S121 .f32) (main_v50 : FVec F S121 .f32) : IVec S_ 1 :=
  let main_v51 : IVec S121 1 := cmpf .olt main_v49 main_v50
  let main_c_19 : IVec S_ 1 := constantI S_ 1 1#1
  let main_v52 : IVec S_ 1 := (fun x v => Host.reduce IntOp.andi x v reducesTo_S121_S_d0 h_S_) main_v51 main_c_19
  let main_v53 : IVec S_ 1 := andi main_v48 main_v52
  main_v53

def fn_part2 {F : FTy → Type} [FloatOps F] (main_arg8 : FVec F S121 .f32) (main_arg9 : FVec F S256x121 .f32) (main_arg10 : FVec F S256x121 .f32) (main_arg11 : FVec F S121 .f32) (main_v33 : IVec S_ 1) : IVec S_ 1 :=
  let main_v34 : FVec F S121 .f32 := Host.absf main_arg8
  let main_cst_12 : FVec F S_ .f32 := constant S_ .f32 0x7F800000#32
  let main_v35 : FVec F S121 .f32 := broadcastInDim S121 ![] bcast_S_S121 main_cst_12
  let main_v36 : IVec S121 1 := cmpf .olt main_v34 main_v35
  let main_c_13 : IVec S_ 1 := constantI S_ 1 1#1
  let main_v37 : IVec S_ 1 := (fun x v => Host.reduce IntOp.andi x v reducesTo_S121_S_d0 h_S_) main_v36 main_c_13
  let main_v38 : IVec S_ 1 := andi main_v33 main_v37
  let main_v39 : FVec F S256x121 .f32 := Host.absf main_arg9
  let main_cst_14 : FVec F S_ .f32 := constant S_ .f32 0x7F800000#32
  let main_v40 : FVec F S256x121 .f32 := broadcastInDim S256x121 ![] bcast_S_S256x121 main_cst_14
  let main_v41 : IVec S256x121 1 := cmpf .olt main_v39 main_v40
  let main_c_15 : IVec S_ 1 := constantI S_ 1 1#1
  let main_v42 : IVec S_ 1 := (fun x v => Host.reduce IntOp.andi x v reducesTo_S256x121_S_d0_1 h_S_) main_v41 main_c_15
  let main_v43 : IVec S_ 1 := andi main_v38 main_v42
  let main_v44 : FVec F S256x121 .f32 := Host.absf main_arg10
  let main_cst_16 : FVec F S_ .f32 := constant S_ .f32 0x7F800000#32
  let main_v45 : FVec F S256x121 .f32 := broadcastInDim S256x121 ![] bcast_S_S256x121 main_cst_16
  let main_v46 : IVec S256x121 1 := cmpf .olt main_v44 main_v45
  let main_c_17 : IVec S_ 1 := constantI S_ 1 1#1
  let main_v47 : IVec S_ 1 := (fun x v => Host.reduce IntOp.andi x v reducesTo_S256x121_S_d0_1 h_S_) main_v46 main_c_17
  let main_v48 : IVec S_ 1 := andi main_v43 main_v47
  let main_v49 : FVec F S121 .f32 := Host.absf main_arg11
  let main_cst_18 : FVec F S_ .f32 := constant S_ .f32 0x7F800000#32
  let main_v50 : FVec F S121 .f32 := broadcastInDim S121 ![] bcast_S_S121 main_cst_18
  fn_part3 (F := F) main_v48 main_v49 main_v50

def fn_part1 {F : FTy → Type} [FloatOps F] (main_arg5 : FVec F S50x256 .f32) (main_arg6 : FVec F S256 .f32) (main_arg7 : FVec F S256x121 .f32) (main_arg8 : FVec F S121 .f32) (main_arg9 : FVec F S256x121 .f32) (main_arg10 : FVec F S256x121 .f32) (main_arg11 : FVec F S121 .f32) (main_v13 : IVec S_ 1) (main_v16 : IVec S50x256 1) : IVec S_ 1 :=
  let main_c_5 : IVec S_ 1 := constantI S_ 1 1#1
  let main_v17 : IVec S_ 1 := (fun x v => Host.reduce IntOp.andi x v reducesTo_S50x256_S_d0_1 h_S_) main_v16 main_c_5
  let main_v18 : IVec S_ 1 := andi main_v13 main_v17
  let main_v19 : FVec F S50x256 .f32 := Host.absf main_arg5
  let main_cst_6 : FVec F S_ .f32 := constant S_ .f32 0x7F800000#32
  let main_v20 : FVec F S50x256 .f32 := broadcastInDim S50x256 ![] bcast_S_S50x256 main_cst_6
  let main_v21 : IVec S50x256 1 := cmpf .olt main_v19 main_v20
  let main_c_7 : IVec S_ 1 := constantI S_ 1 1#1
  let main_v22 : IVec S_ 1 := (fun x v => Host.reduce IntOp.andi x v reducesTo_S50x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x121 .f32 := Host.absf main_arg7
  let main_cst_10 : FVec F S_ .f32 := constant S_ .f32 0x7F800000#32
  let main_v30 : FVec F S256x121 .f32 := broadcastInDim S256x121 ![] bcast_S_S256x121 main_cst_10
  let main_v31 : IVec S256x121 1 := cmpf .olt main_v29 main_v30
  let main_c_11 : IVec S_ 1 := constantI S_ 1 1#1
  let main_v32 : IVec S_ 1 := (fun x v => Host.reduce IntOp.andi x v reducesTo_S256x121_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x50 .f32) (main_arg1 : IVec S2x800000 32) (main_arg2 : FVec F S50x256 .f32) (main_arg3 : FVec F S256 .f32) (main_arg4 : FVec F S50x256 .f32) (main_arg5 : FVec F S50x256 .f32) (main_arg6 : FVec F S256 .f32) (main_arg7 : FVec F S256x121 .f32) (main_arg8 : FVec F S121 .f32) (main_arg9 : FVec F S256x121 .f32) (main_arg10 : FVec F S256x121 .f32) (main_arg11 : FVec F S121 .f32) : IVec S_ 1 :=
  let main_v0 : FVec F S50000x50 .f32 := Host.absf main_arg0
  let main_cst : FVec F S_ .f32 := constant S_ .f32 0x7F800000#32
  let main_v1 : FVec F S50000x50 .f32 := broadcastInDim S50000x50 ![] bcast_S_S50000x50 main_cst
  let main_v2 : IVec S50000x50 1 := cmpf .olt main_v0 main_v1
  let main_c : IVec S_ 1 := constantI S_ 1 1#1
  let main_v3 : IVec S_ 1 := (fun x v => Host.reduce IntOp.andi x v reducesTo_S50000x50_S_d0_1 h_S_) main_v2 main_c
  let main_v4 : FVec F S50x256 .f32 := Host.absf main_arg2
  let main_cst_0 : FVec F S_ .f32 := constant S_ .f32 0x7F800000#32
  let main_v5 : FVec F S50x256 .f32 := broadcastInDim S50x256 ![] bcast_S_S50x256 main_cst_0
  let main_v6 : IVec S50x256 1 := cmpf .olt main_v4 main_v5
  let main_c_1 : IVec S_ 1 := constantI S_ 1 1#1
  let main_v7 : IVec S_ 1 := (fun x v => Host.reduce IntOp.andi x v reducesTo_S50x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S50x256 .f32 := Host.absf main_arg4
  let main_cst_4 : FVec F S_ .f32 := constant S_ .f32 0x7F800000#32
  let main_v15 : FVec F S50x256 .f32 := broadcastInDim S50x256 ![] bcast_S_S50x256 main_cst_4
  let main_v16 : IVec S50x256 1 := cmpf .olt main_v14 main_v15
  fn_part1 (F := F) main_arg5 main_arg6 main_arg7 main_arg8 main_arg9 main_arg10 main_arg11 main_v13 main_v16
-- ==== Kernel.lean ====
abbrev S50000x50 : Shape := ⟨2, ![50000, 50]⟩
abbrev S2x800000 : Shape := ⟨2, ![2, 800000]⟩
abbrev S50x256 : Shape := ⟨2, ![50, 256]⟩
abbrev S256 : Shape := ⟨1, ![256]⟩
abbrev S256x121 : Shape := ⟨2, ![256, 121]⟩
abbrev S121 : Shape := ⟨1, ![121]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x50 : Shape := ⟨2, ![800000, 50]⟩
abbrev S256x128 : Shape := ⟨2, ![256, 128]⟩
abbrev S1x256 : Shape := ⟨2, ![1, 256]⟩
abbrev S50000x256 : Shape := ⟨2, ![50000, 256]⟩
abbrev S50000x128 : Shape := ⟨2, ![50000, 128]⟩
abbrev S2000x50 : Shape := ⟨2, ![2000, 50]⟩
abbrev S2000x256 : Shape := ⟨2, ![2000, 256]⟩
abbrev S2000x128 : Shape := ⟨2, ![2000, 128]⟩
abbrev S2000 : Shape := ⟨1, ![2000]⟩
abbrev S2000x1 : Shape := ⟨2, ![2000, 1]⟩
abbrev S800000x128 : Shape := ⟨2, ![800000, 128]⟩
abbrev S1x121 : Shape := ⟨2, ![1, 121]⟩
abbrev S1x128 : Shape := ⟨2, ![1, 128]⟩
abbrev S50000x121 : Shape := ⟨2, ![50000, 121]⟩

abbrev nBuf : Space → Nat
  | .hbm => 81
  | .vmem => 24
  | .smem => 0
  | _ => 0

abbrev bufTy : (tb : Table) → Fin (tcTables nBuf tb) → BufTy
  | .hbm, ⟨0, _⟩ => ⟨S50000x50, .f32⟩
  | .hbm, ⟨1, _⟩ => ⟨S2x800000, .i32⟩
  | .hbm, ⟨2, _⟩ => ⟨S50x256, .f32⟩
  | .hbm, ⟨3, _⟩ => ⟨S256, .f32⟩
  | .hbm, ⟨4, _⟩ => ⟨S50x256, .f32⟩
  | .hbm, ⟨5, _⟩ => ⟨S50x256, .f32⟩
  | .hbm, ⟨6, _⟩ => ⟨S256, .f32⟩
  | .hbm, ⟨7, _⟩ => ⟨S256x121, .f32⟩
  | .hbm, ⟨8, _⟩ => ⟨S121, .f32⟩
  | .hbm, ⟨9, _⟩ => ⟨S256x121, .f32⟩
  | .hbm, ⟨10, _⟩ => ⟨S256x121, .f32⟩
  | .hbm, ⟨11, _⟩ => ⟨S121, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000x1, .f32⟩
  | .hbm, ⟨18, _⟩ => ⟨S_, .f32⟩
  | .hbm, ⟨19, _⟩ => ⟨S50000x1, .f32⟩
  | .hbm, ⟨20, _⟩ => ⟨S800000x1, .i32⟩
  | .hbm, ⟨21, _⟩ => ⟨S50000x1, .f32⟩
  | .hbm, ⟨22, _⟩ => ⟨S_, .f32⟩
  | .hbm, ⟨23, _⟩ => ⟨S50000x1, .f32⟩
  | .hbm, ⟨24, _⟩ => ⟨S50000x1, .f32⟩
  | .hbm, ⟨25, _⟩ => ⟨S_, .f32⟩
  | .hbm, ⟨26, _⟩ => ⟨S50000x1, .f32⟩
  | .hbm, ⟨27, _⟩ => ⟨S50000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x50, .f32⟩
  | .hbm, ⟨37, _⟩ => ⟨S_, .f32⟩
  | .hbm, ⟨38, _⟩ => ⟨S50000x50, .f32⟩
  | .hbm, ⟨39, _⟩ => ⟨S800000x1, .i32⟩
  | .hbm, ⟨40, _⟩ => ⟨S50000x50, .f32⟩
  | .hbm, ⟨41, _⟩ => ⟨S50000x50, .f32⟩
  | .hbm, ⟨42, _⟩ => ⟨S50000x50, .f32⟩
  | .hbm, ⟨43, _⟩ => ⟨S_, .i32⟩
  | .hbm, ⟨44, _⟩ => ⟨S_, .f32⟩
  | .hbm, ⟨45, _⟩ => ⟨S256x128, .f32⟩
  | .hbm, ⟨46, _⟩ => ⟨S1x256, .f32⟩
  | .hbm, ⟨47, _⟩ => ⟨S1x256, .f32⟩
  | .hbm, ⟨48, _⟩ => ⟨S50000x256, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S_, .i32⟩
  | .hbm, ⟨66, _⟩ => ⟨S_, .f32⟩
  | .hbm, ⟨67, _⟩ => ⟨S256x128, .f32⟩
  | .hbm, ⟨68, _⟩ => ⟨S1x121, .f32⟩
  | .hbm, ⟨69, _⟩ => ⟨S_, .i32⟩
  | .hbm, ⟨70, _⟩ => ⟨S_, .f32⟩
  | .hbm, ⟨71, _⟩ => ⟨S1x128, .f32⟩
  | .hbm, ⟨72, _⟩ => ⟨S_, .i32⟩
  | .hbm, ⟨73, _⟩ => ⟨S_, .f32⟩
  | .hbm, ⟨74, _⟩ => ⟨S256x128, .f32⟩
  | .hbm, ⟨75, _⟩ => ⟨S1x121, .f32⟩
  | .hbm, ⟨76, _⟩ => ⟨S_, .i32⟩
  | .hbm, ⟨77, _⟩ => ⟨S_, .f32⟩
  | .hbm, ⟨78, _⟩ => ⟨S1x128, .f32⟩
  | .hbm, ⟨79, _⟩ => ⟨S50000x128, .f32⟩
  | .hbm, ⟨80, _⟩ => ⟨S50000x121, .f32⟩
  | .local _ .vmem, ⟨0, _⟩ => ⟨S2000x50, .f32⟩
  | .local _ .vmem, ⟨1, _⟩ => ⟨S2000x50, .f32⟩
  | .local _ .vmem, ⟨2, _⟩ => ⟨S2000x50, .f32⟩
  | .local _ .vmem, ⟨3, _⟩ => ⟨S2000x50, .f32⟩
  | .local _ .vmem, ⟨4, _⟩ => ⟨S50x256, .f32⟩
  | .local _ .vmem, ⟨5, _⟩ => ⟨S1x256, .f32⟩
  | .local _ .vmem, ⟨6, _⟩ => ⟨S50x256, .f32⟩
  | .local _ .vmem, ⟨7, _⟩ => ⟨S50x256, .f32⟩
  | .local _ .vmem, ⟨8, _⟩ => ⟨S1x256, .f32⟩
  | .local _ .vmem, ⟨9, _⟩ => ⟨S256x128, .f32⟩
  | .local _ .vmem, ⟨10, _⟩ => ⟨S2000x256, .f32⟩
  | .local _ .vmem, ⟨11, _⟩ => ⟨S2000x256, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x256, .f32⟩
  | .local _ .vmem, ⟨17, _⟩ => ⟨S2000x256, .f32⟩
  | .local _ .vmem, ⟨18, _⟩ => ⟨S256x128, .f32⟩
  | .local _ .vmem, ⟨19, _⟩ => ⟨S1x128, .f32⟩
  | .local _ .vmem, ⟨20, _⟩ => ⟨S256x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | _, _ => ⟨S50000x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_call0_v0 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27_0 : Ref sig .tc := ⟨.hbm, 48, rfl⟩
abbrev main_v27_1 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_c_7 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_9 : Ref sig .tc := ⟨.hbm, 65, rfl⟩
abbrev main_call1_v0 : Ref sig .tc := ⟨.hbm, 66, rfl⟩
abbrev main_v40 : Ref sig .tc := ⟨.hbm, 67, rfl⟩
abbrev main_v41 : Ref sig .tc := ⟨.hbm, 68, rfl⟩
abbrev main_c_10 : Ref sig .tc := ⟨.hbm, 69, rfl⟩
abbrev main_call2_v0 : Ref sig .tc := ⟨.hbm, 70, rfl⟩
abbrev main_v42 : Ref sig .tc := ⟨.hbm, 71, rfl⟩
abbrev main_c_11 : Ref sig .tc := ⟨.hbm, 72, rfl⟩
abbrev main_call3_v0 : Ref sig .tc := ⟨.hbm, 73, rfl⟩
abbrev main_v43 : Ref sig .tc := ⟨.hbm, 74, rfl⟩
abbrev main_v44 : Ref sig .tc := ⟨.hbm, 75, rfl⟩
abbrev main_c_12 : Ref sig .tc := ⟨.hbm, 76, rfl⟩
abbrev main_call4_v0 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S50x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S50x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S50x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000x50 : S_.BroadcastsInDim S50000x50 (![] : Fin 0 → Fin S50000x50.rank)
  bcast_S50000x1_S50000x50_0_1 : S50000x1.BroadcastsInDim S50000x50 (![0, 1] : Fin 2 → Fin S50000x50.rank)
  pads_S256x121_S256x128_000_070 : S256x121.Pads (![0, 0] : Fin 2 → Nat) ![0, 7] ![0, 0] S256x128
  h_S_ : 0 < S_.numel
  shapeCasts_S256_S1x256 : S256.ShapeCasts S1x256
  inb_S2000x50_S2000x50_0_0 : ∀ a, (![0, 0] : Fin 2 → Nat) a + S2000x50.size a ≤ S2000x50.size a
  h_S2000x50 : 0 < S2000x50.numel
  shapeCasts_S2000x50_S2000x50 : S2000x50.ShapeCasts S2000x50
  bitsLt_bf16_f32 : FTy.bits .bf16 < FTy.bits .f32
  inb_S50x256_S50x256_0_0 : ∀ a, (![0, 0] : Fin 2 → Nat) a + S50x256.size a ≤ S50x256.size a
  h_S50x256 : 0 < S50x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S121_S1x121 : S121.ShapeCasts S1x121
  pads_S1x121_S1x128_000_070 : S1x121.Pads (![0, 0] : Fin 2 → Nat) ![0, 7] ![0, 0] S1x128
  shapeCasts_S2000x256_S2000x256 : S2000x256.ShapeCasts S2000x256
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  broadcasts_S2000x1_S2000x128 : S2000x1.Broadcasts S2000x128
  slices_S50000x128_S50000x121_0_0 : S50000x128.Slices ![0, 0] S50000x121
  scatter_S50000x1_S800000x1_S800000x1_1_0_0_1_wf : ScatterDims.WF S50000x1 S800000x1 S800000x1 [1] [0] [0] 1
  gather_S50000x50_S800000x1_S800000x50_1_0_n_n_0_1_150_wf : GatherDims.WF S50000x50 S800000x1 S800000x50 [1] [0] [] [0] [] 1 ![1, 50]
  scatter_S50000x50_S800000x1_S800000x50_1_0_0_1_wf : ScatterDims.WF S50000x50 S800000x1 S800000x50 [1] [0] [0] 1
  dot_S2000x50_S50x256_S2000x256_1_0_0_1_n_n_wf : DotDims.WF S2000x50 S50x256 S2000x256 [1] [0] [0] [1] [] []
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x50.size a ≤ S50000x50.size a
  hwx0_0 : ∀ i : grid0.Coords, EltTy.bits .f32 = 32 ∨ (Rect.block (s := S50000x50) S2000x50.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x50.size a ≤ S50000x50.size a
  hwx0_1 : ∀ i : grid0.Coords, EltTy.bits .f32 = 32 ∨ (Rect.block (s := S50000x50) S2000x50.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50x256.size a ≤ S50x256.size a
  hwx0_2 : ∀ i : grid0.Coords, EltTy.bits .f32 = 32 ∨ (Rect.block (s := S50x256) S50x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S50x256.size a ≤ S50x256.size a
  hwx0_4 : ∀ i : grid0.Coords, EltTy.bits .f32 = 32 ∨ (Rect.block (s := S50x256) S50x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S50x256.size a ≤ S50x256.size a
  hwx0_5 : ∀ i : grid0.Coords, EltTy.bits .f32 = 32 ∨ (Rect.block (s := S50x256) S50x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x256.size a ≤ S50000x256.size a
  hwx0_8 : ∀ i : grid0.Coords, EltTy.bits .f32 = 32 ∨ (Rect.block (s := S50000x256) S2000x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S50000x128.size a
  hwx0_9 : ∀ i : grid0.Coords, EltTy.bits .f32 = 32 ∨ (Rect.block (s := S50000x128) S2000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)

variable [Facts₀]

def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x50_S800000x1_S800000x50_1_0_n_n_0_1_150 : GatherDims S50000x50 S800000x1 S800000x50 where
  offsetDims := [1]
  collapsedSliceDims := [0]
  operandBatchingDims := []
  startIndicesBatchingDims := []
  startIndexMap := [0]
  indexVectorDim := 1
  sliceSizes := ![1, 50]
  wf := gather_S50000x50_S800000x1_S800000x50_1_0_n_n_0_1_150_wf
def scatter_S50000x50_S800000x1_S800000x50_1_0_0_1 : ScatterDims S50000x50 S800000x1 S800000x50 where
  updateWindowDims := [1]
  insertedWindowDims := [0]
  scatterDimsToOperandDims := [0]
  indexVectorDim := 1
  wf := scatter_S50000x50_S800000x1_S800000x50_1_0_0_1_wf
def dot_S2000x50_S50x256_S2000x256_1_0_0_1_n_n : DotDims S2000x50 S50x256 S2000x256 where
  lhsContracting := [1]
  rhsContracting := [0]
  lhsNonContracting := [0]
  rhsNonContracting := [1]
  lhsBatch := []
  rhsBatch := []
  wf := dot_S2000x50_S50x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_v23) S2000x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x50.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S50x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S50x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S50x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27_0) S2000x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v27_1) S2000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v39) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27_0) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x50 : Shape := ⟨2, ![50000, 50]⟩
abbrev S2x800000 : Shape := ⟨2, ![2, 800000]⟩
abbrev S50x256 : Shape := ⟨2, ![50, 256]⟩
abbrev S256 : Shape := ⟨1, ![256]⟩
abbrev S256x121 : Shape := ⟨2, ![256, 121]⟩
abbrev S121 : Shape := ⟨1, ![121]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x50 : Shape := ⟨2, ![800000, 50]⟩
abbrev S50000x1 : Shape := ⟨2, ![50000, 1]⟩
abbrev S50000x256 : Shape := ⟨2, ![50000, 256]⟩
abbrev S1x256 : Shape := ⟨2, ![1, 256]⟩
abbrev S50000 : Shape := ⟨1, ![50000]⟩
abbrev S800000x256 : Shape := ⟨2, ![800000, 256]⟩
abbrev S50000x121 : Shape := ⟨2, ![50000, 121]⟩
abbrev S1x121 : Shape := ⟨2, ![1, 121]⟩

abbrev nBuf : Space → Nat
  | .hbm => 121
  | .vmem => 0
  | .smem => 0
  | _ => 0

abbrev bufTy : (tb : Table) → Fin (tcTables nBuf tb) → BufTy
  | .hbm, ⟨0, _⟩ => ⟨S50000x50, .f32⟩
  | .hbm, ⟨1, _⟩ => ⟨S2x800000, .i32⟩
  | .hbm, ⟨2, _⟩ => ⟨S50x256, .f32⟩
  | .hbm, ⟨3, _⟩ => ⟨S256, .f32⟩
  | .hbm, ⟨4, _⟩ => ⟨S50x256, .f32⟩
  | .hbm, ⟨5, _⟩ => ⟨S50x256, .f32⟩
  | .hbm, ⟨6, _⟩ => ⟨S256, .f32⟩
  | .hbm, ⟨7, _⟩ => ⟨S256x121, .f32⟩
  | .hbm, ⟨8, _⟩ => ⟨S121, .f32⟩
  | .hbm, ⟨9, _⟩ => ⟨S256x121, .f32⟩
  | .hbm, ⟨10, _⟩ => ⟨S256x121, .f32⟩
  | .hbm, ⟨11, _⟩ => ⟨S121, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x50, .f32⟩
  | .hbm, ⟨25, _⟩ => ⟨S_, .f32⟩
  | .hbm, ⟨26, _⟩ => ⟨S50000x50, .f32⟩
  | .hbm, ⟨27, _⟩ => ⟨S800000x1, .i32⟩
  | .hbm, ⟨28, _⟩ => ⟨S50000x50, .f32⟩
  | .hbm, ⟨29, _⟩ => ⟨S_, .f32⟩
  | .hbm, ⟨30, _⟩ => ⟨S800000x1, .f32⟩
  | .hbm, ⟨31, _⟩ => ⟨S_, .f32⟩
  | .hbm, ⟨32, _⟩ => ⟨S50000x1, .f32⟩
  | .hbm, ⟨33, _⟩ => ⟨S800000x1, .i32⟩
  | .hbm, ⟨34, _⟩ => ⟨S50000x1, .f32⟩
  | .hbm, ⟨35, _⟩ => ⟨S_, .f32⟩
  | .hbm, ⟨36, _⟩ => ⟨S50000x1, .f32⟩
  | .hbm, ⟨37, _⟩ => ⟨S50000x1, .f32⟩
  | .hbm, ⟨38, _⟩ => ⟨S50000x50, .f32⟩
  | .hbm, ⟨39, _⟩ => ⟨S50000x50, .f32⟩
  | .hbm, ⟨40, _⟩ => ⟨S50000x256, .f32⟩
  | .hbm, ⟨41, _⟩ => ⟨S1x256, .f32⟩
  | .hbm, ⟨42, _⟩ => ⟨S50000x256, .f32⟩
  | .hbm, ⟨43, _⟩ => ⟨S50000x256, .f32⟩
  | .hbm, ⟨44, _⟩ => ⟨S50000x256, .f32⟩
  | .hbm, ⟨45, _⟩ => ⟨S50000x256, .f32⟩
  | .hbm, ⟨46, _⟩ => ⟨S50000x256, .f32⟩
  | .hbm, ⟨47, _⟩ => ⟨S_, .f32⟩
  | .hbm, ⟨48, _⟩ => ⟨S50000, .f32⟩
  | .hbm, ⟨49, _⟩ => ⟨S50000x1, .f32⟩
  | .hbm, ⟨50, _⟩ => ⟨S50000x1, .f32⟩
  | .hbm, ⟨51, _⟩ => ⟨S_, .f32⟩
  | .hbm, ⟨52, _⟩ => ⟨S50000x1, .f32⟩
  | .hbm, ⟨53, _⟩ => ⟨S50000x1, .f32⟩
  | .hbm, ⟨54, _⟩ => ⟨S50000x256, .f32⟩
  | .hbm, ⟨55, _⟩ => ⟨S50000x256, .f32⟩
  | .hbm, ⟨56, _⟩ => ⟨S50000x256, .f32⟩
  | .hbm, ⟨57, _⟩ => ⟨S1x256, .f32⟩
  | .hbm, ⟨58, _⟩ => ⟨S50000x256, .f32⟩
  | .hbm, ⟨59, _⟩ => ⟨S50000x256, .f32⟩
  | .hbm, ⟨60, _⟩ => ⟨S50000x256, .f32⟩
  | .hbm, ⟨61, _⟩ => ⟨S_, .f32⟩
  | .hbm, ⟨62, _⟩ => ⟨S50000x256, .f32⟩
  | .hbm, ⟨63, _⟩ => ⟨S50000x256, .i1⟩
  | .hbm, ⟨64, _⟩ => ⟨S_, .f32⟩
  | .hbm, ⟨65, _⟩ => ⟨S50000x256, .f32⟩
  | .hbm, ⟨66, _⟩ => ⟨S50000x256, .i1⟩
  | .hbm, ⟨67, _⟩ => ⟨S_, .f32⟩
  | .hbm, ⟨68, _⟩ => ⟨S_, .f32⟩
  | .hbm, ⟨69, _⟩ => ⟨S50000x256, .f32⟩
  | .hbm, ⟨70, _⟩ => ⟨S50000x256, .f32⟩
  | .hbm, ⟨71, _⟩ => ⟨S50000x256, .f32⟩
  | .hbm, ⟨72, _⟩ => ⟨S_, .f32⟩
  | .hbm, ⟨73, _⟩ => ⟨S50000x256, .f32⟩
  | .hbm, ⟨74, _⟩ => ⟨S50000x256, .f32⟩
  | .hbm, ⟨75, _⟩ => ⟨S50000x256, .f32⟩
  | .hbm, ⟨76, _⟩ => ⟨S_, .i32⟩
  | .hbm, ⟨77, _⟩ => ⟨S800000, .i32⟩
  | .hbm, ⟨78, _⟩ => ⟨S800000, .i1⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S800000, .i32⟩
  | .hbm, ⟨83, _⟩ => ⟨S800000x1, .i32⟩
  | .hbm, ⟨84, _⟩ => ⟨S800000x256, .f32⟩
  | .hbm, ⟨85, _⟩ => ⟨S_, .f32⟩
  | .hbm, ⟨86, _⟩ => ⟨S50000x256, .f32⟩
  | .hbm, ⟨87, _⟩ => ⟨S800000x1, .i32⟩
  | .hbm, ⟨88, _⟩ => ⟨S50000x256, .f32⟩
  | .hbm, ⟨89, _⟩ => ⟨S_, .f32⟩
  | .hbm, ⟨90, _⟩ => ⟨S800000x1, .f32⟩
  | .hbm, ⟨91, _⟩ => ⟨S_, .f32⟩
  | .hbm, ⟨92, _⟩ => ⟨S50000x1, .f32⟩
  | .hbm, ⟨93, _⟩ => ⟨S800000x1, .i32⟩
  | .hbm, ⟨94, _⟩ => ⟨S50000x1, .f32⟩
  | .hbm, ⟨95, _⟩ => ⟨S_, .f32⟩
  | .hbm, ⟨96, _⟩ => ⟨S50000x1, .f32⟩
  | .hbm, ⟨97, _⟩ => ⟨S50000x1, .f32⟩
  | .hbm, ⟨98, _⟩ => ⟨S50000x256, .f32⟩
  | .hbm, ⟨99, _⟩ => ⟨S50000x256, .f32⟩
  | .hbm, ⟨100, _⟩ => ⟨S50000x121, .f32⟩
  | .hbm, ⟨101, _⟩ => ⟨S1x121, .f32⟩
  | .hbm, ⟨102, _⟩ => ⟨S50000x121, .f32⟩
  | .hbm, ⟨103, _⟩ => ⟨S50000x121, .f32⟩
  | .hbm, ⟨104, _⟩ => ⟨S50000x121, .f32⟩
  | .hbm, ⟨105, _⟩ => ⟨S50000x121, .f32⟩
  | .hbm, ⟨106, _⟩ => ⟨S50000x121, .f32⟩
  | .hbm, ⟨107, _⟩ => ⟨S_, .f32⟩
  | .hbm, ⟨108, _⟩ => ⟨S50000, .f32⟩
  | .hbm, ⟨109, _⟩ => ⟨S50000x1, .f32⟩
  | .hbm, ⟨110, _⟩ => ⟨S50000x1, .f32⟩
  | .hbm, ⟨111, _⟩ => ⟨S_, .f32⟩
  | .hbm, ⟨112, _⟩ => ⟨S50000x1, .f32⟩
  | .hbm, ⟨113, _⟩ => ⟨S50000x1, .f32⟩
  | .hbm, ⟨114, _⟩ => ⟨S50000x121, .f32⟩
  | .hbm, ⟨115, _⟩ => ⟨S50000x121, .f32⟩
  | .hbm, ⟨116, _⟩ => ⟨S50000x121, .f32⟩
  | .hbm, ⟨117, _⟩ => ⟨S1x121, .f32⟩
  | .hbm, ⟨118, _⟩ => ⟨S50000x121, .f32⟩
  | .hbm, ⟨119, _⟩ => ⟨S50000x121, .f32⟩
  | .hbm, ⟨120, _⟩ => ⟨S50000x121, .f32⟩
  | _, _ => ⟨S50000x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call0_cst : Ref sig .tc := ⟨.hbm, 61, rfl⟩
abbrev main_call0_v0 : Ref sig .tc := ⟨.hbm, 62, rfl⟩
abbrev main_call0_v1 : Ref sig .tc := ⟨.hbm, 63, rfl⟩
abbrev main_call0_cst_0 : Ref sig .tc := ⟨.hbm, 64, rfl⟩
abbrev main_call0_v2 : Ref sig .tc := ⟨.hbm, 65, rfl⟩
abbrev main_call0_v3 : Ref sig .tc := ⟨.hbm, 66, rfl⟩
abbrev main_call0_cst_1 : Ref sig .tc := ⟨.hbm, 67, rfl⟩
abbrev main_call0_call0_v0 : Ref sig .tc := ⟨.hbm, 68, rfl⟩
abbrev main_call0_call0_v1 : Ref sig .tc := ⟨.hbm, 69, rfl⟩
abbrev main_call0_v4 : Ref sig .tc := ⟨.hbm, 70, rfl⟩
abbrev main_call0_v5 : Ref sig .tc := ⟨.hbm, 71, rfl⟩
abbrev main_call0_cst_2 : Ref sig .tc := ⟨.hbm, 72, rfl⟩
abbrev main_call0_v6 : Ref sig .tc := ⟨.hbm, 73, rfl⟩
abbrev main_call0_v7 : Ref sig .tc := ⟨.hbm, 74, rfl⟩
abbrev main_v41 : Ref sig .tc := ⟨.hbm, 75, rfl⟩
abbrev main_c_6 : Ref sig .tc := ⟨.hbm, 76, rfl⟩
abbrev main_v42 : Ref sig .tc := ⟨.hbm, 77, rfl⟩
abbrev main_v43 : Ref sig .tc := ⟨.hbm, 78, rfl⟩
abbrev main_c_7 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_cst_8 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_9 : Ref sig .tc := ⟨.hbm, 89, rfl⟩
abbrev main_v52 : Ref sig .tc := ⟨.hbm, 90, rfl⟩
abbrev main_cst_10 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_11 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_cst_12 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_13 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x50 : S_.BroadcastsInDim S50000x50 (![] : Fin 0 → Fin S50000x50.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x50_0_1 : S50000x1.BroadcastsInDim S50000x50 (![0, 1] : Fin 2 → Fin S50000x50.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  h_S_ : 0 < S_.numel
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  bcast_S121_S1x121_1 : S121.BroadcastsInDim S1x121 (![1] : Fin 1 → Fin S1x121.rank)
  bcast_S1x121_S50000x121_0_1 : S1x121.BroadcastsInDim S50000x121 (![0, 1] : Fin 2 → Fin S50000x121.rank)
  reducesTo_S50000x121_S50000_d1 : S50000x121.ReducesTo [1] S50000
  bcast_S50000x1_S50000x121_0_1 : S50000x1.BroadcastsInDim S50000x121 (![0, 1] : Fin 2 → Fin S50000x121.rank)
  gather_S50000x50_S800000x1_S800000x50_1_0_n_n_0_1_150_wf : GatherDims.WF S50000x50 S800000x1 S800000x50 [1] [0] [] [0] [] 1 ![1, 50]
  scatter_S50000x50_S800000x1_S800000x50_1_0_0_1_wf : ScatterDims.WF S50000x50 S800000x1 S800000x50 [1] [0] [0] 1
  scatter_S50000x1_S800000x1_S800000x1_1_0_0_1_wf : ScatterDims.WF S50000x1 S800000x1 S800000x1 [1] [0] [0] 1
  dot_S50000x50_S50x256_S50000x256_1_0_0_1_n_n_wf : DotDims.WF S50000x50 S50x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x121_S50000x121_1_0_0_1_n_n_wf : DotDims.WF S50000x256 S256x121 S50000x121 [1] [0] [0] [1] [] []

variable [Facts₀]

def gather_S50000x50_S800000x1_S800000x50_1_0_n_n_0_1_150 : GatherDims S50000x50 S800000x1 S800000x50 where
  offsetDims := [1]
  collapsedSliceDims := [0]
  operandBatchingDims := []
  startIndicesBatchingDims := []
  startIndexMap := [0]
  indexVectorDim := 1
  sliceSizes := ![1, 50]
  wf := gather_S50000x50_S800000x1_S800000x50_1_0_n_n_0_1_150_wf
def scatter_S50000x50_S800000x1_S800000x50_1_0_0_1 : ScatterDims S50000x50 S800000x1 S800000x50 where
  updateWindowDims := [1]
  insertedWindowDims := [0]
  scatterDimsToOperandDims := [0]
  indexVectorDim := 1
  wf := scatter_S50000x50_S800000x1_S800000x50_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x50_S50x256_S50000x256_1_0_0_1_n_n : DotDims S50000x50 S50x256 S50000x256 where
  lhsContracting := [1]
  rhsContracting := [0]
  lhsNonContracting := [0]
  rhsNonContracting := [1]
  lhsBatch := []
  rhsBatch := []
  wf := dot_S50000x50_S50x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x121_S50000x121_1_0_0_1_n_n : DotDims S50000x256 S256x121 S50000x121 where
  lhsContracting := [1]
  rhsContracting := [0]
  lhsNonContracting := [0]
  rhsNonContracting := [1]
  lhsBatch := []
  rhsBatch := []
  wf := dot_S50000x256_S256x121_S50000x121_1_0_0_1_n_n_wf

class Facts : Prop extends Facts₀ where

variable [Facts]
-- ==== Proof.KRun.lean ====
/-
  The idealized kernel program's run, with its result: every weakly fair execution of @main on the TensorCores
  terminates without a fault, the result buffer holds the last boundary's contents, and the argument arrays end as
  launched.  The final state is read at every unscoped buffer; the result buffer is one of them, and each argument's
  contents at the last boundary are its launch contents.
-/
import proofs.«166945_j62663572848802_2_alg».proof.Proof.Gen.KernelIdeal.Frame
import Idealize.ShloMosaic.PureOps.Ideal

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- matching the launch theorem's conclusion against this statement unfolds plain definitions inside the types of
-- its implicit arguments
set_option backward.isDefEq.respectTransparency.types false in
/-- The run at any float instance: termination without a fault, the result buffer at the last boundary's contents,
    every argument as launched. -/
theorem runF : θ_run defs (onTc (τ := τ) (main (F := F))) ⟨m, fun _ => 0, ρ⟩ (fun r => ∀ c : Dev nD,
      r.2.mem ((c.tc : Thread nD τ).loc main_v47) = Gen.W14 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v47 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c)⟩)

end Cert.KernelIdeal.KValue

namespace Cert.KernelIdeal.KValue

open Idealize.ShloMosaic Idealize.ShloMosaic.TcCoe
open Cert.KernelIdeal.Gen

/-- The run over the extended reals. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v47) = Gen.W14 (F := Ideal) m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  runF m ρ

end Cert.KernelIdeal.KValue

end
-- ==== Proof.RefTerms.lean ====
/-
  The reference program's result as one composed term of its argument arrays, over the extended reals, named stage by
  stage: the two index columns, the neighbour sum of the input rows, the clamped degree, the hidden layer, the output
  layer.  Each later stage takes the earlier ones as variables, so that a reading of it can treat them as opaque.
-/
import proofs.«166945_j62663572848802_2_alg».proof.Proof.Gen.ReferenceIdeal
import Idealize.ShloMosaic.PureOps.Ideal

noncomputable section

namespace Cert.ReferenceIdeal.RefValue

open Cert.ReferenceIdeal Cert.ReferenceIdeal.Gen Idealize.ShloMosaic

section Terms

/-- The source row of the edge table, as a vector of 800000 indices. -/
def eSrc (a1 : IVec S2x800000 32) : IVec S800000 32 :=
  shapeCast S800000 (extractStridedSlice S1x800000 ![0, 0] a1 slices_S2x800000_S1x800000_0_0) shapeCasts_S1x800000_S800000

/-- The destination row of the edge table. -/
def eDst (a1 : IVec S2x800000 32) : IVec S800000 32 :=
  shapeCast S800000 (extractStridedSlice S1x800000 ![1, 0] a1 slices_S2x800000_S1x800000_1_0) shapeCasts_S1x800000_S800000

/-- The gather's index column: a negative source index is taken from the end (50000 added), the rest unchanged. -/
def Isrc (a1 : IVec S2x800000 32) : IVec S800000x1 32 :=
  broadcastInDim S800000x1 ![0] bcast_S800000_S800000x1_0
    (select (cmpi .slt (eSrc a1) (broadcastInDim S800000 ![] bcast_S_S800000 (constantI S_ 32 0#32)))
      (addi (eSrc a1) (broadcastInDim S800000 ![] bcast_S_S800000 (constantI S_ 32 50000#32))) (eSrc a1))

/-- The scatters' index column: the destination row as it stands. -/
def Idst (a1 : IVec S2x800000 32) : IVec S800000x1 32 :=
  broadcastInDim S800000x1 ![0] bcast_S800000_S800000x1_0 (eDst a1)

/-- The sum, over the edges into a node, of the source node's input row. -/
def A1 (a0 : FVec Ideal S50000x50 .f32) (a1 : IVec S2x800000 32) : FVec Ideal S50000x50 .f32 :=
  Host.scatterAdd (F := Ideal) scatter_S50000x50_S800000x1_S800000x50_1_0_0_1
    (broadcastInDim S50000x50 ![] bcast_S_S50000x50 (constant (F := Ideal) S_ .f32 0x00000000#32)) (Idst a1)
    (Host.gather gather_S50000x50_S800000x1_S800000x50_1_0_n_n_0_1_150 a0 (Isrc a1))

/-- The number of edges into a node, at least one. -/
def Dg (a1 : IVec S2x800000 32) : FVec Ideal S50000x1 .f32 :=
  maximumf (Host.scatterAdd (F := Ideal) scatter_S50000x1_S800000x1_S800000x1_1_0_0_1
      (broadcastInDim S50000x1 ![] bcast_S_S50000x1 (constant (F := Ideal) S_ .f32 0x00000000#32)) (Idst a1)
      (broadcastInDim S800000x1 ![] bcast_S_S800000x1 (constant (F := Ideal) S_ .f32 0x3F800000#32)))
    (broadcastInDim S50000x1 ![] bcast_S_S50000x1 (constant (F := Ideal) S_ .f32 0x3F800000#32))

/-- A 256-wide array divided, row by row, by the row's Euclidean norm kept at least the small literal. -/
def nrm256 (v : FVec Ideal S50000x256 .f32) : FVec Ideal S50000x256 .f32 :=
  Host.divf v (broadcastInDim S50000x256 ![0, 1] bcast_S50000x1_S50000x256_0_1
    (maximumf (Host.sqrt (broadcastInDim S50000x1 ![0] bcast_S50000_S50000x1_0
        (Host.reduceAdd (F := Ideal) (mulf v v) (constant (F := Ideal) S_ .f32 0x00000000#32) reducesTo_S50000x256_S50000_d1 h_S_)))
      (broadcastInDim S50000x1 ![] bcast_S_S50000x1 (constant (F := Ideal) S_ .f32 0x2B8CBCCC#32))))

/-- The same for a 121-wide array. -/
def nrm121 (v : FVec Ideal S50000x121 .f32) : FVec Ideal S50000x121 .f32 :=
  Host.divf v (broadcastInDim S50000x121 ![0, 1] bcast_S50000x1_S50000x121_0_1
    (maximumf (Host.sqrt (broadcastInDim S50000x1 ![0] bcast_S50000_S50000x1_0
        (Host.reduceAdd (F := Ideal) (mulf v v) (constant (F := Ideal) S_ .f32 0x00000000#32) reducesTo_S50000x121_S50000_d1 h_S_)))
      (broadcastInDim S50000x1 ![] bcast_S_S50000x1 (constant (F := Ideal) S_ .f32 0x2B8CBCCC#32))))

/-- The first layer before normalisation: the mean of the neighbours' rows through the first weights, the bias, the
    node's own row through the root weights. -/
def sage1Of (A : FVec Ideal S50000x50 .f32) (D : FVec Ideal S50000x1 .f32) (a0 : FVec Ideal S50000x50 .f32)
    (a2 : FVec Ideal S50x256 .f32) (a3 : FVec Ideal S256 .f32) (a4 : FVec Ideal S50x256 .f32) : FVec Ideal S50000x256 .f32 :=
  addf (addf (Host.dotGeneral (F := Ideal) dot_S50000x50_S50x256_S50000x256_1_0_0_1_n_n none
        (Host.divf A (broadcastInDim S50000x50 ![0, 1] bcast_S50000x1_S50000x50_0_1 D)) a2)
      (broadcastInDim S50000x256 ![0, 1] bcast_S1x256_S50000x256_0_1 (broadcastInDim S1x256 ![1] bcast_S256_S1x256_1 a3)))
    (Host.dotGeneral (F := Ideal) dot_S50000x50_S50x256_S50000x256_1_0_0_1_n_n none a0 a4)

/-- The first layer before its activation: the normalised row plus the side branch. -/
def lay1Of (A : FVec Ideal S50000x50 .f32) (D : FVec Ideal S50000x1 .f32) (a0 : FVec Ideal S50000x50 .f32)
    (a2 : FVec Ideal S50x256 .f32) (a3 : FVec Ideal S256 .f32) (a4 a5 : FVec Ideal S50x256 .f32) (a6 : FVec Ideal S256 .f32) :
    FVec Ideal S50000x256 .f32 :=
  addf (nrm256 (sage1Of A D a0 a2 a3 a4))
    (addf (Host.dotGeneral (F := Ideal) dot_S50000x50_S50x256_S50000x256_1_0_0_1_n_n none a0 a5)
      (broadcastInDim S50000x256 ![0, 1] bcast_S1x256_S50000x256_0_1 (broadcastInDim S1x256 ![1] bcast_S256_S1x256_1 a6)))

/-- The activation as the program spells it: the entry where it is positive; elsewhere one times the exponential less
    one of the entry masked to zero where it is positive. -/
def eluOf (v : FVec Ideal S50000x256 .f32) : FVec Ideal S50000x256 .f32 :=
  select (cmpf .ogt v (broadcastInDim S50000x256 ![] bcast_S_S50000x256 (constant (F := Ideal) S_ .f32 0x00000000#32))) v
    (mulf (broadcastInDim S50000x256 ![] bcast_S_S50000x256 (constant (F := Ideal) S_ .f32 0x3F800000#32))
      (Host.expm1 (select (cmpf .ogt v (broadcastInDim S50000x256 ![] bcast_S_S50000x256 (constant (F := Ideal) S_ .f32 0x00000000#32)))
        (broadcastInDim S50000x256 ![] bcast_S_S50000x256 (id (constant (F := Ideal) S_ .f32 0x00000000#32))) v)))

/-- The hidden layer from the neighbour sum `A` and the degree `D`. -/
def hidOf (A : FVec Ideal S50000x50 .f32) (D : FVec Ideal S50000x1 .f32) (a0 : FVec Ideal S50000x50 .f32)
    (a2 : FVec Ideal S50x256 .f32) (a3 : FVec Ideal S256 .f32) (a4 a5 : FVec Ideal S50x256 .f32) (a6 : FVec Ideal S256 .f32) :
    FVec Ideal S50000x256 .f32 :=
  eluOf (lay1Of A D a0 a2 a3 a4 a5 a6)

/-- The hidden layer of the program. -/
def hid (a0 : FVec Ideal S50000x50 .f32) (a1 : IVec S2x800000 32) (a2 : FVec Ideal S50x256 .f32) (a3 : FVec Ideal S256 .f32)
    (a4 a5 : FVec Ideal S50x256 .f32) (a6 : FVec Ideal S256 .f32) : FVec Ideal S50000x256 .f32 :=
  hidOf (A1 a0 a1) (Dg a1) a0 a2 a3 a4 a5 a6

/-- The second layer before normalisation, from the hidden layer `H`, the index columns and the degree. -/
def sage2Of (H : FVec Ideal S50000x256 .f32) (Is Id : IVec S800000x1 32) (D : FVec Ideal S50000x1 .f32)
    (a7 : FVec Ideal S256x121 .f32) (a8 : FVec Ideal S121 .f32) (a9 : FVec Ideal S256x121 .f32) : FVec Ideal S50000x121 .f32 :=
  addf (addf (Host.dotGeneral (F := Ideal) dot_S50000x256_S256x121_S50000x121_1_0_0_1_n_n none
        (Host.divf (Host.scatterAdd (F := Ideal) scatter_S50000x256_S800000x1_S800000x256_1_0_0_1
            (broadcastInDim S50000x256 ![] bcast_S_S50000x256 (constant (F := Ideal) S_ .f32 0x00000000#32)) Id
            (Host.gather gather_S50000x256_S800000x1_S800000x256_1_0_n_n_0_1_1256 H Is))
          (broadcastInDim S50000x256 ![0, 1] bcast_S50000x1_S50000x256_0_1 D)) a7)
      (broadcastInDim S50000x121 ![0, 1] bcast_S1x121_S50000x121_0_1 (broadcastInDim S1x121 ![1] bcast_S121_S1x121_1 a8)))
    (Host.dotGeneral (F := Ideal) dot_S50000x256_S256x121_S50000x121_1_0_0_1_n_n none H a9)

/-- The output layer from the hidden layer `H`. -/
def outOf (H : FVec Ideal S50000x256 .f32) (Is Id : IVec S800000x1 32) (D : FVec Ideal S50000x1 .f32)
    (a7 : FVec Ideal S256x121 .f32) (a8 : FVec Ideal S121 .f32) (a9 a10 : FVec Ideal S256x121 .f32) (a11 : FVec Ideal S121 .f32) :
    FVec Ideal S50000x121 .f32 :=
  addf (nrm121 (sage2Of H Is Id D a7 a8 a9))
    (addf (Host.dotGeneral (F := Ideal) dot_S50000x256_S256x121_S50000x121_1_0_0_1_n_n none H a10)
      (broadcastInDim S50000x121 ![0, 1] bcast_S1x121_S50000x121_0_1 (broadcastInDim S1x121 ![1] bcast_S121_S1x121_1 a11)))

/-- The result of the program. -/
def out (a0 : FVec Ideal S50000x50 .f32) (a1 : IVec S2x800000 32) (a2 : FVec Ideal S50x256 .f32) (a3 : FVec Ideal S256 .f32)
    (a4 a5 : FVec Ideal S50x256 .f32) (a6 : FVec Ideal S256 .f32) (a7 : FVec Ideal S256x121 .f32) (a8 : FVec Ideal S121 .f32)
    (a9 a10 : FVec Ideal S256x121 .f32) (a11 : FVec Ideal S121 .f32) : FVec Ideal S50000x121 .f32 :=
  outOf (hid a0 a1 a2 a3 a4 a5 a6) (Isrc a1) (Idst a1) (Dg a1) a7 a8 a9 a10 a11

end Terms

end Cert.ReferenceIdeal.RefValue

end
-- ==== Proof.RefRun.lean ====
/-
  The reference program's run, read back.  Its @main is a straight line of host operations (the call of
  `elu`, which itself calls the two `where` helpers, written out at the call site over that call's own
  buffers), so every weakly fair execution terminates with each buffer at the fold of the operations over
  the launch contents.  The result buffer then holds the composed term `out` of the argument arrays (the
  stages are named in the module of the terms), and the arguments are left as they were.
-/
import proofs.«166945_j62663572848802_2_alg».proof.Proof.Gen.ReferenceIdeal
import proofs.«166945_j62663572848802_2_alg».proof.Proof.RefTerms
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

section Line

variable {F : FTy → Type} [FloatOps F]

/-- @main's operations in order, the call of `elu` unfolded at the call's own buffers: fifteen operations (the zero
    and its broadcast, the comparison, the same again for the mask, the masked argument through the first `where`,
    the exponential less one, the multiplication by one, the second `where`). -/
abbrev ops : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x50_S800000x1_S800000x50_1_0_n_n_0_1_150 x i) : (⟨S50000x50, .f32⟩ : BufTy).Contents (Elt F) → (⟨S800000x1, .i32⟩ : BufTy).Contents (Elt F) → (⟨S800000x50, .f32⟩ : BufTy).Contents (Elt F)),
    StableHlo.nullary main_cst (constant S_ .f32 0x00000000#32),
    StableHlo.unary main_cst main_v11 (broadcastInDim S50000x50 ![] bcast_S_S50000x50 : (⟨S_, .f32⟩ : BufTy).Contents (Elt F) → (⟨S50000x50, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x50_S800000x1_S800000x50_1_0_0_1 x i u) : (⟨S50000x50, .f32⟩ : BufTy).Contents (Elt F) → (⟨S800000x1, .i32⟩ : BufTy).Contents (Elt F) → (⟨S800000x50, .f32⟩ : BufTy).Contents (Elt F) → (⟨S50000x50, .f32⟩ : BufTy).Contents (Elt F)),
    StableHlo.nullary main_cst_1 (constant S_ .f32 0x3F800000#32),
    StableHlo.unary main_cst_1 main_v14 (broadcastInDim S800000x1 ![] bcast_S_S800000x1 : (⟨S_, .f32⟩ : BufTy).Contents (Elt F) → (⟨S800000x1, .f32⟩ : BufTy).Contents (Elt F)),
    StableHlo.nullary main_cst_2 (constant S_ .f32 0x00000000#32),
    StableHlo.unary main_cst_2 main_v15 (broadcastInDim S50000x1 ![] bcast_S_S50000x1 : (⟨S_, .f32⟩ : BufTy).Contents (Elt F) → (⟨S50000x1, .f32⟩ : BufTy).Contents (Elt F)),
    StableHlo.unary main_v3 main_v16 (broadcastInDim S800000x1 ![0] bcast_S800000_S800000x1_0 : (⟨S800000, .i32⟩ : BufTy).Contents (Elt F) → (⟨S800000x1, .i32⟩ : BufTy).Contents (Elt F)),
    StableHlo.ternary main_v15 main_v16 main_v14 main_v17 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.nullary main_cst_3 (constant S_ .f32 0x3F800000#32),
    StableHlo.unary main_cst_3 main_v18 (broadcastInDim S50000x1 ![] bcast_S_S50000x1 : (⟨S_, .f32⟩ : BufTy).Contents (Elt F) → (⟨S50000x1, .f32⟩ : BufTy).Contents (Elt F)),
    StableHlo.binary main_v17 main_v18 main_v19 (maximumf : (⟨S50000x1, .f32⟩ : BufTy).Contents (Elt F) → (⟨S50000x1, .f32⟩ : BufTy).Contents (Elt F) → (⟨S50000x1, .f32⟩ : BufTy).Contents (Elt F)),
    StableHlo.unary main_v19 main_v20 (broadcastInDim S50000x50 ![0, 1] bcast_S50000x1_S50000x50_0_1 : (⟨S50000x1, .f32⟩ : BufTy).Contents (Elt F) → (⟨S50000x50, .f32⟩ : BufTy).Contents (Elt F)),
    StableHlo.binary main_v13 main_v20 main_v21 (Host.divf : (⟨S50000x50, .f32⟩ : BufTy).Contents (Elt F) → (⟨S50000x50, .f32⟩ : BufTy).Contents (Elt F) → (⟨S50000x50, .f32⟩ : BufTy).Contents (Elt F)),
    StableHlo.binary main_v21 main_arg2 main_v22 ((fun l r => Host.dotGeneral dot_S50000x50_S50x256_S50000x256_1_0_0_1_n_n none l r) : (⟨S50000x50, .f32⟩ : BufTy).Contents (Elt F) → (⟨S50x256, .f32⟩ : BufTy).Contents (Elt F) → (⟨S50000x256, .f32⟩ : BufTy).Contents (Elt F)),
    StableHlo.unary main_arg3 main_v23 (broadcastInDim S1x256 ![1] bcast_S256_S1x256_1 : (⟨S256, .f32⟩ : BufTy).Contents (Elt F) → (⟨S1x256, .f32⟩ : BufTy).Contents (Elt F)),
    StableHlo.unary main_v23 main_v24 (broadcastInDim S50000x256 ![0, 1] bcast_S1x256_S50000x256_0_1 : (⟨S1x256, .f32⟩ : BufTy).Contents (Elt F) → (⟨S50000x256, .f32⟩ : BufTy).Contents (Elt F)),
    StableHlo.binary main_v22 main_v24 main_v25 (addf : (⟨S50000x256, .f32⟩ : BufTy).Contents (Elt F) → (⟨S50000x256, .f32⟩ : BufTy).Contents (Elt F) → (⟨S50000x256, .f32⟩ : BufTy).Contents (Elt F)),
    StableHlo.binary main_arg0 main_arg4 main_v26 ((fun l r => Host.dotGeneral dot_S50000x50_S50x256_S50000x256_1_0_0_1_n_n none l r) : (⟨S50000x50, .f32⟩ : BufTy).Contents (Elt F) → (⟨S50x256, .f32⟩ : BufTy).Contents (Elt F) → (⟨S50000x256, .f32⟩ : BufTy).Contents (Elt F)),
    StableHlo.binary main_v25 main_v26 main_v27 (addf : (⟨S50000x256, .f32⟩ : BufTy).Contents (Elt F) → (⟨S50000x256, .f32⟩ : BufTy).Contents (Elt F) → (⟨S50000x256, .f32⟩ : BufTy).Contents (Elt F)),
    StableHlo.binary main_v27 main_v27 main_v28 (mulf : (⟨S50000x256, .f32⟩ : BufTy).Contents (Elt F) → (⟨S50000x256, .f32⟩ : BufTy).Contents (Elt F) → (⟨S50000x256, .f32⟩ : BufTy).Contents (Elt F)),
    StableHlo.nullary main_cst_4 (constant S_ .f32 0x00000000#32),
    StableHlo.binary main_v28 main_cst_4 main_v29 ((fun x v => Host.reduceAdd x v reducesTo_S50000x256_S50000_d1 h_S_) : (⟨S50000x256, .f32⟩ : BufTy).Contents (Elt F) → (⟨S_, .f32⟩ : BufTy).Contents (Elt F) → (⟨S50000, .f32⟩ : BufTy).Contents (Elt F)),
    StableHlo.unary main_v29 main_v30 (broadcastInDim S50000x1 ![0] bcast_S50000_S50000x1_0 : (⟨S50000, .f32⟩ : BufTy).Contents (Elt F) → (⟨S50000x1, .f32⟩ : BufTy).Contents (Elt F)),
    StableHlo.unary main_v30 main_v31 (Host.sqrt : (⟨S50000x1, .f32⟩ : BufTy).Contents (Elt F) → (⟨S50000x1, .f32⟩ : BufTy).Contents (Elt F)),
    StableHlo.nullary main_cst_5 (constant S_ .f32 0x2B8CBCCC#32),
    StableHlo.unary main_cst_5 main_v32 (broadcastInDim S50000x1 ![] bcast_S_S50000x1 : (⟨S_, .f32⟩ : BufTy).Contents (Elt F) → (⟨S50000x1, .f32⟩ : BufTy).Contents (Elt F)),
    StableHlo.binary main_v31 main_v32 main_v33 (maximumf : (⟨S50000x1, .f32⟩ : BufTy).Contents (Elt F) → (⟨S50000x1, .f32⟩ : BufTy).Contents (Elt F) → (⟨S50000x1, .f32⟩ : BufTy).Contents (Elt F)),
    StableHlo.unary main_v33 main_v34 (broadcastInDim S50000x256 ![0, 1] bcast_S50000x1_S50000x256_0_1 : (⟨S50000x1, .f32⟩ : BufTy).Contents (Elt F) → (⟨S50000x256, .f32⟩ : BufTy).Contents (Elt F)),
    StableHlo.binary main_v27 main_v34 main_v35 (Host.divf : (⟨S50000x256, .f32⟩ : BufTy).Contents (Elt F) → (⟨S50000x256, .f32⟩ : BufTy).Contents (Elt F) → (⟨S50000x256, .f32⟩ : BufTy).Contents (Elt F)),
    StableHlo.binary main_arg0 main_arg5 main_v36 ((fun l r => Host.dotGeneral dot_S50000x50_S50x256_S50000x256_1_0_0_1_n_n none l r) : (⟨S50000x50, .f32⟩ : BufTy).Contents (Elt F) → (⟨S50x256, .f32⟩ : BufTy).Contents (Elt F) → (⟨S50000x256, .f32⟩ : BufTy).Contents (Elt F)),
    StableHlo.unary main_arg6 main_v37 (broadcastInDim S1x256 ![1] bcast_S256_S1x256_1 : (⟨S256, .f32⟩ : BufTy).Contents (Elt F) → (⟨S1x256, .f32⟩ : BufTy).Contents (Elt F)),
    StableHlo.unary main_v37 main_v38 (broadcastInDim S50000x256 ![0, 1] bcast_S1x256_S50000x256_0_1 : (⟨S1x256, .f32⟩ : BufTy).Contents (Elt F) → (⟨S50000x256, .f32⟩ : BufTy).Contents (Elt F)),
    StableHlo.binary main_v36 main_v38 main_v39 (addf : (⟨S50000x256, .f32⟩ : BufTy).Contents (Elt F) → (⟨S50000x256, .f32⟩ : BufTy).Contents (Elt F) → (⟨S50000x256, .f32⟩ : BufTy).Contents (Elt F)),
    StableHlo.binary main_v35 main_v39 main_v40 (addf : (⟨S50000x256, .f32⟩ : BufTy).Contents (Elt F) → (⟨S50000x256, .f32⟩ : BufTy).Contents (Elt F) → (⟨S50000x256, .f32⟩ : BufTy).Contents (Elt F)),
    StableHlo.nullary main_call0_cst (constant S_ .f32 0x00000000#32),
    StableHlo.unary main_call0_cst main_call0_v0 (broadcastInDim S50000x256 ![] bcast_S_S50000x256 : (⟨S_, .f32⟩ : BufTy).Contents (Elt F) → (⟨S50000x256, .f32⟩ : BufTy).Contents (Elt F)),
    StableHlo.binary main_v40 main_call0_v0 main_call0_v1 (cmpf .ogt : (⟨S50000x256, .f32⟩ : BufTy).Contents (Elt F) → (⟨S50000x256, .f32⟩ : BufTy).Contents (Elt F) → (⟨S50000x256, .i1⟩ : BufTy).Contents (Elt F)),
    StableHlo.nullary main_call0_cst_0 (constant S_ .f32 0x00000000#32),
    StableHlo.unary main_call0_cst_0 main_call0_v2 (broadcastInDim S50000x256 ![] bcast_S_S50000x256 : (⟨S_, .f32⟩ : BufTy).Contents (Elt F) → (⟨S50000x256, .f32⟩ : BufTy).Contents (Elt F)),
    StableHlo.binary main_v40 main_call0_v2 main_call0_v3 (cmpf .ogt : (⟨S50000x256, .f32⟩ : BufTy).Contents (Elt F) → (⟨S50000x256, .f32⟩ : BufTy).Contents (Elt F) → (⟨S50000x256, .i1⟩ : BufTy).Contents (Elt F)),
    StableHlo.nullary main_call0_cst_1 (constant S_ .f32 0x00000000#32),
    StableHlo.unary main_call0_cst_1 main_call0_call0_v0 (id : (⟨S_, .f32⟩ : BufTy).Contents (Elt F) → (⟨S_, .f32⟩ : BufTy).Contents (Elt F)),
    StableHlo.unary main_call0_call0_v0 main_call0_call0_v1 (broadcastInDim S50000x256 ![] bcast_S_S50000x256 : (⟨S_, .f32⟩ : BufTy).Contents (Elt F) → (⟨S50000x256, .f32⟩ : BufTy).Contents (Elt F)),
    StableHlo.ternary main_call0_v3 main_call0_call0_v1 main_v40 main_call0_v4 (select : (⟨S50000x256, .i1⟩ : BufTy).Contents (Elt F) → (⟨S50000x256, .f32⟩ : BufTy).Contents (Elt F) → (⟨S50000x256, .f32⟩ : BufTy).Contents (Elt F) → (⟨S50000x256, .f32⟩ : BufTy).Contents (Elt F)),
    StableHlo.unary main_call0_v4 main_call0_v5 (Host.expm1 : (⟨S50000x256, .f32⟩ : BufTy).Contents (Elt F) → (⟨S50000x256, .f32⟩ : BufTy).Contents (Elt F)),
    StableHlo.nullary main_call0_cst_2 (constant S_ .f32 0x3F800000#32),
    StableHlo.unary main_call0_cst_2 main_call0_v6 (broadcastInDim S50000x256 ![] bcast_S_S50000x256 : (⟨S_, .f32⟩ : BufTy).Contents (Elt F) → (⟨S50000x256, .f32⟩ : BufTy).Contents (Elt F)),
    StableHlo.binary main_call0_v6 main_call0_v5 main_call0_v7 (mulf : (⟨S50000x256, .f32⟩ : BufTy).Contents (Elt F) → (⟨S50000x256, .f32⟩ : BufTy).Contents (Elt F) → (⟨S50000x256, .f32⟩ : BufTy).Contents (Elt F)),
    StableHlo.ternary main_call0_v1 main_v40 main_call0_v7 main_v41 (select : (⟨S50000x256, .i1⟩ : BufTy).Contents (Elt F) → (⟨S50000x256, .f32⟩ : BufTy).Contents (Elt F) → (⟨S50000x256, .f32⟩ : BufTy).Contents (Elt F) → (⟨S50000x256, .f32⟩ : BufTy).Contents (Elt F)),
    StableHlo.nullary main_c_6 (constantI S_ 32 0#32),
    StableHlo.unary main_c_6 main_v42 (broadcastInDim S800000 ![] bcast_S_S800000 : (⟨S_, .i32⟩ : BufTy).Contents (Elt F) → (⟨S800000, .i32⟩ : BufTy).Contents (Elt F)),
    StableHlo.binary main_v1 main_v42 main_v43 (cmpi .slt : (⟨S800000, .i32⟩ : BufTy).Contents (Elt F) → (⟨S800000, .i32⟩ : BufTy).Contents (Elt F) → (⟨S800000, .i1⟩ : BufTy).Contents (Elt F)),
    StableHlo.nullary main_c_7 (constantI S_ 32 50000#32),
    StableHlo.unary main_c_7 main_v44 (broadcastInDim S800000 ![] bcast_S_S800000 : (⟨S_, .i32⟩ : BufTy).Contents (Elt F) → (⟨S800000, .i32⟩ : BufTy).Contents (Elt F)),
    StableHlo.binary main_v1 main_v44 main_v45 (addi : (⟨S800000, .i32⟩ : BufTy).Contents (Elt F) → (⟨S800000, .i32⟩ : BufTy).Contents (Elt F) → (⟨S800000, .i32⟩ : BufTy).Contents (Elt F)),
    StableHlo.ternary main_v43 main_v45 main_v1 main_v46 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v46 main_v47 (broadcastInDim S800000x1 ![0] bcast_S800000_S800000x1_0 : (⟨S800000, .i32⟩ : BufTy).Contents (Elt F) → (⟨S800000x1, .i32⟩ : BufTy).Contents (Elt F)),
    StableHlo.binary main_v41 main_v47 main_v48 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_8 (constant S_ .f32 0x00000000#32),
    StableHlo.unary main_cst_8 main_v49 (broadcastInDim S50000x256 ![] bcast_S_S50000x256 : (⟨S_, .f32⟩ : BufTy).Contents (Elt F) → (⟨S50000x256, .f32⟩ : BufTy).Contents (Elt F)),
    StableHlo.unary main_v3 main_v50 (broadcastInDim S800000x1 ![0] bcast_S800000_S800000x1_0 : (⟨S800000, .i32⟩ : BufTy).Contents (Elt F) → (⟨S800000x1, .i32⟩ : BufTy).Contents (Elt F)),
    StableHlo.ternary main_v49 main_v50 main_v48 main_v51 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.nullary main_cst_9 (constant S_ .f32 0x3F800000#32),
    StableHlo.unary main_cst_9 main_v52 (broadcastInDim S800000x1 ![] bcast_S_S800000x1 : (⟨S_, .f32⟩ : BufTy).Contents (Elt F) → (⟨S800000x1, .f32⟩ : BufTy).Contents (Elt F)),
    StableHlo.nullary main_cst_10 (constant S_ .f32 0x00000000#32),
    StableHlo.unary main_cst_10 main_v53 (broadcastInDim S50000x1 ![] bcast_S_S50000x1 : (⟨S_, .f32⟩ : BufTy).Contents (Elt F) → (⟨S50000x1, .f32⟩ : BufTy).Contents (Elt F)),
    StableHlo.unary main_v3 main_v54 (broadcastInDim S800000x1 ![0] bcast_S800000_S800000x1_0 : (⟨S800000, .i32⟩ : BufTy).Contents (Elt F) → (⟨S800000x1, .i32⟩ : BufTy).Contents (Elt F)),
    StableHlo.ternary main_v53 main_v54 main_v52 main_v55 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.nullary main_cst_11 (constant S_ .f32 0x3F800000#32),
    StableHlo.unary main_cst_11 main_v56 (broadcastInDim S50000x1 ![] bcast_S_S50000x1 : (⟨S_, .f32⟩ : BufTy).Contents (Elt F) → (⟨S50000x1, .f32⟩ : BufTy).Contents (Elt F)),
    StableHlo.binary main_v55 main_v56 main_v57 (maximumf : (⟨S50000x1, .f32⟩ : BufTy).Contents (Elt F) → (⟨S50000x1, .f32⟩ : BufTy).Contents (Elt F) → (⟨S50000x1, .f32⟩ : BufTy).Contents (Elt F)),
    StableHlo.unary main_v57 main_v58 (broadcastInDim S50000x256 ![0, 1] bcast_S50000x1_S50000x256_0_1 : (⟨S50000x1, .f32⟩ : BufTy).Contents (Elt F) → (⟨S50000x256, .f32⟩ : BufTy).Contents (Elt F)),
    StableHlo.binary main_v51 main_v58 main_v59 (Host.divf : (⟨S50000x256, .f32⟩ : BufTy).Contents (Elt F) → (⟨S50000x256, .f32⟩ : BufTy).Contents (Elt F) → (⟨S50000x256, .f32⟩ : BufTy).Contents (Elt F)),
    StableHlo.binary main_v59 main_arg7 main_v60 ((fun l r => Host.dotGeneral dot_S50000x256_S256x121_S50000x121_1_0_0_1_n_n none l r) : (⟨S50000x256, .f32⟩ : BufTy).Contents (Elt F) → (⟨S256x121, .f32⟩ : BufTy).Contents (Elt F) → (⟨S50000x121, .f32⟩ : BufTy).Contents (Elt F)),
    StableHlo.unary main_arg8 main_v61 (broadcastInDim S1x121 ![1] bcast_S121_S1x121_1 : (⟨S121, .f32⟩ : BufTy).Contents (Elt F) → (⟨S1x121, .f32⟩ : BufTy).Contents (Elt F)),
    StableHlo.unary main_v61 main_v62 (broadcastInDim S50000x121 ![0, 1] bcast_S1x121_S50000x121_0_1 : (⟨S1x121, .f32⟩ : BufTy).Contents (Elt F) → (⟨S50000x121, .f32⟩ : BufTy).Contents (Elt F)),
    StableHlo.binary main_v60 main_v62 main_v63 (addf : (⟨S50000x121, .f32⟩ : BufTy).Contents (Elt F) → (⟨S50000x121, .f32⟩ : BufTy).Contents (Elt F) → (⟨S50000x121, .f32⟩ : BufTy).Contents (Elt F)),
    StableHlo.binary main_v41 main_arg9 main_v64 ((fun l r => Host.dotGeneral dot_S50000x256_S256x121_S50000x121_1_0_0_1_n_n none l r) : (⟨S50000x256, .f32⟩ : BufTy).Contents (Elt F) → (⟨S256x121, .f32⟩ : BufTy).Contents (Elt F) → (⟨S50000x121, .f32⟩ : BufTy).Contents (Elt F)),
    StableHlo.binary main_v63 main_v64 main_v65 (addf : (⟨S50000x121, .f32⟩ : BufTy).Contents (Elt F) → (⟨S50000x121, .f32⟩ : BufTy).Contents (Elt F) → (⟨S50000x121, .f32⟩ : BufTy).Contents (Elt F)),
    StableHlo.binary main_v65 main_v65 main_v66 (mulf : (⟨S50000x121, .f32⟩ : BufTy).Contents (Elt F) → (⟨S50000x121, .f32⟩ : BufTy).Contents (Elt F) → (⟨S50000x121, .f32⟩ : BufTy).Contents (Elt F)),
    StableHlo.nullary main_cst_12 (constant S_ .f32 0x00000000#32),
    StableHlo.binary main_v66 main_cst_12 main_v67 ((fun x v => Host.reduceAdd x v reducesTo_S50000x121_S50000_d1 h_S_) : (⟨S50000x121, .f32⟩ : BufTy).Contents (Elt F) → (⟨S_, .f32⟩ : BufTy).Contents (Elt F) → (⟨S50000, .f32⟩ : BufTy).Contents (Elt F)),
    StableHlo.unary main_v67 main_v68 (broadcastInDim S50000x1 ![0] bcast_S50000_S50000x1_0 : (⟨S50000, .f32⟩ : BufTy).Contents (Elt F) → (⟨S50000x1, .f32⟩ : BufTy).Contents (Elt F)),
    StableHlo.unary main_v68 main_v69 (Host.sqrt : (⟨S50000x1, .f32⟩ : BufTy).Contents (Elt F) → (⟨S50000x1, .f32⟩ : BufTy).Contents (Elt F)),
    StableHlo.nullary main_cst_13 (constant S_ .f32 0x2B8CBCCC#32),
    StableHlo.unary main_cst_13 main_v70 (broadcastInDim S50000x1 ![] bcast_S_S50000x1 : (⟨S_, .f32⟩ : BufTy).Contents (Elt F) → (⟨S50000x1, .f32⟩ : BufTy).Contents (Elt F)),
    StableHlo.binary main_v69 main_v70 main_v71 (maximumf : (⟨S50000x1, .f32⟩ : BufTy).Contents (Elt F) → (⟨S50000x1, .f32⟩ : BufTy).Contents (Elt F) → (⟨S50000x1, .f32⟩ : BufTy).Contents (Elt F)),
    StableHlo.unary main_v71 main_v72 (broadcastInDim S50000x121 ![0, 1] bcast_S50000x1_S50000x121_0_1 : (⟨S50000x1, .f32⟩ : BufTy).Contents (Elt F) → (⟨S50000x121, .f32⟩ : BufTy).Contents (Elt F)),
    StableHlo.binary main_v65 main_v72 main_v73 (Host.divf : (⟨S50000x121, .f32⟩ : BufTy).Contents (Elt F) → (⟨S50000x121, .f32⟩ : BufTy).Contents (Elt F) → (⟨S50000x121, .f32⟩ : BufTy).Contents (Elt F)),
    StableHlo.binary main_v41 main_arg10 main_v74 ((fun l r => Host.dotGeneral dot_S50000x256_S256x121_S50000x121_1_0_0_1_n_n none l r) : (⟨S50000x256, .f32⟩ : BufTy).Contents (Elt F) → (⟨S256x121, .f32⟩ : BufTy).Contents (Elt F) → (⟨S50000x121, .f32⟩ : BufTy).Contents (Elt F)),
    StableHlo.unary main_arg11 main_v75 (broadcastInDim S1x121 ![1] bcast_S121_S1x121_1 : (⟨S121, .f32⟩ : BufTy).Contents (Elt F) → (⟨S1x121, .f32⟩ : BufTy).Contents (Elt F)),
    StableHlo.unary main_v75 main_v76 (broadcastInDim S50000x121 ![0, 1] bcast_S1x121_S50000x121_0_1 : (⟨S1x121, .f32⟩ : BufTy).Contents (Elt F) → (⟨S50000x121, .f32⟩ : BufTy).Contents (Elt F)),
    StableHlo.binary main_v74 main_v76 main_v77 (addf : (⟨S50000x121, .f32⟩ : BufTy).Contents (Elt F) → (⟨S50000x121, .f32⟩ : BufTy).Contents (Elt F) → (⟨S50000x121, .f32⟩ : BufTy).Contents (Elt F)),
    StableHlo.binary main_v73 main_v77 main_v78 (addf : (⟨S50000x121, .f32⟩ : BufTy).Contents (Elt F) → (⟨S50000x121, .f32⟩ : BufTy).Contents (Elt F) → (⟨S50000x121, .f32⟩ : BufTy).Contents (Elt F)) ]

set_option maxHeartbeats 16000000 in
set_option maxRecDepth 8192 in
/-- @main is that straight line: the two windows and the three functions unfolded, sequencing reassociated. -/
theorem main_eq (c : Dev nD) : main (F := F) c = seq ops := by
  simp only [main, main_part0, main_part1, fn_elu.body, fn_where.body, fn_where_0.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., binary_bufs_sub .., binary_bufs_sub .., unary_bufs_sub ..,
    unary_bufs_sub .., binary_bufs_sub .., binary_bufs_sub .., binary_bufs_sub .., binary_bufs_sub .., nullary_bufs_sub ..,
    binary_bufs_sub .., unary_bufs_sub .., unary_bufs_sub .., nullary_bufs_sub .., unary_bufs_sub .., binary_bufs_sub ..,
    unary_bufs_sub .., binary_bufs_sub .., binary_bufs_sub .., unary_bufs_sub .., unary_bufs_sub .., binary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., binary_bufs_sub .., binary_bufs_sub .., unary_bufs_sub ..,
    unary_bufs_sub .., binary_bufs_sub .., binary_bufs_sub .., binary_bufs_sub .., binary_bufs_sub .., nullary_bufs_sub ..,
    binary_bufs_sub .., unary_bufs_sub .., unary_bufs_sub .., nullary_bufs_sub .., unary_bufs_sub .., binary_bufs_sub ..,
    unary_bufs_sub .., binary_bufs_sub .., binary_bufs_sub .., unary_bufs_sub .., unary_bufs_sub .., binary_bufs_sub ..,
    binary_bufs_sub ..⟩

/-- Every weakly fair execution of @main terminates with each buffer at the fold of the operations over the
    launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Line

/-! ## The run read back -/

section Run

set_option maxHeartbeats 8000000 in
set_option maxRecDepth 16384 in
/-- The fold at the result buffer is `out` of the argument buffers: each operation's result read at its own buffer is
    its function of its operands' contents, at any other buffer what was there. -/
theorem out_eq (V : Valuation τ sig (Elt Ideal)) :
    after ops V (main_v78 : DevRef τ sig) = out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  after_results_simp
  rfl

set_option maxHeartbeats 8000000 in
set_option maxRecDepth 16384 in
theorem arg0_eq (V : Valuation τ sig (Elt Ideal)) : after ops V (main_arg0 : DevRef τ sig) = V (main_arg0 : DevRef τ sig) := by
  after_results_simp

set_option maxHeartbeats 8000000 in
set_option maxRecDepth 16384 in
theorem arg1_eq (V : Valuation τ sig (Elt Ideal)) : after ops V (main_arg1 : DevRef τ sig) = V (main_arg1 : DevRef τ sig) := by
  after_results_simp

set_option maxHeartbeats 8000000 in
set_option maxRecDepth 16384 in
theorem arg2_eq (V : Valuation τ sig (Elt Ideal)) : after ops V (main_arg2 : DevRef τ sig) = V (main_arg2 : DevRef τ sig) := by
  after_results_simp

set_option maxHeartbeats 8000000 in
set_option maxRecDepth 16384 in
theorem arg3_eq (V : Valuation τ sig (Elt Ideal)) : after ops V (main_arg3 : DevRef τ sig) = V (main_arg3 : DevRef τ sig) := by
  after_results_simp

set_option maxHeartbeats 8000000 in
set_option maxRecDepth 16384 in
theorem arg4_eq (V : Valuation τ sig (Elt Ideal)) : after ops V (main_arg4 : DevRef τ sig) = V (main_arg4 : DevRef τ sig) := by
  after_results_simp

set_option maxHeartbeats 8000000 in
set_option maxRecDepth 16384 in
theorem arg5_eq (V : Valuation τ sig (Elt Ideal)) : after ops V (main_arg5 : DevRef τ sig) = V (main_arg5 : DevRef τ sig) := by
  after_results_simp

set_option maxHeartbeats 8000000 in
set_option maxRecDepth 16384 in
theorem arg6_eq (V : Valuation τ sig (Elt Ideal)) : after ops V (main_arg6 : DevRef τ sig) = V (main_arg6 : DevRef τ sig) := by
  after_results_simp

set_option maxHeartbeats 8000000 in
set_option maxRecDepth 16384 in
theorem arg7_eq (V : Valuation τ sig (Elt Ideal)) : after ops V (main_arg7 : DevRef τ sig) = V (main_arg7 : DevRef τ sig) := by
  after_results_simp

set_option maxHeartbeats 8000000 in
set_option maxRecDepth 16384 in
theorem arg8_eq (V : Valuation τ sig (Elt Ideal)) : after ops V (main_arg8 : DevRef τ sig) = V (main_arg8 : DevRef τ sig) := by
  after_results_simp

set_option maxHeartbeats 8000000 in
set_option maxRecDepth 16384 in
theorem arg9_eq (V : Valuation τ sig (Elt Ideal)) : after ops V (main_arg9 : DevRef τ sig) = V (main_arg9 : DevRef τ sig) := by
  after_results_simp

set_option maxHeartbeats 8000000 in
set_option maxRecDepth 16384 in
theorem arg10_eq (V : Valuation τ sig (Elt Ideal)) : after ops V (main_arg10 : DevRef τ sig) = V (main_arg10 : DevRef τ sig) := by
  after_results_simp

set_option maxHeartbeats 8000000 in
set_option maxRecDepth 16384 in
theorem arg11_eq (V : Valuation τ sig (Elt Ideal)) : after ops V (main_arg11 : DevRef τ sig) = V (main_arg11 : DevRef τ sig) := by
  after_results_simp

/-- On every device, from any memory with zero counters: every weakly fair execution of @main terminates with the result
    buffer at `out` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v78) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_v78).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c)),
      (h c main_arg11).trans (arg11_eq (launchContents m c))⟩)
    (run_fold m ρ)

end Run

end Cert.ReferenceIdeal.RefValue

end
-- ==== Proof.Spec.lean ====
/-
  The mathematics of the two-layer mean-aggregating graph network, row by row, over the extended reals.

  A node's layer output is one function of a few ROWS: with `u` the aggregated term, `b` a bias, `hr` the node's own
  feature row and `Wr`, `Wl`, `bl` the root and side-branch weights,
      sage u b hr Wr j  = u j + b j + ∑ k, hr k * Wr k j
      layer … j        = sage j / max (sqrt (∑ j', sage j' ^ 2)) ε  +  (∑ k, hr k * Wl k j + bl j).
  The first layer's hidden row is `elu` of that with `u = (A₁ row / deg) · W`; the second layer's output row is that
  with `u = (mean of the neighbours' hidden rows) · W`.  One program forms the mean first and projects afterwards
  (`outR`), the other projects every hidden row first, to a width padded with zero columns, sums the projected rows
  over the neighbours and scales by the reciprocal of the degree (`outK`).  The two agree wherever every entry is a
  real number and the degree is a real number other than zero: the projection is linear, and a padded column
  contributes nothing to a row's norm.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- The three float literals both programs share, as the extended reals they denote. -/
def zero32 : EReal := Ideal.ofBits .f32 0x00000000#32
def one32 : EReal := Ideal.ofBits .f32 0x3F800000#32
def eps32 : EReal := Ideal.ofBits .f32 0x2B8CBCCC#32

/-- A row times a matrix, at column `j`. -/
def dot {K N : Nat} (a : Fin K → EReal) (W : Fin K → Fin N → EReal) (j : Fin N) : EReal := ∑ k : Fin K, a k * W k j

/-- A row divided by its Euclidean norm, the norm kept at least `ε`. -/
def nrm {N : Nat} (v : Fin N → EReal) (j : Fin N) : EReal :=
  Ideal.div (v j) (max (Ideal.sqrt (∑ k : Fin N, v k * v k)) eps32)

/-- The aggregated term plus the bias plus the node's own row through the root weights. -/
def sage {K N : Nat} (u b : Fin N → EReal) (hr : Fin K → EReal) (Wr : Fin K → Fin N → EReal) (j : Fin N) : EReal :=
  u j + b j + dot hr Wr j

/-- A layer's row before any activation: the normalised `sage` row plus the side branch. -/
def layer {K N : Nat} (u b : Fin N → EReal) (hr : Fin K → EReal) (Wr Wl : Fin K → Fin N → EReal) (bl : Fin N → EReal)
    (j : Fin N) : EReal :=
  nrm (sage u b hr Wr) j + (dot hr Wl j + bl j)

/-- `elu` as a select on the sign: `p` above zero, `exp p - 1` otherwise. -/
def elu (p : EReal) : EReal := Scalar.select (Ideal.cmp .ogt p zero32) p (Ideal.exp p - one32)

/-- The same function as the other program spells it: the exponential is taken of `p` masked to zero where `p` is
    positive, one is subtracted as a literal, and the result is multiplied by one. -/
def eluMasked (p : EReal) : EReal :=
  Scalar.select (Ideal.cmp .ogt p zero32) p
    (one32 * (Ideal.exp (Scalar.select (Ideal.cmp .ogt p zero32) zero32 p) - 1))

/-- A hidden row of the first layer, from the node's aggregated row `mr` (already a mean) and its own row `xr`. -/
def hrow (mr xr : Fin 50 → EReal) (W2 W4 W5 : Fin 50 → Fin 256 → EReal) (b3 b6 : Fin 256 → EReal) (k : Fin 256) : EReal :=
  elu (layer (dot mr W2) b3 xr W4 W5 b6 k)

/-- The row an edge's source index selects: the index read signed, clamped into the node range (a gather clamps). -/
def srcRow (I : (⟨2, ![800000, 1]⟩ : Shape).Idx → BitVec 32) (e : Fin 800000) : Fin 50000 :=
  ⟨min (I (ix2 e 0)).toInt.toNat 49999, by omega⟩

/-- The row an edge's destination index lands on, if it is a node at all (a scatter drops what falls outside). -/
def dstRow (I : (⟨2, ![800000, 1]⟩ : Shape).Idx → BitVec 32) (e : Fin 800000) : Option (Fin 50000) :=
  if h : 0 ≤ (I (ix2 e 0)).toInt ∧ (I (ix2 e 0)).toInt < 50000 then some ⟨(I (ix2 e 0)).toInt.toNat, by omega⟩ else none

/-- The edges that land on node `n`. -/
def edgesInto (I : (⟨2, ![800000, 1]⟩ : Shape).Idx → BitVec 32) (n : Fin 50000) : Finset (Fin 800000) :=
  Finset.univ.filter fun e => dstRow I e = some n

/-- Sum over the edges into `n` of the source node's row, from a zero start. -/
def agg {C : Nat} (E : Fin 50000 → Finset (Fin 800000)) (s : Fin 800000 → Fin 50000) (f : Fin 50000 → Fin C → EReal)
    (n : Fin 50000) (k : Fin C) : EReal :=
  zero32 + ∑ e ∈ E n, f (s e) k

/-- A matrix or a row widened from 121 to 128 columns with the value `z`. -/
def padCols {K : Nat} (z : EReal) (W : Fin K → Fin 121 → EReal) : Fin K → Fin 128 → EReal :=
  fun k j => if h : j.val < 121 then W k ⟨j.val, h⟩ else z
def padRow (z : EReal) (b : Fin 121 → EReal) : Fin 128 → EReal :=
  fun j => if h : j.val < 121 then b ⟨j.val, h⟩ else z

section Programs

variable (E : Fin 50000 → Finset (Fin 800000)) (s : Fin 800000 → Fin 50000)
  (A1 : Fin 50000 → Fin 50 → EReal) (D : Fin 50000 → EReal) (x : Fin 50000 → Fin 50 → EReal)
  (W2 W4 W5 : Fin 50 → Fin 256 → EReal) (b3 b6 : Fin 256 → EReal)
  (W7 W9 W10 : Fin 256 → Fin 121 → EReal) (b8 b11 : Fin 121 → EReal)

/-- MEAN FIRST: the hidden rows from the mean `A₁ / deg`. -/
def hR (n : Fin 50000) : Fin 256 → EReal :=
  hrow (fun i => Ideal.div (A1 n i) (D n)) (x n) W2 W4 W5 b3 b6

/-- … and the output rows from the mean of the neighbours' hidden rows, projected afterwards. -/
def outR (n : Fin 50000) (j : Fin 121) : EReal :=
  layer (dot (fun k => Ideal.div (agg E s (hR A1 D x W2 W4 W5 b3 b6) n k) (D n)) W7) b8
    (hR A1 D x W2 W4 W5 b3 b6 n) W9 W10 b11 j

/-- RECIPROCAL OF THE DEGREE: the hidden rows from `A₁ · (1 / deg)`. -/
def hK (n : Fin 50000) : Fin 256 → EReal :=
  hrow (fun i => A1 n i * Ideal.div one32 (D n)) (x n) W2 W4 W5 b3 b6

/-- … every hidden row projected first, to 128 columns of which the last 7 are `z`-padding. -/
def projK (z : EReal) (r : Fin 50000) (j : Fin 128) : EReal := dot (hK A1 D x W2 W4 W5 b3 b6 r) (padCols z W7) j

/-- … and the output rows, 128 wide, from the sum of the projected rows scaled by the reciprocal of the degree. -/
def outK (z : EReal) (n : Fin 50000) (j : Fin 128) : EReal :=
  layer (fun j => agg E s (projK A1 D x W2 W4 W5 b3 b6 W7 z) n j * Ideal.div one32 (D n)) (padRow z b8)
    (hK A1 D x W2 W4 W5 b3 b6 n) (padCols z W9) (padCols z W10) (padRow z b11) j

end Programs

end Cert.Sage

end
-- ==== Proof.KChain.lean ====
/-
  The idealized kernel program's host chain: what each region finds in its arrays, and what the program returns, as
  terms of the launch memory's argument arrays, and each of them read at an index.
-/
import proofs.«166945_j62663572848802_2_alg».proof.Proof.KRun
import proofs.«166945_j62663572848802_2_alg».proof.Proof.Spec
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 16384

noncomputable section

namespace Cert.KernelIdeal.KValue

open Idealize.ShloMosaic Idealize.ShloMosaic.TcCoe Idealize.ShloMosaic.Tactic
open Idealize.ShloMosaic.ValueIdx
open Idealize.SL Idealize.SL.Sem
open Idealize.ShloMosaic.Pipeline (Dat Cfg Window cellOf)
open Idealize.ShloMosaic.StableHlo (after_cons after_nil)
open Cert.KernelIdeal.Gen

/-! ## The host chain's terms, over the argument arrays -/

/-- The edge list's first row as a vector of 800000 words. -/
def srcWords (a1 : Vec Ideal S2x800000 .i32) : Vec Ideal S800000 .i32 :=
  shapeCast S800000 (extractStridedSlice S1x800000 ![0, 0] a1 slices_S2x800000_S1x800000_0_0) shapeCasts_S1x800000_S800000

/-- The edge list's second row as a vector of 800000 words. -/
def dstWords (a1 : Vec Ideal S2x800000 .i32) : Vec Ideal S800000 .i32 :=
  shapeCast S800000 (extractStridedSlice S1x800000 ![1, 0] a1 slices_S2x800000_S1x800000_1_0) shapeCasts_S1x800000_S800000

/-- A vector of source words as the gathers take it: a negative word moved up by the number of nodes, as a column. -/
def srcCol (w : Vec Ideal S800000 .i32) : Vec Ideal S800000x1 .i32 :=
  broadcastInDim S800000x1 ![0] bcast_S800000_S800000x1_0
    (select (cmpi .slt w (broadcastInDim S800000 ![] bcast_S_S800000 (constantI S_ 32 0#32)))
      (addi w (broadcastInDim S800000 ![] bcast_S_S800000 (constantI S_ 32 50000#32))) w)

/-- A vector of destination words as the scatters take it: as a column. -/
def dstCol (w : Vec Ideal S800000 .i32) : Vec Ideal S800000x1 .i32 :=
  broadcastInDim S800000x1 ![0] bcast_S800000_S800000x1_0 w

/-- The source indices of the edge list, as a column. -/
def Isrc (a1 : Vec Ideal S2x800000 .i32) : Vec Ideal S800000x1 .i32 := srcCol (srcWords a1)

/-- The destination indices of the edge list, as a column. -/
def Idst (a1 : Vec Ideal S2x800000 .i32) : Vec Ideal S800000x1 .i32 := dstCol (dstWords a1)

/-- The degree column: the number of edges into each node, at least one. -/
def Dg (a1 : Vec Ideal S2x800000 .i32) : Vec Ideal S50000x1 .f32 :=
  maximumf
    (Host.scatterAdd scatter_S50000x1_S800000x1_S800000x1_1_0_0_1
      (broadcastInDim S50000x1 ![] bcast_S_S50000x1 (constant (F := Ideal) S_ .f32 0x00000000#32)) (Idst a1)
      (broadcastInDim S800000x1 ![] bcast_S_S800000x1 (constant (F := Ideal) S_ .f32 0x3F800000#32)))
    (broadcastInDim S50000x1 ![] bcast_S_S50000x1 (constant (F := Ideal) S_ .f32 0x3F800000#32))

/-- The reciprocal of the degree column. -/
def invD (a1 : Vec Ideal S2x800000 .i32) : Vec Ideal S50000x1 .f32 :=
  Host.divf (F := Ideal) (broadcastInDim S50000x1 ![] bcast_S_S50000x1 (constant (F := Ideal) S_ .f32 0x3F800000#32)) (Dg a1)

/-- The first layer's aggregate: the source rows of the node features summed over the edges into each node. -/
def A1 (a0 : Vec Ideal S50000x50 .f32) (a1 : Vec Ideal S2x800000 .i32) : Vec Ideal S50000x50 .f32 :=
  Host.scatterAdd scatter_S50000x50_S800000x1_S800000x50_1_0_0_1
    (broadcastInDim S50000x50 ![] bcast_S_S50000x50 (constant (F := Ideal) S_ .f32 0x00000000#32)) (Idst a1)
    (Host.gather gather_S50000x50_S800000x1_S800000x50_1_0_n_n_0_1_150 a0 (Isrc a1))

/-- The second layer's aggregate of the projected rows `P`: the source rows summed over the edges into each node. -/
def A2 (P : Vec Ideal S50000x128 .f32) (a1 : Vec Ideal S2x800000 .i32) : Vec Ideal S50000x128 .f32 :=
  Host.scatterAdd scatter_S50000x128_S800000x1_S800000x128_1_0_0_1
    (broadcastInDim S50000x128 ![] bcast_S_S50000x128 (constant (F := Ideal) S_ .f32 0x00000000#32)) (Idst a1)
    (Host.gather gather_S50000x128_S800000x1_S800000x128_1_0_n_n_0_1_1128 P (Isrc a1))

/-- The padding value: the integer zero converted. -/
def padZ : Vec Ideal S_ .f32 := sitofp (F := Ideal) .f32 (constantI S_ 32 0#32)

/-! ## One stretch of host operations at a time, from any contents `V` -/

/-- A buffer none of a stretch's operations writes keeps its contents: one step back through the fold. -/
local macro "keep_step" : tactic =>
  `(tactic| refine (StableHlo.after_of_forall_not_mem _ _ (List.forall_iff_forall_mem.mp (by
      simp only [hostOps0, hostOps0_1, hostOps0_2, hostOps1, hostOps1_1, hostOps1_2, hostOps1_3, hostOps1_4, hostOps1_5,
        hostOps1_6, hostOps1_7, hostOps2, List.Forall, StableHlo.nullary_writes, StableHlo.unary_writes,
        StableHlo.binary_writes, StableHlo.ternary_writes, StableHlo.reshape_writes, Finset.mem_singleton]
      repeat' apply And.intro
      all_goals exact StableHlo.devRef_ne_of_ne (by decide)))).trans ?_)

section Stretches

variable (V : Valuation τ sig (Elt Ideal))

set_option maxHeartbeats 4000000 in
theorem ops0_v23 :
    @Eq (Vec Ideal S50000x50 .f32) (StableHlo.after (hostOps0 (F := Ideal)) V (Proc.devRef .tc main_v23))
      (mulf (F := Ideal) (φ := .f32) (A1 (V (Proc.devRef .tc main_arg0)) (V (Proc.devRef .tc main_arg1)))
          (broadcastInDim S50000x50 ![0, 1] bcast_S50000x1_S50000x50_0_1 (invD (V (Proc.devRef .tc main_arg1))))) := by
  after_results_simp
  rfl

set_option maxHeartbeats 4000000 in
theorem ops0_v1 :
    @Eq (Vec Ideal S800000 .i32) (StableHlo.after (hostOps0 (F := Ideal)) V (Proc.devRef .tc main_v1))
      (srcWords (V (Proc.devRef .tc main_arg1))) := by
  after_results_simp
  rfl

set_option maxHeartbeats 4000000 in
theorem ops0_v3 :
    @Eq (Vec Ideal S800000 .i32) (StableHlo.after (hostOps0 (F := Ideal)) V (Proc.devRef .tc main_v3))
      (dstWords (V (Proc.devRef .tc main_arg1))) := by
  after_results_simp
  rfl

set_option maxHeartbeats 4000000 in
theorem ops0_v11 :
    @Eq (Vec Ideal S50000x1 .f32) (StableHlo.after (hostOps0 (F := Ideal)) V (Proc.devRef .tc main_v11))
      (invD (V (Proc.devRef .tc main_arg1))) := by
  after_results_simp
  rfl

set_option maxHeartbeats 4000000 in
theorem ops0_c5 :
    @Eq (Vec Ideal S_ .i32) (StableHlo.after (hostOps0 (F := Ideal)) V (Proc.devRef .tc main_c_5))
      (constantI S_ 32 0#32) := by
  after_results_simp

theorem ops01_v24 :
    @Eq (Vec Ideal S256x128 .f32) (StableHlo.after (hostOps0_1 (F := Ideal)) V (Proc.devRef .tc main_v24))
      (pad S256x128 ![0, 0] ![0, 7] ![0, 0] (V (Proc.devRef .tc main_arg7))
        (sitofp (F := Ideal) .f32 (V (Proc.devRef .tc main_c_5))) pads_S256x121_S256x128_000_070 h_S_) := by
  after_results_simp
  rfl

theorem ops02_v25 :
    @Eq (Vec Ideal S1x256 .f32) (StableHlo.after (hostOps0_2 (F := Ideal)) V (Proc.devRef .tc main_v25))
      (shapeCast S1x256 (V (Proc.devRef .tc main_arg3)) shapeCasts_S256_S1x256) := by
  after_results_simp
  rfl

theorem ops02_v26 :
    @Eq (Vec Ideal S1x256 .f32) (StableHlo.after (hostOps0_2 (F := Ideal)) V (Proc.devRef .tc main_v26))
      (shapeCast S1x256 (V (Proc.devRef .tc main_arg6)) shapeCasts_S256_S1x256) := by
  after_results_simp
  rfl

set_option maxHeartbeats 4000000 in
theorem ops1_v39 :
    @Eq (Vec Ideal S50000x128 .f32) (StableHlo.after (hostOps1 (F := Ideal)) V (Proc.devRef .tc main_v39))
      (mulf (F := Ideal) (φ := .f32)
        (Host.scatterAdd scatter_S50000x128_S800000x1_S800000x128_1_0_0_1
          (broadcastInDim S50000x128 ![] bcast_S_S50000x128 (constant (F := Ideal) S_ .f32 0x00000000#32))
          (dstCol (V (Proc.devRef .tc main_v3)))
          (Host.gather gather_S50000x128_S800000x1_S800000x128_1_0_n_n_0_1_1128 (V (Proc.devRef .tc main_v27_1))
            (srcCol (V (Proc.devRef .tc main_v1)))))
        (broadcastInDim S50000x128 ![0, 1] bcast_S50000x1_S50000x128_0_1 (V (Proc.devRef .tc main_v11)))) := by
  after_results_simp
  rfl

set_option maxHeartbeats 4000000 in
theorem ops1_c9 :
    @Eq (Vec Ideal S_ .i32) (StableHlo.after (hostOps1 (F := Ideal)) V (Proc.devRef .tc main_c_9))
      (constantI S_ 32 0#32) := by
  after_results_simp

theorem ops11_v40 :
    @Eq (Vec Ideal S256x128 .f32) (StableHlo.after (hostOps1_1 (F := Ideal)) V (Proc.devRef .tc main_v40))
      (pad S256x128 ![0, 0] ![0, 7] ![0, 0] (V (Proc.devRef .tc main_arg9))
        (sitofp (F := Ideal) .f32 (V (Proc.devRef .tc main_c_9))) pads_S256x121_S256x128_000_070 h_S_) := by
  after_results_simp
  rfl

theorem ops12_v41 :
    @Eq (Vec Ideal S1x121 .f32) (StableHlo.after (hostOps1_2 (F := Ideal)) V (Proc.devRef .tc main_v41))
      (shapeCast S1x121 (V (Proc.devRef .tc main_arg8)) shapeCasts_S121_S1x121) := by
  after_results_simp
  rfl

theorem ops12_c10 :
    @Eq (Vec Ideal S_ .i32) (StableHlo.after (hostOps1_2 (F := Ideal)) V (Proc.devRef .tc main_c_10))
      (constantI S_ 32 0#32) := by
  after_results_simp

theorem ops13_v42 :
    @Eq (Vec Ideal S1x128 .f32) (StableHlo.after (hostOps1_3 (F := Ideal)) V (Proc.devRef .tc main_v42))
      (pad S1x128 ![0, 0] ![0, 7] ![0, 0] (V (Proc.devRef .tc main_v41))
        (sitofp (F := Ideal) .f32 (V (Proc.devRef .tc main_c_10))) pads_S1x121_S1x128_000_070 h_S_) := by
  after_results_simp
  rfl

theorem ops14_c11 :
    @Eq (Vec Ideal S_ .i32) (StableHlo.after (hostOps1_4 (F := Ideal)) V (Proc.devRef .tc main_c_11))
      (constantI S_ 32 0#32) := by
  after_results_simp

theorem ops15_v43 :
    @Eq (Vec Ideal S256x128 .f32) (StableHlo.after (hostOps1_5 (F := Ideal)) V (Proc.devRef .tc main_v43))
      (pad S256x128 ![0, 0] ![0, 7] ![0, 0] (V (Proc.devRef .tc main_arg10))
        (sitofp (F := Ideal) .f32 (V (Proc.devRef .tc main_c_11))) pads_S256x121_S256x128_000_070 h_S_) := by
  after_results_simp
  rfl

theorem ops16_v44 :
    @Eq (Vec Ideal S1x121 .f32) (StableHlo.after (hostOps1_6 (F := Ideal)) V (Proc.devRef .tc main_v44))
      (shapeCast S1x121 (V (Proc.devRef .tc main_arg11)) shapeCasts_S121_S1x121) := by
  after_results_simp
  rfl

theorem ops16_c12 :
    @Eq (Vec Ideal S_ .i32) (StableHlo.after (hostOps1_6 (F := Ideal)) V (Proc.devRef .tc main_c_12))
      (constantI S_ 32 0#32) := by
  after_results_simp

theorem ops17_v45 :
    @Eq (Vec Ideal S1x128 .f32) (StableHlo.after (hostOps1_7 (F := Ideal)) V (Proc.devRef .tc main_v45))
      (pad S1x128 ![0, 0] ![0, 7] ![0, 0] (V (Proc.devRef .tc main_v44))
        (sitofp (F := Ideal) .f32 (V (Proc.devRef .tc main_c_12))) pads_S1x121_S1x128_000_070 h_S_) := by
  after_results_simp
  rfl

theorem ops2_v47 :
    @Eq (Vec Ideal S50000x121 .f32) (StableHlo.after (hostOps2 (F := Ideal)) V (Proc.devRef .tc main_v47))
      (extractStridedSlice S50000x121 ![0, 0] (V (Proc.devRef .tc main_v46)) slices_S50000x128_S50000x121_0_0) := by
  after_results_simp

end Stretches

/-! ## The chain through @main: each boundary's contents at the buffers the regions read -/

/-- Region 0 leaves every buffer that is none of its arrays as it found it: one step back through the region. -/
local macro "region0_step" : tactic => `(tactic| refine (Gen.W4_of_ne _ _ _ _ (by decide)).trans ?_)

section Chain

variable (m : (ℓ : Loc nD τ sig) → Buf (Elt Ideal) ℓ) (ρ : Dev nD → PrngReg) (c : Dev nD)

/-! ### Region 0's entry arrays -/

theorem V3_main_v23 :
    @Eq (Vec Ideal S50000x50 .f32) (Gen.V3 m ρ c main_v23)
      (mulf (F := Ideal) (φ := .f32) (A1 (m ((c : Thread nD τ).loc main_arg0)) (m ((c : Thread nD τ).loc main_arg1)))
          (broadcastInDim S50000x50 ![0, 1] bcast_S50000x1_S50000x50_0_1 (invD (m ((c : Thread nD τ).loc main_arg1))))) := by
  show Gen.W3 m ρ c (Proc.devRef .tc main_v23) = _
  keep_step
  keep_step
  exact ops0_v23 (Gen.W0 m ρ c)

theorem V3_main_arg0 : Gen.V3 m ρ c main_arg0 = m ((c : Thread nD τ).loc main_arg0) := by
  show Gen.W3 m ρ c (Proc.devRef .tc main_arg0) = _
  keep_step; keep_step; keep_step; rfl

theorem V3_main_arg2 : Gen.V3 m ρ c main_arg2 = m ((c : Thread nD τ).loc main_arg2) := by
  show Gen.W3 m ρ c (Proc.devRef .tc main_arg2) = _
  keep_step; keep_step; keep_step; rfl

theorem V3_main_arg4 : Gen.V3 m ρ c main_arg4 = m ((c : Thread nD τ).loc main_arg4) := by
  show Gen.W3 m ρ c (Proc.devRef .tc main_arg4) = _
  keep_step; keep_step; keep_step; rfl

theorem V3_main_arg5 : Gen.V3 m ρ c main_arg5 = m ((c : Thread nD τ).loc main_arg5) := by
  show Gen.W3 m ρ c (Proc.devRef .tc main_arg5) = _
  keep_step; keep_step; keep_step; rfl

theorem W2_main_arg3 : Gen.W2 m ρ c (Proc.devRef .tc main_arg3) = m ((c : Thread nD τ).loc main_arg3) := by
  keep_step; keep_step; rfl

theorem W2_main_arg6 : Gen.W2 m ρ c (Proc.devRef .tc main_arg6) = m ((c : Thread nD τ).loc main_arg6) := by
  keep_step; keep_step; rfl

theorem V3_main_v25 :
    @Eq (Vec Ideal S1x256 .f32) (Gen.V3 m ρ c main_v25)
      (shapeCast S1x256 (m ((c : Thread nD τ).loc main_arg3)) shapeCasts_S256_S1x256) := by
  show Gen.W3 m ρ c (Proc.devRef .tc main_v25) = _
  refine (ops02_v25 (Gen.W2 m ρ c)).trans ?_
  rw [W2_main_arg3]

theorem V3_main_v26 :
    @Eq (Vec Ideal S1x256 .f32) (Gen.V3 m ρ c main_v26)
      (shapeCast S1x256 (m ((c : Thread nD τ).loc main_arg6)) shapeCasts_S256_S1x256) := by
  show Gen.W3 m ρ c (Proc.devRef .tc main_v26) = _
  refine (ops02_v26 (Gen.W2 m ρ c)).trans ?_
  rw [W2_main_arg6]

theorem W1_main_arg7 : Gen.W1 m ρ c (Proc.devRef .tc main_arg7) = m ((c : Thread nD τ).loc main_arg7) := by
  keep_step; rfl

theorem V3_main_v24 :
    @Eq (Vec Ideal S256x128 .f32) (Gen.V3 m ρ c main_v24)
      (pad S256x128 ![0, 0] ![0, 7] ![0, 0] (m ((c : Thread nD τ).loc main_arg7)) padZ pads_S256x121_S256x128_000_070 h_S_) := by
  show Gen.W3 m ρ c (Proc.devRef .tc main_v24) = _
  keep_step
  refine (ops01_v24 (Gen.W1 m ρ c)).trans ?_
  rw [W1_main_arg7, show Gen.W1 m ρ c (Proc.devRef .tc main_c_5) = _ from ops0_c5 (Gen.W0 m ρ c)]
  rfl

/-! ### What region 0 leaves, and what the host operations between the regions read of the first stretch -/

theorem W4_main_v27_0 :
    @Eq (Vec Ideal S50000x256 .f32) (Gen.W4 m ρ c (Proc.devRef .tc main_v27_0)) ((Gen.dat0 (Gen.V3 m ρ) c).arrAt 8 cfg0.N) :=
  Gen.W4_arr m ρ c 8

theorem W4_main_v27_1 :
    @Eq (Vec Ideal S50000x128 .f32) (Gen.W4 m ρ c (Proc.devRef .tc main_v27_1)) ((Gen.dat0 (Gen.V3 m ρ) c).arrAt 9 cfg0.N) :=
  Gen.W4_arr m ρ c 9

theorem W4_main_v1 :
    @Eq (Vec Ideal S800000 .i32) (Gen.W4 m ρ c (Proc.devRef .tc main_v1)) (srcWords (m ((c : Thread nD τ).loc main_arg1))) := by
  region0_step; keep_step; keep_step
  exact ops0_v1 (Gen.W0 m ρ c)

theorem W4_main_v3 :
    @Eq (Vec Ideal S800000 .i32) (Gen.W4 m ρ c (Proc.devRef .tc main_v3)) (dstWords (m ((c : Thread nD τ).loc main_arg1))) := by
  region0_step; keep_step; keep_step
  exact ops0_v3 (Gen.W0 m ρ c)

theorem W4_main_v11 :
    @Eq (Vec Ideal S50000x1 .f32) (Gen.W4 m ρ c (Proc.devRef .tc main_v11)) (invD (m ((c : Thread nD τ).loc main_arg1))) := by
  region0_step; keep_step; keep_step
  exact ops0_v11 (Gen.W0 m ρ c)

theorem W4_main_arg8 : Gen.W4 m ρ c (Proc.devRef .tc main_arg8) = m ((c : Thread nD τ).loc main_arg8) := by
  region0_step; keep_step; keep_step; keep_step; rfl
theorem W4_main_arg9 : Gen.W4 m ρ c (Proc.devRef .tc main_arg9) = m ((c : Thread nD τ).loc main_arg9) := by
  region0_step; keep_step; keep_step; keep_step; rfl
theorem W4_main_arg10 : Gen.W4 m ρ c (Proc.devRef .tc main_arg10) = m ((c : Thread nD τ).loc main_arg10) := by
  region0_step; keep_step; keep_step; keep_step; rfl
theorem W4_main_arg11 : Gen.W4 m ρ c (Proc.devRef .tc main_arg11) = m ((c : Thread nD τ).loc main_arg11) := by
  region0_step; keep_step; keep_step; keep_step; rfl

/-! ### Region 1's entry arrays -/

theorem V12_main_v27_0 :
    @Eq (Vec Ideal S50000x256 .f32) (Gen.V12 m ρ c main_v27_0) ((Gen.dat0 (Gen.V3 m ρ) c).arrAt 8 cfg0.N) := by
  show Gen.W12 m ρ c (Proc.devRef .tc main_v27_0) = _
  keep_step; keep_step; keep_step; keep_step; keep_step; keep_step; keep_step; keep_step
  exact W4_main_v27_0 m ρ c

theorem V12_main_v39 :
    @Eq (Vec Ideal S50000x128 .f32) (Gen.V12 m ρ c main_v39)
      (mulf (F := Ideal) (φ := .f32) (A2 ((Gen.dat0 (Gen.V3 m ρ) c).arrAt 9 cfg0.N) (m ((c : Thread nD τ).loc main_arg1)))
        (broadcastInDim S50000x128 ![0, 1] bcast_S50000x1_S50000x128_0_1 (invD (m ((c : Thread nD τ).loc main_arg1))))) := by
  show Gen.W12 m ρ c (Proc.devRef .tc main_v39) = _
  keep_step; keep_step; keep_step; keep_step; keep_step; keep_step; keep_step
  refine (ops1_v39 (Gen.W4 m ρ c)).trans ?_
  rw [W4_main_v3, W4_main_v1, W4_main_v11, W4_main_v27_1]
  generalize (Gen.dat0 (Gen.V3 m ρ) c).arrAt 9 cfg0.N = P
  rfl

theorem V12_main_v40 :
    @Eq (Vec Ideal S256x128 .f32) (Gen.V12 m ρ c main_v40)
      (pad S256x128 ![0, 0] ![0, 7] ![0, 0] (m ((c : Thread nD τ).loc main_arg9)) padZ pads_S256x121_S256x128_000_070 h_S_) := by
  show Gen.W12 m ρ c (Proc.devRef .tc main_v40) = _
  keep_step; keep_step; keep_step; keep_step; keep_step; keep_step
  refine (ops11_v40 (Gen.W5 m ρ c)).trans ?_
  rw [show Gen.W5 m ρ c (Proc.devRef .tc main_c_9) = _ from ops1_c9 (Gen.W4 m ρ c),
    show Gen.W5 m ρ c (Proc.devRef .tc main_arg9) = m ((c : Thread nD τ).loc main_arg9) from by
      keep_step; exact W4_main_arg9 m ρ c]
  rfl

theorem V12_main_v42 :
    @Eq (Vec Ideal S1x128 .f32) (Gen.V12 m ρ c main_v42)
      (pad S1x128 ![0, 0] ![0, 7] ![0, 0] (shapeCast S1x121 (m ((c : Thread nD τ).loc main_arg8)) shapeCasts_S121_S1x121)
        padZ pads_S1x121_S1x128_000_070 h_S_) := by
  show Gen.W12 m ρ c (Proc.devRef .tc main_v42) = _
  keep_step; keep_step; keep_step; keep_step
  refine (ops13_v42 (Gen.W7 m ρ c)).trans ?_
  rw [show Gen.W7 m ρ c (Proc.devRef .tc main_c_10) = _ from ops12_c10 (Gen.W6 m ρ c),
    show Gen.W7 m ρ c (Proc.devRef .tc main_v41) = _ from ops12_v41 (Gen.W6 m ρ c),
    show Gen.W6 m ρ c (Proc.devRef .tc main_arg8) = m ((c : Thread nD τ).loc main_arg8) from by
      keep_step; keep_step; exact W4_main_arg8 m ρ c]
  rfl

theorem V12_main_v43 :
    @Eq (Vec Ideal S256x128 .f32) (Gen.V12 m ρ c main_v43)
      (pad S256x128 ![0, 0] ![0, 7] ![0, 0] (m ((c : Thread nD τ).loc main_arg10)) padZ pads_S256x121_S256x128_000_070 h_S_) := by
  show Gen.W12 m ρ c (Proc.devRef .tc main_v43) = _
  keep_step; keep_step
  refine (ops15_v43 (Gen.W9 m ρ c)).trans ?_
  rw [show Gen.W9 m ρ c (Proc.devRef .tc main_c_11) = _ from ops14_c11 (Gen.W8 m ρ c),
    show Gen.W9 m ρ c (Proc.devRef .tc main_arg10) = m ((c : Thread nD τ).loc main_arg10) from by
      keep_step; keep_step; keep_step; keep_step; keep_step; exact W4_main_arg10 m ρ c]
  rfl

theorem V12_main_v45 :
    @Eq (Vec Ideal S1x128 .f32) (Gen.V12 m ρ c main_v45)
      (pad S1x128 ![0, 0] ![0, 7] ![0, 0] (shapeCast S1x121 (m ((c : Thread nD τ).loc main_arg11)) shapeCasts_S121_S1x121)
        padZ pads_S1x121_S1x128_000_070 h_S_) := by
  show Gen.W12 m ρ c (Proc.devRef .tc main_v45) = _
  refine (ops17_v45 (Gen.W11 m ρ c)).trans ?_
  rw [show Gen.W11 m ρ c (Proc.devRef .tc main_c_12) = _ from ops16_c12 (Gen.W10 m ρ c),
    show Gen.W11 m ρ c (Proc.devRef .tc main_v44) = _ from ops16_v44 (Gen.W10 m ρ c),
    show Gen.W10 m ρ c (Proc.devRef .tc main_arg11) = m ((c : Thread nD τ).loc main_arg11) from by
      keep_step; keep_step; keep_step; keep_step; keep_step; keep_step; exact W4_main_arg11 m ρ c]
  rfl

/-! ### The result -/

theorem W14_main_v47 :
    @Eq (Vec Ideal S50000x121 .f32) (Gen.W14 m ρ c (Proc.devRef .tc main_v47))
      (extractStridedSlice S50000x121 ![0, 0] ((Gen.dat1 (Gen.V12 m ρ) c).arrAt 6 cfg1.N) slices_S50000x128_S50000x121_0_0) :=
  (ops2_v47 (Gen.W13 m ρ c)).trans
    (congrArg (fun X : Vec Ideal S50000x128 .f32 => extractStridedSlice S50000x121 ![0, 0] X slices_S50000x128_S50000x121_0_0)
      (Gen.W13_arr m ρ c 6))

end Chain

/-! ## Reads at an index -/

section LayoutReads

/-- The padding value as an extended real: the integer zero converted. -/
def zPad : EReal := FloatOps.sitofp (F := Ideal) .f32 (0#32 : BitVec 32)

theorem zPad_eq_zero : zPad = 0 := by
  show (((0#32 : BitVec 32).toInt : ℝ) : EReal) = 0
  rw [show (0#32 : BitVec 32).toInt = 0 from by decide]
  simp

theorem padZ_apply (i : S_.Idx) : padZ i = zPad := rfl

/-- A matrix widened from 121 to 128 columns reads, at `(k, j)`, the matrix at `(k, j)` where `j < 121` and the padding
    value's one element in the seven new columns. -/
theorem pad_cols_apply {α : Type} {K : Nat} (x : (⟨2, ![K, 121]⟩ : Shape).Idx → α) {u : Shape} (v : u.Idx → α)
    (h : (⟨2, ![K, 121]⟩ : Shape).Pads (![0, 0] : Fin 2 → Nat) ![0, 7] ![0, 0] ⟨2, ![K, 128]⟩) (hu : 0 < u.numel)
    (k : Fin K) (j : Fin 128) :
    pad ⟨2, ![K, 128]⟩ ![0, 0] ![0, 7] ![0, 0] x v h hu (ix2 k j)
      = if hj : j.val < 121 then x (ix2 k ⟨j.val, hj⟩) else v (Shape.Idx.first hu) := by
  unfold pad
  by_cases hj : j.val < 121
  · rw [dif_pos hj]
    split
    · refine congrArg x (funext fun a => Fin.ext ?_)
      match a with
      | ⟨0, _⟩ => show (k.val - 0) / (0 + 1) = k.val; omega
      | ⟨1, _⟩ => show (j.val - 0) / (0 + 1) = j.val; omega
    · rename_i hn
      refine absurd (fun a => ?_) hn
      match a with
      | ⟨0, _⟩ => exact ⟨Nat.zero_le _, Nat.mod_one _, by show (k.val - 0) / (0 + 1) < K; have := k.isLt; omega⟩
      | ⟨1, _⟩ => exact ⟨Nat.zero_le _, Nat.mod_one _, by show (j.val - 0) / (0 + 1) < 121; omega⟩
  · rw [dif_neg hj]
    split
    · rename_i hin
      have h2 : (j.val - 0) / (0 + 1) < 121 := (hin (1 : Fin 2)).2.2
      exact absurd (show j.val < 121 by omega) hj
    · rfl

/-- The padded weight matrices in the specification's words. -/
theorem padW_apply (x : Vec Ideal S256x121 .f32) (k : Fin 256) (j : Fin 128) :
    pad S256x128 ![0, 0] ![0, 7] ![0, 0] x padZ pads_S256x121_S256x128_000_070 h_S_ (ix2 k j)
      = Cert.Sage.padCols zPad (fun k j => x (ix2 k j)) k j := by
  refine (pad_cols_apply x padZ _ _ k j).trans ?_
  rfl

/-- The padded bias rows in the specification's words. -/
theorem padB_apply (b : Vec Ideal S121 .f32) (j : Fin 128) :
    pad S1x128 ![0, 0] ![0, 7] ![0, 0] (shapeCast S1x121 b shapeCasts_S121_S1x121) padZ pads_S1x121_S1x128_000_070 h_S_
        (ix2 (0 : Fin 1) j)
      = Cert.Sage.padRow zPad (fun j => b (ix1 j)) j := by
  refine (pad_cols_apply _ padZ _ _ (0 : Fin 1) j).trans ?_
  unfold Cert.Sage.padRow
  by_cases hj : j.val < 121
  · rw [dif_pos hj, dif_pos hj]
    exact shapeCast_a_1a_apply b _ 0 ⟨j.val, hj⟩
  · rw [dif_neg hj, dif_neg hj]
    rfl

/-- An array scaled row by row by a column: at `(n, i)`, the entry times the column's entry of row `n`. -/
theorem scaled_apply {C : Nat} (A : Vec Ideal ⟨2, ![50000, C]⟩ .f32) (d : Vec Ideal S50000x1 .f32)
    (h : S50000x1.BroadcastsInDim ⟨2, ![50000, C]⟩ (![0, 1] : Fin 2 → Fin 2)) (n : Fin 50000) (i : Fin C) :
    mulf (F := Ideal) (φ := .f32) A (broadcastInDim ⟨2, ![50000, C]⟩ ![0, 1] h d) (ix2 n i)
      = A (ix2 n i) * d (ix2 n (0 : Fin 1)) := by
  show A (ix2 n i) * _ = _
  congr 1
  exact broadcastInDim_apply _ h d (ix2 n i) (ix2 n (0 : Fin 1)) (fun a => by
    match a with
    | ⟨0, _⟩ => rfl
    | ⟨1, _⟩ => rfl)

/-- The reciprocal of the degree at a node. -/
theorem invD_apply (a1 : Vec Ideal S2x800000 .i32) (n : Fin 50000) :
    invD a1 (ix2 n (0 : Fin 1)) = Ideal.div Cert.Sage.one32 (Dg a1 (ix2 n (0 : Fin 1))) := by
  unfold invD Cert.Sage.one32
  rw [hostDivf_apply, broadcastInDim_scalar_apply, constant_apply]

end LayoutReads

section Reads

variable (m : (ℓ : Loc nD τ sig) → Buf (Elt Ideal) ℓ) (ρ : Dev nD → PrngReg) (c : Dev nD)

theorem V3_main_v23_apply (n : Fin 50000) (i : Fin 50) :
    (Gen.V3 m ρ c main_v23) (ix2 n i)
      = A1 (m ((c : Thread nD τ).loc main_arg0)) (m ((c : Thread nD τ).loc main_arg1)) (ix2 n i)
        * Ideal.div Cert.Sage.one32 (Dg (m ((c : Thread nD τ).loc main_arg1)) (ix2 n (0 : Fin 1))) := by
  rw [V3_main_v23]
  refine (scaled_apply _ _ _ n i).trans ?_
  rw [invD_apply]

theorem V3_main_v25_apply (k : Fin 256) :
    (Gen.V3 m ρ c main_v25) (ix2 (0 : Fin 1) k) = m ((c : Thread nD τ).loc main_arg3) (ix1 k) := by
  rw [V3_main_v25]
  exact shapeCast_a_1a_apply _ _ 0 k

theorem V3_main_v26_apply (k : Fin 256) :
    (Gen.V3 m ρ c main_v26) (ix2 (0 : Fin 1) k) = m ((c : Thread nD τ).loc main_arg6) (ix1 k) := by
  rw [V3_main_v26]
  exact shapeCast_a_1a_apply _ _ 0 k

theorem V3_main_v24_apply (k : Fin 256) (j : Fin 128) :
    (Gen.V3 m ρ c main_v24) (ix2 k j)
      = Cert.Sage.padCols zPad (fun k j => m ((c : Thread nD τ).loc main_arg7) (ix2 k j)) k j := by
  rw [V3_main_v24]
  exact padW_apply _ k j

theorem V12_main_v39_apply (n : Fin 50000) (j : Fin 128) :
    (Gen.V12 m ρ c main_v39) (ix2 n j)
      = A2 ((Gen.dat0 (Gen.V3 m ρ) c).arrAt 9 cfg0.N) (m ((c : Thread nD τ).loc main_arg1)) (ix2 n j)
        * Ideal.div Cert.Sage.one32 (Dg (m ((c : Thread nD τ).loc main_arg1)) (ix2 n (0 : Fin 1))) := by
  rw [V12_main_v39]
  refine (scaled_apply _ _ _ n j).trans ?_
  rw [invD_apply]

theorem V12_main_v40_apply (k : Fin 256) (j : Fin 128) :
    (Gen.V12 m ρ c main_v40) (ix2 k j)
      = Cert.Sage.padCols zPad (fun k j => m ((c : Thread nD τ).loc main_arg9) (ix2 k j)) k j := by
  rw [V12_main_v40]
  exact padW_apply _ k j

theorem V12_main_v43_apply (k : Fin 256) (j : Fin 128) :
    (Gen.V12 m ρ c main_v43) (ix2 k j)
      = Cert.Sage.padCols zPad (fun k j => m ((c : Thread nD τ).loc main_arg10) (ix2 k j)) k j := by
  rw [V12_main_v43]
  exact padW_apply _ k j

theorem V12_main_v42_apply (j : Fin 128) :
    (Gen.V12 m ρ c main_v42) (ix2 (0 : Fin 1) j)
      = Cert.Sage.padRow zPad (fun j => m ((c : Thread nD τ).loc main_arg8) (ix1 j)) j := by
  rw [V12_main_v42]
  exact padB_apply _ j

theorem V12_main_v45_apply (j : Fin 128) :
    (Gen.V12 m ρ c main_v45) (ix2 (0 : Fin 1) j)
      = Cert.Sage.padRow zPad (fun j => m ((c : Thread nD τ).loc main_arg11) (ix1 j)) j := by
  rw [V12_main_v45]
  exact padB_apply _ j

theorem W14_main_v47_apply (n : Fin 50000) (j : Fin 121) :
    (Gen.W14 m ρ c (Proc.devRef .tc main_v47)) (ix2 n j)
      = ((Gen.dat1 (Gen.V12 m ρ) c).arrAt 6 cfg1.N) (ix2 n (⟨j.val, by omega⟩ : Fin 128)) := by
  rw [W14_main_v47]
  exact slice2_axis1_apply 0 _ _ n j ⟨j.val, by omega⟩ (Nat.zero_add _).symm

end Reads

end Cert.KernelIdeal.KValue

end
-- ==== Proof.KRegion0.lean ====
/-
  The two kernel regions of the two-layer mean-aggregating graph network, read off their frame: every grid point
  loads one block of 2000 rows of each row-blocked array and the whole of each weight, computes the layer row by row,
  and stores one block of 2000 rows of each result.  Because a result row depends on the same row of the row-blocked
  inputs and on the whole weights only, the result ARRAY is one row-wise function of the input ARRAYS.

  This module: the operations of a block's payload read at an index (a block product, a lane sum, the keep-dims and
  row broadcasts), the first region's payloads at an index as the rows' mathematics, each window's block at a point as
  rows of its array, and the first region's two result arrays.
-/
import proofs.«166945_j62663572848802_2_alg».proof.Proof.Gen.KernelIdeal.Frame
import proofs.«166945_j62663572848802_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.KRegion

open Cert.KernelIdeal Cert.KernelIdeal.Gen

/-! ## The operations of a payload, read at an index -/

section Generic
variable {m k n : Nat}

/-- A block product of an m×k by a k×n block into the zero block, at (a, b): the sum over the contracted coordinate
    of the products of the entries. -/
theorem matmul_ix2 {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A sum over the lanes of an m×n block, at row r: the sum of the row's entries. -/
theorem laneSum_ix1 (src : FVec Ideal ⟨2, ![m, n]⟩ .f32) (h : Shape.Reduces ⟨2, ![m, n]⟩ [1] ⟨1, ![m]⟩)
    (hφ : FKind.Formats .f32) (hacc : (0x00000000#32 : BitVec 32) = FKind.add.neutral .f32 hφ) (r : Fin m) :
    multiReduction (F := Ideal) .add [1] ⟨1, ![m]⟩ src 0x00000000#32 h hφ hacc (ix1 r) = ∑ c : Fin n, src (ix2 r c) := by
  refine (Ideal.multiReduction_add_single src 0x00000000#32 h hφ hacc (ix1 r)).trans ?_
  refine Finset.sum_congr rfl fun c _ => congrArg src ?_
  funext ax; apply Fin.ext
  match ax with
  | ⟨0, _⟩ => rfl
  | ⟨1, _⟩ => rfl

/-- A column [m] viewed as [m, 1], at (r, u): the column at r. -/
theorem shapeCast_a_a1_apply {α : Type} (x : (⟨1, ![m]⟩ : Shape).Idx → α) (h : (⟨1, ![m]⟩ : Shape).ShapeCasts ⟨2, ![m, 1]⟩)
    (r : Fin m) (u : Fin 1) : shapeCast ⟨2, ![m, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column [m, 1] laid along every lane of [m, n], at (r, c): the column at r. -/
theorem broadcastTo_a1_ab_apply {α : Type} (v : (⟨2, ![m, 1]⟩ : Shape).Idx → α) (h : (⟨2, ![m, 1]⟩ : Shape).Broadcasts ⟨2, ![m, n]⟩)
    (r : Fin m) (c : Fin n) : broadcastTo ⟨2, ![m, n]⟩ v h (ix2 r c) = v (ix2 r (0 : Fin 1)) := by
  refine broadcastTo_apply v h (ix2 r c) (ix2 r (0 : Fin 1)) fun ax => ?_
  match ax with
  | ⟨0, _⟩ =>
    show r.val = if m = 1 then 0 else r.val
    split
    · have := r.isLt; omega
    · rfl
  | ⟨1, _⟩ => rfl

end Generic

section Generic2
variable {m k n : Nat}

/-- The block product into the zero block, at (a, b), over NAMED rows and weights: the row times the matrix. -/
theorem matmul_apply_dot {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) (L : Fin k → EReal) (W : Fin k → Fin n → EReal)
    (hA : ∀ c, A (ix2 a c) = L c) (hB : ∀ c, B (ix2 c b) = W c b) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = Cert.Sage.dot L W b :=
  (matmul_ix2 w prec A B a b).trans (Finset.sum_congr rfl fun c _ => by rw [hA c, hB c])

/-- A sum of two blocks at an index, over named entries. -/
theorem addf_apply_of {s : Shape} {φ : FTy} (A B : FVec Ideal s φ) (i : s.Idx) (a b : EReal) (hA : A i = a) (hB : B i = b) :
    addf A B i = a + b := by
  rw [addf_apply, hA, hB]

/-- One row [1, n] (a bias) laid along every row of [m, n], at (p, c): the bias at c. -/
theorem rowBias_apply {α : Type} (v : (⟨2, ![1, n]⟩ : Shape).Idx → α) (hs : (⟨2, ![1, n]⟩ : Shape).ShapeCasts ⟨2, ![1, n]⟩)
    (h : (⟨2, ![1, n]⟩ : Shape).Broadcasts ⟨2, ![m, n]⟩) (p : Fin m) (c : Fin n) :
    broadcastTo ⟨2, ![m, n]⟩ (shapeCast ⟨2, ![1, n]⟩ v hs) h (ix2 p c) = v (ix2 (0 : Fin 1) c) := by
  rw [shapeCast_self]
  exact broadcastTo_1b_ab_apply v h p c

/-- A block P divided row by row by its rows' Euclidean norms (each kept at least the literal e), plus a block Q,
    at (r, c), over a NAMED row S of P and entry T of Q: the lane sum of the squares, viewed as a column,
    its root, the maximum with the literal, the column laid along the lanes, the quotient and the sum. -/
theorem nrmAdd_apply_of (P Q : FVec Ideal ⟨2, ![m, n]⟩ .f32)
    (hred : Shape.Reduces ⟨2, ![m, n]⟩ [1] ⟨1, ![m]⟩) (hφ : FKind.Formats .f32)
    (hacc : (0x00000000#32 : BitVec 32) = FKind.add.neutral .f32 hφ)
    (hsc : (⟨1, ![m]⟩ : Shape).ShapeCasts ⟨2, ![m, 1]⟩) (hb : (⟨2, ![m, 1]⟩ : Shape).Broadcasts ⟨2, ![m, n]⟩)
    (e : BitVec 32) (r : Fin m) (c : Fin n) (S : Fin n → EReal) (T : EReal)
    (hP : ∀ c', P (ix2 r c') = S c') (hQ : Q (ix2 r c) = T) :
    addf (divf P (broadcastTo ⟨2, ![m, n]⟩
        (maximumf (sqrt (shapeCast ⟨2, ![m, 1]⟩ (multiReduction (F := Ideal) .add [1] ⟨1, ![m]⟩ (mulf P P) 0x00000000#32 hred hφ hacc) hsc))
          (broadcast ⟨2, ![m, 1]⟩ (Scalar.ofBits (F := Ideal) .f32 e))) hb)) Q (ix2 r c)
      = Ideal.div (S c) (max (Ideal.sqrt (∑ c' : Fin n, S c' * S c')) (Ideal.ofBits .f32 e)) + T := by
  rw [addf_apply, divf_apply, hQ, hP c, broadcastTo_a1_ab_apply, maximumf_apply, broadcast_apply]
  show Ideal.div (S c) (max (Ideal.sqrt (shapeCast ⟨2, ![m, 1]⟩ _ hsc (ix2 r 0))) _) + T = _
  rw [shapeCast_a_a1_apply, laneSum_ix1]
  simp only [mulf_apply, hP]
  rfl

end Generic2

/-! ## The first region's payloads at an index -/

section Pay0

variable (x0 x1 : Vec Ideal S2000x50 .f32) (x2 x4 x5 : Vec Ideal S50x256 .f32) (x3 x6 : Vec Ideal S1x256 .f32)
  (x7 : Vec Ideal S256x128 .f32) (r : Fin 2000)

/-- The row before the activation, at lane k: the layer's row from the aggregated row x0 r through its weights x2 with the
    bias x3, the node's own row x1 r through the root weights x4, normalised, plus the side branch x5, x6. -/
theorem pay4_apply (k : Fin 256) :
    Gen.k0_pay4 (F := Ideal) x0 x1 x2 x4 x5 x3 x6 (ix2 r k)
      = Cert.Sage.layer (Cert.Sage.dot (fun i => x0 (ix2 r i)) (fun i j => x2 (ix2 i j))) (fun j => x3 (ix2 0 j))
          (fun i => x1 (ix2 r i)) (fun i j => x4 (ix2 i j)) (fun i j => x5 (ix2 i j)) (fun j => x6 (ix2 0 j)) k := by
  unfold Gen.k0_pay4
  refine (nrmAdd_apply_of _ _ _ _ _ _ _ 0x2B8CBCCC#32 r k
    (Cert.Sage.sage (Cert.Sage.dot (fun i => x0 (ix2 r i)) (fun i j => x2 (ix2 i j))) (fun j => x3 (ix2 0 j))
      (fun i => x1 (ix2 r i)) (fun i j => x4 (ix2 i j)))
    (Cert.Sage.dot (fun i => x1 (ix2 r i)) (fun i j => x5 (ix2 i j)) k + x6 (ix2 0 k)) (fun c' => ?_) ?_).trans rfl
  · refine addf_apply_of _ _ _ _ _ (addf_apply_of _ _ _ _ _ ?_ ?_) ?_
    · exact matmul_apply_dot Facts₀.dot_S2000x50_S50x256_S2000x256_1_0_0_1_n_n_wf none _ _ r c' _ _
        (fun c => congrFun (shapeCast_self x0 _) _) (fun c => rfl)
    · exact rowBias_apply x3 _ _ r c'
    · exact matmul_apply_dot Facts₀.dot_S2000x50_S50x256_S2000x256_1_0_0_1_n_n_wf none _ _ r c' _ _ (fun c => rfl) (fun c => rfl)
  · refine addf_apply_of _ _ _ _ _ ?_ ?_
    · exact matmul_apply_dot Facts₀.dot_S2000x50_S50x256_S2000x256_1_0_0_1_n_n_wf none _ _ r k _ _ (fun c => rfl) (fun c => rfl)
    · exact rowBias_apply x6 _ _ r k

end Pay0

section Pay0b
variable (x0 x1 : Vec Ideal S2000x50 .f32) (x2 x4 x5 : Vec Ideal S50x256 .f32) (x3 x6 : Vec Ideal S1x256 .f32)
  (x7 : Vec Ideal S256x128 .f32) (r : Fin 2000)

/-- The hidden row at lane k: the activation (the row itself where it is above zero, its exponential less one
    elsewhere) of the row before it. -/
theorem pay1_apply (k : Fin 256) :
    Gen.k0_pay1 (F := Ideal) (Gen.k0_pay4 x0 x1 x2 x4 x5 x3 x6) (Gen.k0_pay5 x0 x1 x2 x4 x5 x3 x6) (ix2 r k)
      = Cert.Sage.hrow (fun i => x0 (ix2 r i)) (fun i => x1 (ix2 r i)) (fun i j => x2 (ix2 i j)) (fun i j => x4 (ix2 i j))
          (fun i j => x5 (ix2 i j)) (fun j => x3 (ix2 0 j)) (fun j => x6 (ix2 0 j)) k := by
  show Scalar.select (Ideal.cmp .ogt (Gen.k0_pay4 (F := Ideal) x0 x1 x2 x4 x5 x3 x6 (ix2 r k)) Cert.Sage.zero32)
      (Gen.k0_pay4 (F := Ideal) x0 x1 x2 x4 x5 x3 x6 (ix2 r k))
      (Ideal.exp (Gen.k0_pay4 (F := Ideal) x0 x1 x2 x4 x5 x3 x6 (ix2 r k)) - Cert.Sage.one32) = _
  rw [pay4_apply]
  rfl

/-- The projected hidden row at column j: a hidden row H (named) through the projection weights x7. -/
theorem pay2_apply (v34 : FVec Ideal S2000x256 .f32) (v36 : IVec S2000x256 1) (H : Fin 256 → EReal)
    (hH : ∀ k, Gen.k0_pay1 (F := Ideal) v34 v36 (ix2 r k) = H k) (j : Fin 128) :
    Gen.k0_pay2 (F := Ideal) (Gen.k0_pay3 x7) v34 v36 (ix2 r j) = Cert.Sage.dot H (fun k j => x7 (ix2 k j)) j := by
  unfold Gen.k0_pay2 Gen.k0_pay3
  exact matmul_apply_dot Facts₀.dot_S2000x256_S256x128_S2000x128_1_0_0_1_n_n_wf none _ _ r j _ _ (fun c => hH c)
    (fun c => congrFun (shapeCast_self x7 _) _)

end Pay0b

/-! ## Each window's block at a point, as rows of its array -/

section Blocks0
variable (V : (c : Dev nD) → (b : Ref sig .tc) → Buf (Elt Ideal) ((c : Thread nD τ).loc b)) (c : Dev nD)

theorem hz : (![0, 0] : Fin 2 → Nat) = fun _ => 0 := funext fun a => by fin_cases a <;> rfl

/-! The printed index maps, decided over the 25 grid points: a row-blocked window's block index at point t is (t, 0),
    a weight's or a bias's is (0, 0). -/

theorem idx_facts0_0 : ∀ t : Fin cfg0.N, win0_0.index t (0 : Fin 2) = t.val ∧ win0_0.index t (1 : Fin 2) = 0 :=
  (by decide +kernel : ∀ t : Fin grid0.N, _)
theorem idx_facts0_1 : ∀ t : Fin cfg0.N, win0_1.index t (0 : Fin 2) = t.val ∧ win0_1.index t (1 : Fin 2) = 0 :=
  (by decide +kernel : ∀ t : Fin grid0.N, _)
theorem idx_facts0_2 : ∀ t : Fin cfg0.N, win0_2.index t (0 : Fin 2) = 0 ∧ win0_2.index t (1 : Fin 2) = 0 :=
  (by decide +kernel : ∀ t : Fin grid0.N, _)
theorem idx_facts0_3 : ∀ t : Fin cfg0.N, win0_3.index t (0 : Fin 2) = 0 ∧ win0_3.index t (1 : Fin 2) = 0 :=
  (by decide +kernel : ∀ t : Fin grid0.N, _)
theorem idx_facts0_4 : ∀ t : Fin cfg0.N, win0_4.index t (0 : Fin 2) = 0 ∧ win0_4.index t (1 : Fin 2) = 0 :=
  (by decide +kernel : ∀ t : Fin grid0.N, _)
theorem idx_facts0_5 : ∀ t : Fin cfg0.N, win0_5.index t (0 : Fin 2) = 0 ∧ win0_5.index t (1 : Fin 2) = 0 :=
  (by decide +kernel : ∀ t : Fin grid0.N, _)
theorem idx_facts0_6 : ∀ t : Fin cfg0.N, win0_6.index t (0 : Fin 2) = 0 ∧ win0_6.index t (1 : Fin 2) = 0 :=
  (by decide +kernel : ∀ t : Fin grid0.N, _)
theorem idx_facts0_7 : ∀ t : Fin cfg0.N, win0_7.index t (0 : Fin 2) = 0 ∧ win0_7.index t (1 : Fin 2) = 0 :=
  (by decide +kernel : ∀ t : Fin grid0.N, _)
theorem idx_facts0_8 : ∀ t : Fin cfg0.N, win0_8.index t (0 : Fin 2) = t.val ∧ win0_8.index t (1 : Fin 2) = 0 :=
  (by decide +kernel : ∀ t : Fin grid0.N, _)
theorem idx_facts0_9 : ∀ t : Fin cfg0.N, win0_9.index t (0 : Fin 2) = t.val ∧ win0_9.index t (1 : Fin 2) = 0 :=
  (by decide +kernel : ∀ t : Fin grid0.N, _)

/-! So a row-blocked window's block at point t is rows 2000 t … 2000 t + 1999 of its array, and a weight's or a bias's block
    is its array. -/

theorem blk0_0_apply (t : Fin cfg0.N) (r : Fin 2000) (i : Fin 50) (hn : 2000 * t.val + r.val < 50000) :
    (Gen.iblk0 V c 0 t : Vec Ideal S2000x50 .f32) (ix2 r i)
      = (V c main_v23 : S50000x50.Idx → EReal) (ix2 (⟨2000 * t.val + r.val, hn⟩ : Fin 50000) i) := by
  obtain ⟨e0, e1⟩ := idx_facts0_0 t
  unfold Gen.iblk0
  rw [View.read_apply]
  show V c main_v23 _ = V c main_v23 _
  congr 1
  funext a; apply Fin.ext
  match a with
  | ⟨0, _⟩ => show win0_0.index t (0 : Fin 2) * 2000 + 1 * r.val = 2000 * t.val + r.val; rw [e0]; omega
  | ⟨1, _⟩ => show win0_0.index t (1 : Fin 2) * 50 + 1 * i.val = i.val; rw [e1]; omega

theorem blk0_1_apply (t : Fin cfg0.N) (r : Fin 2000) (i : Fin 50) (hn : 2000 * t.val + r.val < 50000) :
    (Gen.iblk0 V c 1 t : Vec Ideal S2000x50 .f32) (ix2 r i)
      = (V c main_arg0 : S50000x50.Idx → EReal) (ix2 (⟨2000 * t.val + r.val, hn⟩ : Fin 50000) i) := by
  obtain ⟨e0, e1⟩ := idx_facts0_1 t
  unfold Gen.iblk0
  rw [View.read_apply]
  show V c main_arg0 _ = V c main_arg0 _
  congr 1
  funext a; apply Fin.ext
  match a with
  | ⟨0, _⟩ => show win0_1.index t (0 : Fin 2) * 2000 + 1 * r.val = 2000 * t.val + r.val; rw [e0]; omega
  | ⟨1, _⟩ => show win0_1.index t (1 : Fin 2) * 50 + 1 * i.val = i.val; rw [e1]; omega

theorem blk0_2_apply (t : Fin cfg0.N) (a : Fin 50) (b : Fin 256) :
    (Gen.iblk0 V c 2 t : Vec Ideal S50x256 .f32) (ix2 a b) = (V c main_arg2 : S50x256.Idx → EReal) (ix2 a b) := by
  obtain ⟨e0, e1⟩ := idx_facts0_2 t
  unfold Gen.iblk0
  rw [View.read_apply]
  show V c main_arg2 _ = V c main_arg2 _
  congr 1
  funext ax; apply Fin.ext
  match ax with
  | ⟨0, _⟩ => show win0_2.index t (0 : Fin 2) * 50 + 1 * a.val = a.val; rw [e0]; omega
  | ⟨1, _⟩ => show win0_2.index t (1 : Fin 2) * 256 + 1 * b.val = b.val; rw [e1]; omega

theorem blk0_3_apply (t : Fin cfg0.N) (a : Fin 1) (b : Fin 256) :
    (Gen.iblk0 V c 3 t : Vec Ideal S1x256 .f32) (ix2 a b) = (V c main_v25 : S1x256.Idx → EReal) (ix2 a b) := by
  obtain ⟨e0, e1⟩ := idx_facts0_3 t
  unfold Gen.iblk0
  rw [View.read_apply]
  show V c main_v25 _ = V c main_v25 _
  congr 1
  funext ax; apply Fin.ext
  match ax with
  | ⟨0, _⟩ => show win0_3.index t (0 : Fin 2) * 1 + 1 * a.val = a.val; rw [e0]; omega
  | ⟨1, _⟩ => show win0_3.index t (1 : Fin 2) * 256 + 1 * b.val = b.val; rw [e1]; omega

theorem blk0_4_apply (t : Fin cfg0.N) (a : Fin 50) (b : Fin 256) :
    (Gen.iblk0 V c 4 t : Vec Ideal S50x256 .f32) (ix2 a b) = (V c main_arg4 : S50x256.Idx → EReal) (ix2 a b) := by
  obtain ⟨e0, e1⟩ := idx_facts0_4 t
  unfold Gen.iblk0
  rw [View.read_apply]
  show V c main_arg4 _ = V c main_arg4 _
  congr 1
  funext ax; apply Fin.ext
  match ax with
  | ⟨0, _⟩ => show win0_4.index t (0 : Fin 2) * 50 + 1 * a.val = a.val; rw [e0]; omega
  | ⟨1, _⟩ => show win0_4.index t (1 : Fin 2) * 256 + 1 * b.val = b.val; rw [e1]; omega

theorem blk0_5_apply (t : Fin cfg0.N) (a : Fin 50) (b : Fin 256) :
    (Gen.iblk0 V c 5 t : Vec Ideal S50x256 .f32) (ix2 a b) = (V c main_arg5 : S50x256.Idx → EReal) (ix2 a b) := by
  obtain ⟨e0, e1⟩ := idx_facts0_5 t
  unfold Gen.iblk0
  rw [View.read_apply]
  show V c main_arg5 _ = V c main_arg5 _
  congr 1
  funext ax; apply Fin.ext
  match ax with
  | ⟨0, _⟩ => show win0_5.index t (0 : Fin 2) * 50 + 1 * a.val = a.val; rw [e0]; omega
  | ⟨1, _⟩ => show win0_5.index t (1 : Fin 2) * 256 + 1 * b.val = b.val; rw [e1]; omega

theorem blk0_6_apply (t : Fin cfg0.N) (a : Fin 1) (b : Fin 256) :
    (Gen.iblk0 V c 6 t : Vec Ideal S1x256 .f32) (ix2 a b) = (V c main_v26 : S1x256.Idx → EReal) (ix2 a b) := by
  obtain ⟨e0, e1⟩ := idx_facts0_6 t
  unfold Gen.iblk0
  rw [View.read_apply]
  show V c main_v26 _ = V c main_v26 _
  congr 1
  funext ax; apply Fin.ext
  match ax with
  | ⟨0, _⟩ => show win0_6.index t (0 : Fin 2) * 1 + 1 * a.val = a.val; rw [e0]; omega
  | ⟨1, _⟩ => show win0_6.index t (1 : Fin 2) * 256 + 1 * b.val = b.val; rw [e1]; omega

theorem blk0_7_apply (t : Fin cfg0.N) (a : Fin 256) (b : Fin 128) :
    (Gen.iblk0 V c 7 t : Vec Ideal S256x128 .f32) (ix2 a b) = (V c main_v24 : S256x128.Idx → EReal) (ix2 a b) := by
  obtain ⟨e0, e1⟩ := idx_facts0_7 t
  unfold Gen.iblk0
  rw [View.read_apply]
  show V c main_v24 _ = V c main_v24 _
  congr 1
  funext ax; apply Fin.ext
  match ax with
  | ⟨0, _⟩ => show win0_7.index t (0 : Fin 2) * 256 + 1 * a.val = a.val; rw [e0]; omega
  | ⟨1, _⟩ => show win0_7.index t (1 : Fin 2) * 128 + 1 * b.val = b.val; rw [e1]; omega

end Blocks0

/-! ## The first region's two result arrays -/

section Final0
variable (V : (c : Dev nD) → (b : Ref sig .tc) → Buf (Elt Ideal) ((c : Thread nD τ).loc b)) (c : Dev nD)

/-- The hidden row of node n: from row n of the aggregated array and of the feature array, and the whole weights and biases. -/
def hid (n : Fin 50000) : Fin 256 → EReal :=
  Cert.Sage.hrow (fun i => V c main_v23 (ix2 n i)) (fun i => V c main_arg0 (ix2 n i)) (fun i k => V c main_arg2 (ix2 i k))
    (fun i k => V c main_arg4 (ix2 i k)) (fun i k => V c main_arg5 (ix2 i k)) (fun k => V c main_v25 (ix2 0 k))
    (fun k => V c main_v26 (ix2 0 k))

/-- The hidden array, index by index. -/
def hidArr : S50000x256.Idx → EReal := fun i => hid V c (i 0 : Fin 50000) (i 1 : Fin 256)

/-- The projected hidden array, index by index. -/
def projArr : S50000x128.Idx → EReal :=
  fun i => Cert.Sage.dot (hid V c (i 0 : Fin 50000)) (fun k j => V c main_v24 (ix2 k j)) (i 1 : Fin 128)

/-- At point t the body's hidden block, at (r, k), is the hidden row of node 2000 t + r at k. -/
theorem hidBlk_apply (t : Fin cfg0.N) (r : Fin 2000) (k : Fin 256) (hn : 2000 * t.val + r.val < 50000) :
    Gen.k0_pay1 (F := Ideal)
        (Gen.k0_pay4 (Gen.iblk0 V c 0 t) (Gen.iblk0 V c 1 t) (Gen.iblk0 V c 2 t) (Gen.iblk0 V c 4 t) (Gen.iblk0 V c 5 t) (Gen.iblk0 V c 3 t) (Gen.iblk0 V c 6 t))
        (Gen.k0_pay5 (Gen.iblk0 V c 0 t) (Gen.iblk0 V c 1 t) (Gen.iblk0 V c 2 t) (Gen.iblk0 V c 4 t) (Gen.iblk0 V c 5 t) (Gen.iblk0 V c 3 t) (Gen.iblk0 V c 6 t))
        (ix2 r k)
      = hid V c ⟨2000 * t.val + r.val, hn⟩ k := by
  refine (pay1_apply (Gen.iblk0 V c 0 t) (Gen.iblk0 V c 1 t) (Gen.iblk0 V c 2 t) (Gen.iblk0 V c 4 t) (Gen.iblk0 V c 5 t)
    (Gen.iblk0 V c 3 t) (Gen.iblk0 V c 6 t) r k).trans ?_
  unfold hid
  have e0 : (fun i : Fin 50 => (Gen.iblk0 V c 0 t : Vec Ideal S2000x50 .f32) (ix2 r i))
      = fun i => V c main_v23 (ix2 (⟨2000 * t.val + r.val, hn⟩ : Fin 50000) i) := funext fun i => blk0_0_apply V c t r i hn
  have e1 : (fun i : Fin 50 => (Gen.iblk0 V c 1 t : Vec Ideal S2000x50 .f32) (ix2 r i))
      = fun i => V c main_arg0 (ix2 (⟨2000 * t.val + r.val, hn⟩ : Fin 50000) i) := funext fun i => blk0_1_apply V c t r i hn
  have e2 : (fun (i : Fin 50) (j : Fin 256) => (Gen.iblk0 V c 2 t : Vec Ideal S50x256 .f32) (ix2 i j))
      = fun i j => V c main_arg2 (ix2 i j) := funext fun i => funext fun j => blk0_2_apply V c t i j
  have e4 : (fun (i : Fin 50) (j : Fin 256) => (Gen.iblk0 V c 4 t : Vec Ideal S50x256 .f32) (ix2 i j))
      = fun i j => V c main_arg4 (ix2 i j) := funext fun i => funext fun j => blk0_4_apply V c t i j
  have e5 : (fun (i : Fin 50) (j : Fin 256) => (Gen.iblk0 V c 5 t : Vec Ideal S50x256 .f32) (ix2 i j))
      = fun i j => V c main_arg5 (ix2 i j) := funext fun i => funext fun j => blk0_5_apply V c t i j
  have e3 : (fun j : Fin 256 => (Gen.iblk0 V c 3 t : Vec Ideal S1x256 .f32) (ix2 0 j))
      = fun j => V c main_v25 (ix2 0 j) := funext fun j => blk0_3_apply V c t 0 j
  have e6 : (fun j : Fin 256 => (Gen.iblk0 V c 6 t : Vec Ideal S1x256 .f32) (ix2 0 j))
      = fun j => V c main_v26 (ix2 0 j) := funext fun j => blk0_6_apply V c t 0 j
  rw [e0, e1, e2, e4, e5, e3, e6]

end Final0

section Final0b
variable (V : (c : Dev nD) → (b : Ref sig .tc) → Buf (Elt Ideal) ((c : Thread nD τ).loc b)) (c : Dev nD)

/-- WHAT POINT t WRITES BACK to the hidden array is block t of the hidden array as one function of the arrays the region finds. -/
theorem flushed8_eq (t : Fin cfg0.N) :
    (Gen.dat0 V c).flushed 8 t = ((cfg0.win 8).blk t).view.read (Elt Ideal) (hidArr V c) := by
  show (cfg0.win 8).cut (grid0.coords t) ((Gen.dat0 V c).after 8 t) = _
  rw [Gen.after0_8]
  unfold Gen.out0_8
  rw [View.canon_unit_zero hz]
  simp only [View.ld_unit_zero (S := S2000x50) hz, View.ld_unit_zero (S := S50x256) hz, View.ld_unit_zero (S := S1x256) hz]
  funext j
  obtain ⟨r, k, rfl⟩ : ∃ (r : Fin 2000) (k : Fin 256), j = ix2 r k := ⟨j 0, j 1, eq_ix2 j⟩
  have hN : cfg0.N = 25 := N_0
  have hn : 2000 * t.val + r.val < 50000 := by have := t.isLt; omega
  obtain ⟨e0, e1⟩ := idx_facts0_8 t
  have hemb : ((cfg0.win 8).blk t).view.emb (ix2 r k) = (ix2 (⟨2000 * t.val + r.val, hn⟩ : Fin 50000) k : S50000x256.Idx) := by
    funext a; apply Fin.ext
    match a with
    | ⟨0, _⟩ => show win0_8.index t (0 : Fin 2) * 2000 + 1 * r.val = 2000 * t.val + r.val; rw [e0]; omega
    | ⟨1, _⟩ => show win0_8.index t (1 : Fin 2) * 256 + 1 * k.val = k.val; rw [e1]; omega
  refine (hidBlk_apply V c t r k hn).trans ?_
  exact (congrArg (hidArr V c) hemb).symm

/-- An index of the hidden array is in point t's block iff each coordinate is in the block's range on its axis. -/
theorem mem_blk8 (t : Fin cfg0.N) (i : S50000x256.Idx) :
    i ∈ ((cfg0.win 8).blk t).view.set ↔ ∀ a : Fin 2, win0_8.index t a * S2000x256.size a ≤ (i a).val ∧ (i a).val < win0_8.index t a * S2000x256.size a + S2000x256.size a := by
  show i ∈ ((View.whole main_v27_0).slice (win0_8.rect t)).set ↔ _
  rw [View.set_slice_whole, Rect.mem_set_unit]
  exact Iff.rfl

/-- Every row of the hidden array is in the block of the point that is the row's number divided by 2000. -/
theorem cover8 (i : S50000x256.Idx) : ∃ t : Fin cfg0.N, (cfg0.win 8).flush t = true ∧ i ∈ ((cfg0.win 8).blk t).view.set := by
  have hN : cfg0.N = 25 := N_0
  have hi0 : (i 0).val < 50000 := (i 0).isLt
  have hi1 : (i 1).val < 256 := (i 1).isLt
  refine ⟨⟨(i 0).val / 2000, by omega⟩, flush0_8 _, ?_⟩
  obtain ⟨e0, e1⟩ := idx_facts0_8 ⟨(i 0).val / 2000, by omega⟩
  rw [mem_blk8]
  intro a
  match a with
  | ⟨0, _⟩ =>
    show win0_8.index ⟨(i 0).val / 2000, _⟩ (0 : Fin 2) * 2000 ≤ (i 0).val ∧ (i 0).val < win0_8.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win0_8.index ⟨(i 0).val / 2000, _⟩ (1 : Fin 2) * 256 ≤ (i 1).val ∧ (i 1).val < win0_8.index ⟨(i 0).val / 2000, _⟩ (1 : Fin 2) * 256 + 256
    rw [e1]; omega

/-- THE HIDDEN ARRAY after the region, at row n and lane k: the hidden row of node n at k. -/
theorem h_final (n : Fin 50000) (k : Fin 256) : (Gen.dat0 (F := Ideal) V c).arrAt 8 cfg0.N (ix2 n k)
    = Cert.Sage.hrow (fun i => V c main_v23 (ix2 n i)) (fun i => V c main_arg0 (ix2 n i)) (fun i k => V c main_arg2 (ix2 i k))
        (fun i k => V c main_arg4 (ix2 i k)) (fun i k => V c main_arg5 (ix2 i k)) (fun k => V c main_v25 (ix2 0 k))
        (fun k => V c main_v26 (ix2 0 k)) k :=
  congrFun ((Gen.dat0 V c).arrAt_eq_of_cover 8 (hidArr V c) (fun t _ => flushed8_eq V c t) (cover8)) (ix2 n k)

end Final0b

section Final0c
variable (V : (c : Dev nD) → (b : Ref sig .tc) → Buf (Elt Ideal) ((c : Thread nD τ).loc b)) (c : Dev nD)

/-- At point t the body's projected block, at (r, j), is the hidden row of node 2000 t + r through the projection weights, at j. -/
theorem projBlk_apply (t : Fin cfg0.N) (r : Fin 2000) (j : Fin 128) (hn : 2000 * t.val + r.val < 50000) :
    Gen.k0_pay2 (F := Ideal) (Gen.k0_pay3 (Gen.iblk0 V c 7 t))
        (Gen.k0_pay4 (Gen.iblk0 V c 0 t) (Gen.iblk0 V c 1 t) (Gen.iblk0 V c 2 t) (Gen.iblk0 V c 4 t) (Gen.iblk0 V c 5 t) (Gen.iblk0 V c 3 t) (Gen.iblk0 V c 6 t))
        (Gen.k0_pay5 (Gen.iblk0 V c 0 t) (Gen.iblk0 V c 1 t) (Gen.iblk0 V c 2 t) (Gen.iblk0 V c 4 t) (Gen.iblk0 V c 5 t) (Gen.iblk0 V c 3 t) (Gen.iblk0 V c 6 t))
        (ix2 r j)
      = Cert.Sage.dot (hid V c ⟨2000 * t.val + r.val, hn⟩) (fun k j => V c main_v24 (ix2 k j)) j := by
  refine (pay2_apply (Gen.iblk0 V c 7 t) r
    (Gen.k0_pay4 (Gen.iblk0 V c 0 t) (Gen.iblk0 V c 1 t) (Gen.iblk0 V c 2 t) (Gen.iblk0 V c 4 t) (Gen.iblk0 V c 5 t) (Gen.iblk0 V c 3 t) (Gen.iblk0 V c 6 t))
    (Gen.k0_pay5 (Gen.iblk0 V c 0 t) (Gen.iblk0 V c 1 t) (Gen.iblk0 V c 2 t) (Gen.iblk0 V c 4 t) (Gen.iblk0 V c 5 t) (Gen.iblk0 V c 3 t) (Gen.iblk0 V c 6 t))
    (hid V c ⟨2000 * t.val + r.val, hn⟩) (fun k => hidBlk_apply V c t r k hn) j).trans ?_
  have e7 : (fun (k : Fin 256) (j : Fin 128) => (Gen.iblk0 V c 7 t : Vec Ideal S256x128 .f32) (ix2 k j))
      = fun k j => V c main_v24 (ix2 k j) := funext fun k => funext fun j => blk0_7_apply V c t k j
  rw [e7]

/-- WHAT POINT t WRITES BACK to the projected array is block t of the projected array as one function of the arrays the region finds. -/
theorem flushed9_eq (t : Fin cfg0.N) :
    (Gen.dat0 V c).flushed 9 t = ((cfg0.win 9).blk t).view.read (Elt Ideal) (projArr V c) := by
  show (cfg0.win 9).cut (grid0.coords t) ((Gen.dat0 V c).after 9 t) = _
  rw [Gen.after0_9]
  unfold Gen.out0_9
  rw [View.canon_unit_zero hz]
  simp only [View.ld_unit_zero (S := S2000x50) hz, View.ld_unit_zero (S := S50x256) hz, View.ld_unit_zero (S := S1x256) hz,
    View.ld_unit_zero (S := S256x128) hz]
  funext j
  obtain ⟨r, k, rfl⟩ : ∃ (r : Fin 2000) (k : Fin 128), j = ix2 r k := ⟨j 0, j 1, eq_ix2 j⟩
  have hN : cfg0.N = 25 := N_0
  have hn : 2000 * t.val + r.val < 50000 := by have := t.isLt; omega
  obtain ⟨e0, e1⟩ := idx_facts0_9 t
  have hemb : ((cfg0.win 9).blk t).view.emb (ix2 r k) = (ix2 (⟨2000 * t.val + r.val, hn⟩ : Fin 50000) k : S50000x128.Idx) := by
    funext a; apply Fin.ext
    match a with
    | ⟨0, _⟩ => show win0_9.index t (0 : Fin 2) * 2000 + 1 * r.val = 2000 * t.val + r.val; rw [e0]; omega
    | ⟨1, _⟩ => show win0_9.index t (1 : Fin 2) * 128 + 1 * k.val = k.val; rw [e1]; omega
  refine (projBlk_apply V c t r k hn).trans ?_
  exact (congrArg (projArr V c) hemb).symm

/-- An index of the projected array is in point t's block iff each coordinate is in the block's range on its axis. -/
theorem mem_blk9 (t : Fin cfg0.N) (i : S50000x128.Idx) :
    i ∈ ((cfg0.win 9).blk t).view.set ↔ ∀ a : Fin 2, win0_9.index t a * S2000x128.size a ≤ (i a).val ∧ (i a).val < win0_9.index t a * S2000x128.size a + S2000x128.size a := by
  show i ∈ ((View.whole main_v27_1).slice (win0_9.rect t)).set ↔ _
  rw [View.set_slice_whole, Rect.mem_set_unit]
  exact Iff.rfl

/-- Every row of the projected array is in the block of the point that is the row's number divided by 2000. -/
theorem cover9 (i : S50000x128.Idx) : ∃ t : Fin cfg0.N, (cfg0.win 9).flush t = true ∧ i ∈ ((cfg0.win 9).blk t).view.set := by
  have hN : cfg0.N = 25 := N_0
  have hi0 : (i 0).val < 50000 := (i 0).isLt
  have hi1 : (i 1).val < 128 := (i 1).isLt
  refine ⟨⟨(i 0).val / 2000, by omega⟩, flush0_9 _, ?_⟩
  obtain ⟨e0, e1⟩ := idx_facts0_9 ⟨(i 0).val / 2000, by omega⟩
  rw [mem_blk9]
  intro a
  match a with
  | ⟨0, _⟩ =>
    show win0_9.index ⟨(i 0).val / 2000, _⟩ (0 : Fin 2) * 2000 ≤ (i 0).val ∧ (i 0).val < win0_9.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win0_9.index ⟨(i 0).val / 2000, _⟩ (1 : Fin 2) * 128 ≤ (i 1).val ∧ (i 1).val < win0_9.index ⟨(i 0).val / 2000, _⟩ (1 : Fin 2) * 128 + 128
    rw [e1]; omega

/-- THE PROJECTED ARRAY after the region, at row n and column j: the hidden row of node n through the projection weights, at j. -/
theorem hproj_final (n : Fin 50000) (j : Fin 128) : (Gen.dat0 (F := Ideal) V c).arrAt 9 cfg0.N (ix2 n j)
    = Cert.Sage.dot (Cert.Sage.hrow (fun i => V c main_v23 (ix2 n i)) (fun i => V c main_arg0 (ix2 n i)) (fun i k => V c main_arg2 (ix2 i k))
        (fun i k => V c main_arg4 (ix2 i k)) (fun i k => V c main_arg5 (ix2 i k)) (fun k => V c main_v25 (ix2 0 k))
        (fun k => V c main_v26 (ix2 0 k))) (fun k j => V c main_v24 (ix2 k j)) j :=
  congrFun ((Gen.dat0 V c).arrAt_eq_of_cover 9 (projArr V c) (fun t _ => flushed9_eq V c t) (cover9)) (ix2 n j)

end Final0c

end Cert.KernelIdeal.KRegion

end
-- ==== Proof.KRegion1.lean ====
/-
  The second layer's region: the output array as one row-wise function of the region's input arrays.

  Each grid point writes a block of 2000 rows.  A row of the block is
      (u + b + h·Wr) / max (‖u + b + h·Wr‖) ε  +  (h·Wl + bl)
  of the matching rows of the aggregated term `u` and the hidden rows `h`, and of the whole weight arrays: the
  second layer's row `Cert.Sage.layer`.  The blocks tile the array, so the array is that function of its row.
-/
import proofs.«166945_j62663572848802_2_alg».proof.Proof.Gen.KernelIdeal.Frame
import proofs.«166945_j62663572848802_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KRegion

open Cert.KernelIdeal Cert.KernelIdeal.Gen Idealize.ShloMosaic Idealize.ShloMosaic.TcCoe Idealize.SL.Sem
open Idealize.ShloMosaic.ValueIdx
open Idealize.ShloMosaic.Pipeline (Dat)

/-! ## The layout and contraction operations of the body, read at an index -/

section ReadAtIndex
variable {α : Type}

/-- A column `[a, 1]` broadcast to `[a, b]` reads, at `(p, c)`, the column's entry at row `p`. -/
theorem broadcastTo_a1_ab_apply1 {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(p, 0)`, the vector's entry `p`. -/
theorem shapeCast_a_a1_apply1 {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_two, Shape.rowMajor_val_one]
    show p.val = p.val * 1 + 0
    omega)

/-- A sum along the rows of an `[a, b]` array, from the zero accumulator, reads at `p` the sum of row `p`. -/
theorem rowSum_apply1 {a b : ℕ} (src : FVec Ideal ⟨2, ![a, b]⟩ .f32)
    (h : (⟨2, ![a, b]⟩ : Shape).Reduces [1] ⟨1, ![a]⟩)
    (hacc : (0x00000000#32 : BitVec 32) = FKind.add.neutral .f32 (.inl rfl)) (p : Fin a) :
    multiReduction .add [1] ⟨1, ![a]⟩ src 0x00000000#32 h (.inl rfl) hacc (ix1 p) = ∑ c : Fin b, src (ix2 p c) :=
  (Ideal.multiReduction_add_single src 0x00000000#32 h (.inl rfl) hacc (ix1 p)).trans
    (Finset.sum_congr rfl fun c _ => congrArg src (funext fun ax => Fin.ext (by
      match ax with
      | ⟨0, _⟩ => rfl
      | ⟨1, _⟩ => rfl)))

/-- A matrix product `[m, k] · [k, n]` into the zero accumulator reads, at `(p, c)`, the sum over the contracted
    coordinate of the products of the entries. -/
theorem matmul_plain_apply1 {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (p : Fin m) (c : Fin n) :
    matmul (⟨[1], [0], [0], [1], [], [], w⟩ : DotDims _ _ _) prec A B (constant ⟨2, ![m, n]⟩ .f32 0x00000000#32) (ix2 p c)
      = ∑ q : Fin k, A (ix2 p q) * B (ix2 q c) := by
  show FloatOps.matmul _ prec A B (constant ⟨2, ![m, n]⟩ .f32 0x00000000#32) (ix2 p c) = _
  rw [Ideal.matmul_constant_zero_apply,
    ← Equiv.sum_comp (contrEquiv1 (⟨[1], [0], [0], [1], [], [], w⟩ : DotDims _ _ _) k rfl rfl).symm]
  refine Finset.sum_congr rfl fun q _ => ?_
  have c2 := contrEquiv1_symm_val
    (⟨[1], [0], [0], [1], [], [], w⟩ : DotDims ⟨2, ![m, k]⟩ ⟨2, ![k, n]⟩ ⟨2, ![m, n]⟩) k rfl rfl q
  have l2 : (⟨[1], [0], [0], [1], [], [], w⟩ : DotDims ⟨2, ![m, k]⟩ ⟨2, ![k, n]⟩ ⟨2, ![m, n]⟩).lhsIdx (ix2 p c)
      ((contrEquiv1 _ k rfl rfl).symm q) = ix2 p q := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 p c)
      ((contrEquiv1 _ k rfl rfl).symm q) = ix2 q c := by
    funext ax; apply Fin.ext
    match ax with
    | ⟨0, _⟩ => simp [DotDims.rhsIdx]; exact c2
    | ⟨1, _⟩ => simp [DotDims.rhsIdx]; rfl
  rw [l2, r2]

end ReadAtIndex

/-! ## The body's arithmetic, stage by stage -/

section Payload

/-- The matrix products of the body, read at an index. -/
theorem matmulK_apply1 (A : FVec Ideal S2000x256 .bf16) (B : FVec Ideal S256x128 .bf16) (r : Fin 2000) (j : Fin 128) :
    matmul dot_S2000x256_S256x128_S2000x128_1_0_0_1_n_n none A B (constant S2000x128 .f32 0x00000000#32) (ix2 r j)
      = ∑ q : Fin 256, A (ix2 r q) * B (ix2 q j) :=
  matmul_plain_apply1 Facts₀.dot_S2000x256_S256x128_S2000x128_1_0_0_1_n_n_wf none A B r j

/-- The aggregated term plus the bias plus the hidden rows through the root weights, as the body forms it. -/
def sageVec1 (v0 : Vec Ideal S2000x256 .f32) (v3 : Vec Ideal S256x128 .f32) (v9 : Vec Ideal S2000x128 .f32)
    (v11 : Vec Ideal S1x128 .f32) : FVec Ideal S2000x128 .f32 :=
  addf (addf (shapeCast S2000x128 v9 shapeCasts_S2000x128_S2000x128)
      (broadcastTo S2000x128 (shapeCast S1x128 v11 shapeCasts_S1x128_S1x128) broadcasts_S1x128_S2000x128))
    (matmul dot_S2000x256_S256x128_S2000x128_1_0_0_1_n_n none
      (truncf .bf16 (shapeCast S2000x256 v0 shapeCasts_S2000x256_S2000x256) bitsLt_bf16_f32)
      (truncf .bf16 (shapeCast S256x128 v3 shapeCasts_S256x128_S256x128) bitsLt_bf16_f32)
      (constant S2000x128 .f32 0x00000000#32))

/-- A block of rows, each divided by its norm kept at least `ε`, as the body forms it. -/
def nrmVec1 (v16 : FVec Ideal S2000x128 .f32) : FVec Ideal S2000x128 .f32 :=
  divf v16 (broadcastTo S2000x128
    (maximumf (sqrt (shapeCast S2000x1
        (multiReduction .add [1] S2000 (mulf v16 v16) 0x00000000#32 reduces_S2000x128_S2000 (.inl rfl) rfl)
        shapeCasts_S2000_S2000x1))
      (broadcast S2000x1 (Scalar.ofBits .f32 0x2B8CBCCC#32)))
    broadcasts_S2000x1_S2000x128)

/-- The side branch: the hidden rows through the side weights plus the side bias, as the body forms it. -/
def sideVec1 (v0 : Vec Ideal S2000x256 .f32) (v6 : Vec Ideal S256x128 .f32) (v26 : Vec Ideal S1x128 .f32) :
    FVec Ideal S2000x128 .f32 :=
  addf (matmul dot_S2000x256_S256x128_S2000x128_1_0_0_1_n_n none
      (truncf .bf16 (shapeCast S2000x256 v0 shapeCasts_S2000x256_S2000x256) bitsLt_bf16_f32)
      (truncf .bf16 (shapeCast S256x128 v6 shapeCasts_S256x128_S256x128) bitsLt_bf16_f32)
      (constant S2000x128 .f32 0x00000000#32))
    (broadcastTo S2000x128 (shapeCast S1x128 v26 shapeCasts_S1x128_S1x128) broadcasts_S1x128_S2000x128)

/-- The body's stored value is the normalised first stage plus the side branch. -/
theorem layerPay1_eq (v0 : Vec Ideal S2000x256 .f32) (v3 : Vec Ideal S256x128 .f32) (v6 : Vec Ideal S256x128 .f32)
    (v9 : Vec Ideal S2000x128 .f32) (v11 : Vec Ideal S1x128 .f32) (v26 : Vec Ideal S1x128 .f32) :
    k1_pay1 (F := Ideal) v0 v3 v6 v9 v11 v26 = addf (nrmVec1 (sageVec1 v0 v3 v9 v11)) (sideVec1 v0 v6 v26) := rfl

/-- The first stage at row `r` is `Cert.Sage.sage` of the rows. -/
theorem sageVec1_apply (v0 : Vec Ideal S2000x256 .f32) (v3 : Vec Ideal S256x128 .f32) (v9 : Vec Ideal S2000x128 .f32)
    (v11 : Vec Ideal S1x128 .f32) (r : Fin 2000) (j : Fin 128) :
    sageVec1 v0 v3 v9 v11 (ix2 r j)
      = Cert.Sage.sage (fun j => v9 (ix2 r j)) (fun j => v11 (ix2 (0 : Fin 1) j)) (fun k => v0 (ix2 r k))
          (fun k j => v3 (ix2 k j)) j := by
  unfold sageVec1 Cert.Sage.sage Cert.Sage.dot
  rw [addf_apply, addf_apply, matmulK_apply1, shapeCast_self, shapeCast_self, shapeCast_self, shapeCast_self,
    broadcastTo_1b_ab_apply]
  rfl

/-- The side branch at row `r`. -/
theorem sideVec1_apply (v0 : Vec Ideal S2000x256 .f32) (v6 : Vec Ideal S256x128 .f32) (v26 : Vec Ideal S1x128 .f32)
    (r : Fin 2000) (j : Fin 128) :
    sideVec1 v0 v6 v26 (ix2 r j)
      = Cert.Sage.dot (fun k => v0 (ix2 r k)) (fun k j => v6 (ix2 k j)) j + v26 (ix2 (0 : Fin 1) j) := by
  unfold sideVec1 Cert.Sage.dot
  rw [addf_apply, matmulK_apply1, shapeCast_self, shapeCast_self, shapeCast_self, broadcastTo_1b_ab_apply]
  rfl

/-- The normalisation at row `r` is `Cert.Sage.nrm` of the row. -/
theorem nrmVec1_apply (v16 : FVec Ideal S2000x128 .f32) (r : Fin 2000) (j : Fin 128) :
    nrmVec1 v16 (ix2 r j) = Cert.Sage.nrm (fun j => v16 (ix2 r j)) j := by
  unfold nrmVec1 Cert.Sage.nrm
  rw [divf_apply, broadcastTo_a1_ab_apply1]
  show Ideal.div (v16 (ix2 r j)) (max (Ideal.sqrt (shapeCast S2000x1 _ shapeCasts_S2000_S2000x1 (ix2 r (0 : Fin 1))))
    (Ideal.ofBits .f32 0x2B8CBCCC#32)) = _
  rw [shapeCast_a_a1_apply1]
  exact congrArg (fun s => Ideal.div (v16 (ix2 r j)) (max (Ideal.sqrt s) (Ideal.ofBits .f32 0x2B8CBCCC#32)))
    (rowSum_apply1 (mulf v16 v16) reduces_S2000x128_S2000 rfl r)

/-- THE BODY'S STORED VALUE AT ROW `r`, COLUMN `j`: the second layer's row of the block's rows. -/
theorem layerPay1_apply (v0 : Vec Ideal S2000x256 .f32) (v3 : Vec Ideal S256x128 .f32) (v6 : Vec Ideal S256x128 .f32)
    (v9 : Vec Ideal S2000x128 .f32) (v11 : Vec Ideal S1x128 .f32) (v26 : Vec Ideal S1x128 .f32)
    (r : Fin 2000) (j : Fin 128) :
    k1_pay1 (F := Ideal) v0 v3 v6 v9 v11 v26 (ix2 r j)
      = Cert.Sage.layer (fun j => v9 (ix2 r j)) (fun j => v11 (ix2 (0 : Fin 1) j)) (fun k => v0 (ix2 r k))
          (fun k j => v3 (ix2 k j)) (fun k j => v6 (ix2 k j)) (fun j => v26 (ix2 (0 : Fin 1) j)) j := by
  rw [layerPay1_eq, addf_apply, nrmVec1_apply, sideVec1_apply]
  unfold Cert.Sage.layer
  rw [show (fun j => sageVec1 v0 v3 v9 v11 (ix2 r j))
      = Cert.Sage.sage (fun j => v9 (ix2 r j)) (fun j => v11 (ix2 (0 : Fin 1) j)) (fun k => v0 (ix2 r k))
          (fun k j => v3 (ix2 k j)) from funext fun j => sageVec1_apply v0 v3 v9 v11 r j]

end Payload

/-! ## From blocks to the array -/

section Blocks
variable (V : (c : Dev nD) → (b : Ref sig .tc) → Buf (Elt Ideal) ((c : Thread nD τ).loc b))

/-- The zero offsets of a whole-block access. -/
theorem hz1 : (![0, 0] : Fin 2 → Nat) = fun _ => 0 := funext fun a => by fin_cases a <;> rfl

/-- The array row that row `r` of point `t`'s block is: blocks of 2000 rows, in order. -/
def rowAt1 (t : Fin cfg1.N) (r : Fin 2000) : Fin 50000 :=
  ⟨t.val * 2000 + r.val, by have ht : t.val < 25 := t.isLt; have := r.isLt; omega⟩

/-- The printed index maps, decided over the 25 grid points: the row-blocked windows are at block `(t, 0)`, the
    weight windows at block `(0, 0)`. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Window 0's block at point `t`, read at an index, is the array `main_v39` at the matching index. -/
theorem blk1_0 (c : Dev nD) (t : Fin cfg1.N) (r : Fin 2000) (q : Fin 128) :
    iblk1 V c 0 t (ix2 r q) = V c main_v39 (ix2 (rowAt1 t r) q) := by
  obtain ⟨e00, e01, e10, e11, e20, e21, e30, e31, e40, e41, e50, e51, e60, e61⟩ := idx_facts1 t
  show V c main_v39 (((cfg1.win 0).blk t).view.emb (ix2 r q)) = _
  refine congrArg (V c main_v39) (funext fun ax => Fin.ext ?_)
  match ax with
  | ⟨0, _⟩ => show win1_0.index t (0 : Fin 2) * 2000 + 1 * r.val = t.val * 2000 + r.val; omega
  | ⟨1, _⟩ => show win1_0.index t (1 : Fin 2) * 128 + 1 * q.val = q.val; omega

/-- Window 1's block at point `t`, read at an index, is the array `main_v27_0` at the matching index. -/
theorem blk1_1 (c : Dev nD) (t : Fin cfg1.N) (r : Fin 2000) (q : Fin 256) :
    iblk1 V c 1 t (ix2 r q) = V c main_v27_0 (ix2 (rowAt1 t r) q) := by
  obtain ⟨e00, e01, e10, e11, e20, e21, e30, e31, e40, e41, e50, e51, e60, e61⟩ := idx_facts1 t
  show V c main_v27_0 (((cfg1.win 1).blk t).view.emb (ix2 r q)) = _
  refine congrArg (V c main_v27_0) (funext fun ax => Fin.ext ?_)
  match ax with
  | ⟨0, _⟩ => show win1_1.index t (0 : Fin 2) * 2000 + 1 * r.val = t.val * 2000 + r.val; omega
  | ⟨1, _⟩ => show win1_1.index t (1 : Fin 2) * 256 + 1 * q.val = q.val; omega

/-- Window 2's block at point `t`, read at an index, is the array `main_v40` at the matching index. -/
theorem blk1_2 (c : Dev nD) (t : Fin cfg1.N) (p : Fin 256) (q : Fin 128) :
    iblk1 V c 2 t (ix2 p q) = V c main_v40 (ix2 p q) := by
  obtain ⟨e00, e01, e10, e11, e20, e21, e30, e31, e40, e41, e50, e51, e60, e61⟩ := idx_facts1 t
  show V c main_v40 (((cfg1.win 2).blk t).view.emb (ix2 p q)) = _
  refine congrArg (V c main_v40) (funext fun ax => Fin.ext ?_)
  match ax with
  | ⟨0, _⟩ => show win1_2.index t (0 : Fin 2) * 256 + 1 * p.val = p.val; omega
  | ⟨1, _⟩ => show win1_2.index t (1 : Fin 2) * 128 + 1 * q.val = q.val; omega

/-- Window 3's block at point `t`, read at an index, is the array `main_v42` at the matching index. -/
theorem blk1_3 (c : Dev nD) (t : Fin cfg1.N) (p : Fin 1) (q : Fin 128) :
    iblk1 V c 3 t (ix2 p q) = V c main_v42 (ix2 p q) := by
  obtain ⟨e00, e01, e10, e11, e20, e21, e30, e31, e40, e41, e50, e51, e60, e61⟩ := idx_facts1 t
  show V c main_v42 (((cfg1.win 3).blk t).view.emb (ix2 p q)) = _
  refine congrArg (V c main_v42) (funext fun ax => Fin.ext ?_)
  match ax with
  | ⟨0, _⟩ => show win1_3.index t (0 : Fin 2) * 1 + 1 * p.val = p.val; omega
  | ⟨1, _⟩ => show win1_3.index t (1 : Fin 2) * 128 + 1 * q.val = q.val; omega

/-- Window 4's block at point `t`, read at an index, is the array `main_v43` at the matching index. -/
theorem blk1_4 (c : Dev nD) (t : Fin cfg1.N) (p : Fin 256) (q : Fin 128) :
    iblk1 V c 4 t (ix2 p q) = V c main_v43 (ix2 p q) := by
  obtain ⟨e00, e01, e10, e11, e20, e21, e30, e31, e40, e41, e50, e51, e60, e61⟩ := idx_facts1 t
  show V c main_v43 (((cfg1.win 4).blk t).view.emb (ix2 p q)) = _
  refine congrArg (V c main_v43) (funext fun ax => Fin.ext ?_)
  match ax with
  | ⟨0, _⟩ => show win1_4.index t (0 : Fin 2) * 256 + 1 * p.val = p.val; omega
  | ⟨1, _⟩ => show win1_4.index t (1 : Fin 2) * 128 + 1 * q.val = q.val; omega

/-- Window 5's block at point `t`, read at an index, is the array `main_v45` at the matching index. -/
theorem blk1_5 (c : Dev nD) (t : Fin cfg1.N) (p : Fin 1) (q : Fin 128) :
    iblk1 V c 5 t (ix2 p q) = V c main_v45 (ix2 p q) := by
  obtain ⟨e00, e01, e10, e11, e20, e21, e30, e31, e40, e41, e50, e51, e60, e61⟩ := idx_facts1 t
  show V c main_v45 (((cfg1.win 5).blk t).view.emb (ix2 p q)) = _
  refine congrArg (V c main_v45) (funext fun ax => Fin.ext ?_)
  match ax with
  | ⟨0, _⟩ => show win1_5.index t (0 : Fin 2) * 1 + 1 * p.val = p.val; omega
  | ⟨1, _⟩ => show win1_5.index t (1 : Fin 2) * 128 + 1 * q.val = q.val; omega

/-- The output window's block at point `t` sits at rows `t·2000 …` of the output array. -/
theorem emb1_6 (t : Fin cfg1.N) (r : Fin 2000) (j : Fin 128) :
    ((cfg1.win 6).blk t).view.emb (ix2 r j) = ix2 (rowAt1 t r) j := by
  obtain ⟨e00, e01, e10, e11, e20, e21, e30, e31, e40, e41, e50, e51, e60, e61⟩ := idx_facts1 t
  funext ax; apply Fin.ext
  match ax with
  | ⟨0, _⟩ => show win1_6.index t (0 : Fin 2) * 2000 + 1 * r.val = t.val * 2000 + r.val; omega
  | ⟨1, _⟩ => show win1_6.index t (1 : Fin 2) * 128 + 1 * j.val = j.val; omega

/-- The second layer's output row `n`, column `j`, from the region's input arrays. -/
def outRow1 (c : Dev nD) (n : Fin 50000) (j : Fin 128) : EReal :=
  Cert.Sage.layer (fun j => V c main_v39 (ix2 n j)) (fun j => V c main_v42 (ix2 (0 : Fin 1) j))
      (fun k => V c main_v27_0 (ix2 n k)) (fun k j => V c main_v40 (ix2 k j)) (fun k j => V c main_v43 (ix2 k j))
      (fun j => V c main_v45 (ix2 (0 : Fin 1) j)) j

/-- The output array as one function of the region's input arrays. -/
def outArr1 (c : Dev nD) : S50000x128.Idx → EReal := fun i => outRow1 V c (i 0 : Fin 50000) (i 1 : Fin 128)

/-- WHAT POINT `t` WRITES BACK is block `t` of `outArr1`. -/
theorem flushed1_6_eq (c : Dev nD) (t : Fin cfg1.N) :
    (dat1 (F := Ideal) V c).flushed 6 t = ((cfg1.win 6).blk t).view.read (Elt Ideal) (outArr1 V c) := by
  show (cfg1.win 6).cut (grid1.coords t) ((dat1 V c).after 6 t) = _
  rw [after1_6]
  unfold out1_6
  rw [View.canon_unit_zero hz1]
  simp only [View.ld_unit_zero (S := S2000x256) hz1, View.ld_unit_zero (S := S256x128) hz1,
    View.ld_unit_zero (S := S2000x128) hz1, View.ld_unit_zero (S := S1x128) hz1]
  funext y
  obtain ⟨r, j, rfl⟩ : ∃ (r : Fin 2000) (j : Fin 128), (y : S2000x128.Idx) = ix2 r j :=
    ⟨y 0, y 1, eq_ix2 (n0 := 2000) (n1 := 128) y⟩
  show k1_pay1 (F := Ideal) (iblk1 V c 1 t) (iblk1 V c 2 t) (iblk1 V c 4 t) (iblk1 V c 0 t) (iblk1 V c 3 t)
      (iblk1 V c 5 t) (ix2 r j) = outArr1 V c (((cfg1.win 6).blk t).view.emb (ix2 r j))
  refine (layerPay1_apply (iblk1 V c 1 t) (iblk1 V c 2 t) (iblk1 V c 4 t) (iblk1 V c 0 t) (iblk1 V c 3 t)
    (iblk1 V c 5 t) r j).trans ?_
  refine Eq.trans ?_ (congrArg (outArr1 V c) (emb1_6 t r j).symm)
  show _ = outRow1 V c (rowAt1 t r) j
  unfold outRow1
  simp only [blk1_0, blk1_1, blk1_2, blk1_3, blk1_4, blk1_5]

/-- An index of the output array is in point `t`'s block iff each coordinate is in the block's range on its axis. -/
theorem mem_blk1_6 (t : Fin cfg1.N) (i : S50000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v46).slice (win1_6.rect t)).set ↔ _
  rw [View.set_slice_whole, Rect.mem_set_unit]
  exact Iff.rfl

/-- The 25 blocks tile the output array: row `n` is in the block of point `n / 2000`. -/
theorem covered1_6 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, by show _ < 25; omega⟩, rfl⟩
  obtain ⟨e00, e01, e10, e11, e20, e21, e30, e31, e40, e41, e50, e51, e60, e61⟩ := idx_facts1 t
  refine ⟨t, flush1_6 t, ?_⟩
  rw [mem_blk1_6]
  intro a
  match a with
  | ⟨0, _⟩ =>
    show win1_6.index t (0 : Fin 2) * 2000 ≤ (i 0).val ∧ (i 0).val < win1_6.index t (0 : Fin 2) * 2000 + 2000
    omega
  | ⟨1, _⟩ =>
    show win1_6.index t (1 : Fin 2) * 128 ≤ (i 1).val ∧ (i 1).val < win1_6.index t (1 : Fin 2) * 128 + 128
    omega

/-- THE OUTPUT ARRAY after the region: `outArr1` of the region's input arrays. -/
theorem final1_6 (c : Dev nD) : (dat1 (F := Ideal) V c).arrAt 6 cfg1.N = outArr1 V c :=
  (dat1 V c).arrAt_eq_of_cover 6 _ (fun t _ => flushed1_6_eq V c t) (fun i => covered1_6 i)

/-- THE SECOND LAYER'S REGION, ROW BY ROW: output row `n` is `Cert.Sage.layer` of row `n` of the aggregated term and
    of the hidden rows, and of the weight arrays, as the region finds them. -/
theorem out_final (c : Dev nD) (n : Fin 50000) (j : Fin 128) :
    (dat1 (F := Ideal) V c).arrAt 6 cfg1.N (ix2 n j)
      = Cert.Sage.layer (fun j => V c main_v39 (ix2 n j)) (fun j => V c main_v42 (ix2 (0 : Fin 1) j))
      (fun k => V c main_v27_0 (ix2 n k)) (fun k j => V c main_v40 (ix2 k j)) (fun k j => V c main_v43 (ix2 k j))
      (fun j => V c main_v45 (ix2 (0 : Fin 1) j)) j :=
  congrFun (final1_6 V c) (ix2 n j)

end Blocks

end Cert.KernelIdeal.KRegion

end
-- ==== Proof.LibGatherScatter.lean ====
/-
  Row gather and accumulating row scatter, read at an index.

  Both operations address the rows of an array of 50000 rows by an array of 800000 one-component indices: the
  gather copies row `srcRow I e` of the operand to row `e` of its result, the scatter adds row `e` of the updates
  into row `dstRow I e` of the operand when that is a row at all.  The dimension numbers are the ones of a take / an
  indexed add along axis 0, stated here for every row width `C`.
-/
import Idealize.ShloMosaic.PureOps.Ideal
import Idealize.ShloMosaic.PureOps.Ideal.Laws
import Idealize.ShloMosaic.Lib.ValueIdx
import proofs.«166945_j62663572848802_2_alg».proof.Proof.Spec

noncomputable section

open scoped BigOperators

namespace Cert.Sage

open Idealize.ShloMosaic Idealize.ShloMosaic.ValueIdx

/-! ## The row gather -/

/-- The dimension numbers of a gather of whole rows of a `[50000, C]` operand at `[800000, 1]` start indices: the one
    index component names axis 0, which is collapsed; axis 1 is the offset axis, taken whole. -/
abbrev rowGatherDims (C : Nat)
    (wf : GatherDims.WF ⟨2, ![50000, C]⟩ ⟨2, ![800000, 1]⟩ ⟨2, ![800000, C]⟩ [1] [0] [] [0] [] 1 ![1, C]) :
    GatherDims ⟨2, ![50000, C]⟩ ⟨2, ![800000, 1]⟩ ⟨2, ![800000, C]⟩ where
  offsetDims := [1]
  collapsedSliceDims := [0]
  operandBatchingDims := []
  startIndicesBatchingDims := []
  startIndexMap := [0]
  indexVectorDim := 1
  sliceSizes := ![1, C]
  wf := wf

section Gather
variable {C : Nat}
  (wf : GatherDims.WF ⟨2, ![50000, C]⟩ ⟨2, ![800000, 1]⟩ ⟨2, ![800000, C]⟩ [1] [0] [] [0] [] 1 ![1, C])

/-- Result element `(e, k)` reads its one start-index component at `(e, 0)`. -/
theorem rowGather_siIdx (e : Fin 800000) (k : Fin C) :
    (rowGatherDims C wf).siIdx (ix2 e k) ⟨List.idxOf (0 : Fin 2) (rowGatherDims C wf).startIndexMap,
      List.idxOf_lt_length_iff.2 (List.mem_singleton.mpr rfl)⟩ = ix2 e 0 := by
  funext b; refine Fin.ext ?_
  match b with
  | ⟨0, _⟩ => rfl
  | ⟨1, _⟩ => rfl

/-- On the row axis the slice starts at the start index, read signed and clamped to the last row. -/
theorem rowGather_start0 (I : IVec ⟨2, ![800000, 1]⟩ 32) (e : Fin 800000) (k : Fin C) :
    (rowGatherDims C wf).start (ix2 e k) I 0 = min (I (ix2 e 0)).toInt.toNat 49999 := by
  unfold GatherDims.start
  rw [dif_pos (show (0 : Fin 2) ∈ (rowGatherDims C wf).startIndexMap from List.mem_singleton.mpr rfl),
    rowGather_siIdx wf e k]
  rfl

/-- On the column axis the slice starts at 0: the start index map does not name it. -/
theorem rowGather_start1 (I : IVec ⟨2, ![800000, 1]⟩ 32) (e : Fin 800000) (k : Fin C) :
    (rowGatherDims C wf).start (ix2 e k) I 1 = 0 := by
  unfold GatherDims.start
  rw [dif_neg (show (1 : Fin 2) ∉ (rowGatherDims C wf).startIndexMap from (by decide : (1 : Fin 2) ∉ [0]))]

/-- The row axis is collapsed: no offset coordinate. -/
theorem rowGather_off0 (e : Fin 800000) (k : Fin C) : (rowGatherDims C wf).offCoord (ix2 e k) 0 = 0 :=
  GatherDims.offCoord_eq_zero _ _ _ (fun h => ((GatherDims.mem_sKept _ _).mp h).1 (List.mem_singleton.mpr rfl))

/-- The column axis is the one offset axis: its offset coordinate is the result's column. -/
theorem rowGather_off1 (e : Fin 800000) (k : Fin C) : (rowGatherDims C wf).offCoord (ix2 e k) 1 = k.val := by
  unfold GatherDims.offCoord
  rw [dif_pos (show (1 : Fin 2) ∈ (rowGatherDims C wf).sKept from
    (GatherDims.mem_sKept _ _).mpr ⟨(by decide : (1 : Fin 2) ∉ [0]), List.not_mem_nil⟩)]
  rfl

/-- THE ROW GATHER'S OPERAND INDEX: result element `(e, k)` reads operand element `(srcRow I e, k)`. -/
theorem rowGather_operandIdx (I : IVec ⟨2, ![800000, 1]⟩ 32) (e : Fin 800000) (k : Fin C) :
    (rowGatherDims C wf).operandIdx (ix2 e k) I = ix2 (srcRow I e) k := by
  funext a; refine Fin.ext ?_
  match a with
  | ⟨0, _⟩ =>
    show (rowGatherDims C wf).start (ix2 e k) I 0 + (rowGatherDims C wf).batchCoord (ix2 e k) 0
      + (rowGatherDims C wf).offCoord (ix2 e k) 0 = _
    rw [GatherDims.batchCoord_eq_zero _ _ _ List.not_mem_nil, rowGather_off0, rowGather_start0]
    rfl
  | ⟨1, _⟩ =>
    show (rowGatherDims C wf).start (ix2 e k) I 1 + (rowGatherDims C wf).batchCoord (ix2 e k) 1
      + (rowGatherDims C wf).offCoord (ix2 e k) 1 = _
    rw [GatherDims.batchCoord_eq_zero _ _ _ List.not_mem_nil, rowGather_off1, rowGather_start1]
    simp

/-- THE ROW GATHER READ AT `(e, k)`: the operand's row `srcRow I e`, column `k`. -/
theorem rowGather_apply {α : Type} (X : (⟨2, ![50000, C]⟩ : Shape).Idx → α) (I : IVec ⟨2, ![800000, 1]⟩ 32)
    (e : Fin 800000) (k : Fin C) :
    Host.gather (rowGatherDims C wf) X I (ix2 e k) = X (ix2 (srcRow I e) k) := by
  unfold Host.gather
  rw [rowGather_operandIdx]

end Gather

/-! ## The accumulating row scatter -/

/-- The dimension numbers of a scatter of whole rows of `[800000, C]` updates into a `[50000, C]` operand at
    `[800000, 1]` scatter indices: the one index component names axis 0, an inserted window axis; the updates' axis 1
    is the window axis and goes to the operand's axis 1. -/
abbrev rowScatterDims (C : Nat)
    (wf : ScatterDims.WF ⟨2, ![50000, C]⟩ ⟨2, ![800000, 1]⟩ ⟨2, ![800000, C]⟩ [1] [0] [0] 1) :
    ScatterDims ⟨2, ![50000, C]⟩ ⟨2, ![800000, 1]⟩ ⟨2, ![800000, C]⟩ where
  updateWindowDims := [1]
  insertedWindowDims := [0]
  scatterDimsToOperandDims := [0]
  indexVectorDim := 1
  wf := wf

section Scatter
variable {C : Nat}
  (wf : ScatterDims.WF ⟨2, ![50000, C]⟩ ⟨2, ![800000, 1]⟩ ⟨2, ![800000, C]⟩ [1] [0] [0] 1)

/-- Update element `(e, k)` reads its one scatter-index component at `(e, 0)`. -/
theorem rowScatter_siIdx (e : Fin 800000) (k : Fin C) :
    (rowScatterDims C wf).siIdx (ix2 e k) ⟨List.idxOf (0 : Fin 2) (rowScatterDims C wf).scatterDimsToOperandDims,
      List.idxOf_lt_length_iff.2 (List.mem_singleton.mpr rfl)⟩ = ix2 e 0 := by
  funext b; refine Fin.ext ?_
  match b with
  | ⟨0, _⟩ => rfl
  | ⟨1, _⟩ => rfl

/-- On the row axis the window starts at the scatter index, read signed and not clamped. -/
theorem rowScatter_start0 (I : IVec ⟨2, ![800000, 1]⟩ 32) (e : Fin 800000) (k : Fin C) :
    (rowScatterDims C wf).start (ix2 e k) I 0 = (I (ix2 e 0)).toInt := by
  unfold ScatterDims.start
  rw [dif_pos (show (0 : Fin 2) ∈ (rowScatterDims C wf).scatterDimsToOperandDims from List.mem_singleton.mpr rfl),
    rowScatter_siIdx wf e k]

/-- On the column axis the window starts at 0: the map does not name it. -/
theorem rowScatter_start1 (I : IVec ⟨2, ![800000, 1]⟩ 32) (e : Fin 800000) (k : Fin C) :
    (rowScatterDims C wf).start (ix2 e k) I 1 = 0 := by
  unfold ScatterDims.start
  rw [dif_neg (show (1 : Fin 2) ∉ (rowScatterDims C wf).scatterDimsToOperandDims from
    (by decide : (1 : Fin 2) ∉ [0]))]

/-- The row axis is an inserted window axis: no window coordinate. -/
theorem rowScatter_window0 (e : Fin 800000) (k : Fin C) : (rowScatterDims C wf).window (ix2 e k) 0 = 0 := by
  unfold ScatterDims.window
  rw [dif_neg (show (0 : Fin 2) ∉ (rowScatterDims C wf).sKept from
    (by decide : (0 : Fin 2) ∉ (List.finRange 2).filter (· ∉ [(0 : Fin 2)])))]

/-- The column axis is the one window axis: its window coordinate is the update's column. -/
theorem rowScatter_window1 (e : Fin 800000) (k : Fin C) : (rowScatterDims C wf).window (ix2 e k) 1 = k.val := by
  unfold ScatterDims.window
  rw [dif_pos (show (1 : Fin 2) ∈ (rowScatterDims C wf).sKept from
    (by decide : (1 : Fin 2) ∈ (List.finRange 2).filter (· ∉ [(0 : Fin 2)])))]
  rfl

/-- Update element `(e, k)` lands inside the operand exactly when its scatter index is a row. -/
theorem rowScatter_inRange (I : IVec ⟨2, ![800000, 1]⟩ 32) (e : Fin 800000) (k : Fin C) :
    (∀ a, 0 ≤ (rowScatterDims C wf).start (ix2 e k) I a + (rowScatterDims C wf).window (ix2 e k) a
        ∧ (rowScatterDims C wf).start (ix2 e k) I a + (rowScatterDims C wf).window (ix2 e k) a
          < (⟨2, ![50000, C]⟩ : Shape).size a)
      ↔ (0 ≤ (I (ix2 e 0)).toInt ∧ (I (ix2 e 0)).toInt < 50000) := by
  rw [Fin.forall_fin_two, rowScatter_start0, rowScatter_window0, rowScatter_start1, rowScatter_window1]
  have h0 : (⟨2, ![50000, C]⟩ : Shape).size 0 = 50000 := rfl
  have h1 : (⟨2, ![50000, C]⟩ : Shape).size 1 = C := rfl
  rw [h0, h1]
  have hk := k.isLt
  constructor
  · rintro ⟨⟨a, b⟩, _⟩; constructor <;> omega
  · rintro ⟨a, b⟩; refine ⟨⟨by omega, by omega⟩, by omega, by omega⟩

/-- THE ROW SCATTER'S RESULT INDEX: update element `(e, k)` lands on operand element `(dstRow I e, k)`, and
    nowhere when its scatter index is not a row. -/
theorem rowScatter_resultIdx (I : IVec ⟨2, ![800000, 1]⟩ 32) (e : Fin 800000) (k : Fin C) :
    (rowScatterDims C wf).resultIdx? (ix2 e k) I = (dstRow I e).map (fun n => ix2 n k) := by
  unfold ScatterDims.resultIdx? dstRow
  by_cases h : 0 ≤ (I (ix2 e 0)).toInt ∧ (I (ix2 e 0)).toInt < 50000
  · rw [dif_pos ((rowScatter_inRange wf I e k).mpr h), dif_pos h, Option.map_some]
    congr 1
    funext a; refine Fin.ext ?_
    match a with
    | ⟨0, _⟩ =>
      show ((rowScatterDims C wf).start (ix2 e k) I 0 + (rowScatterDims C wf).window (ix2 e k) 0).toNat = _
      rw [rowScatter_start0, rowScatter_window0]; simp
    | ⟨1, _⟩ =>
      show ((rowScatterDims C wf).start (ix2 e k) I 1 + (rowScatterDims C wf).window (ix2 e k) 1).toNat = _
      rw [rowScatter_start1, rowScatter_window1]; simp
  · rw [dif_neg (fun H => h ((rowScatter_inRange wf I e k).mp H)), dif_neg h]
    rfl

/-- Two row-and-column indices are equal exactly when their coordinates are. -/
theorem ix2_eq_ix2 {n0 n1 : Nat} (a a' : Fin n0) (b b' : Fin n1) : ix2 a b = ix2 a' b' ↔ a = a' ∧ b = b' := by
  constructor
  · intro h; exact ⟨congrFun h 0, congrFun h 1⟩
  · rintro ⟨rfl, rfl⟩; rfl

/-- THE UPDATES THAT LAND ON `(n, k)`, SUMMED: column `k` of the update rows of the edges into `n`. Only an update
    element of column `k` can land on column `k`, so the sum over update elements is a sum over edges. -/
theorem rowScatter_sum {M : Type*} [AddCommMonoid M] (I : IVec ⟨2, ![800000, 1]⟩ 32)
    (U : (⟨2, ![800000, C]⟩ : Shape).Idx → M) (n : Fin 50000) (k : Fin C)
    [inst : DecidablePred fun j => (rowScatterDims C wf).resultIdx? j I = some (ix2 n k)] :
    ∑ j ∈ @Finset.filter _ (fun j => (rowScatterDims C wf).resultIdx? j I = some (ix2 n k)) inst Finset.univ, U j
      = ∑ e ∈ edgesInto I n, U (ix2 e k) := by
  classical
  unfold edgesInto
  rw [Finset.sum_filter, Finset.sum_filter, sum_idx2]
  refine Finset.sum_congr rfl fun e _ => ?_
  simp only [rowScatter_resultIdx]
  cases hd : dstRow I e with
  | none => simp
  | some r =>
    simp only [Option.map_some, Option.some.injEq, ix2_eq_ix2]
    by_cases hr : r = n
    · subst hr; simp
    · simp [hr]

/-- THE ACCUMULATING ROW SCATTER READ AT `(n, k)`: the operand's element plus column `k` of the update rows of the
    edges into `n`. -/
theorem rowScatterAdd_apply (X0 : FVec Ideal ⟨2, ![50000, C]⟩ .f32) (I : IVec ⟨2, ![800000, 1]⟩ 32)
    (U : FVec Ideal ⟨2, ![800000, C]⟩ .f32) (n : Fin 50000) (k : Fin C) :
    Host.scatterAdd (F := Ideal) (rowScatterDims C wf) X0 I U (ix2 n k)
      = X0 (ix2 n k) + ∑ e ∈ edgesInto I n, U (ix2 e k) := by
  show Ideal.hostScatterAdd (rowScatterDims C wf) X0 I U (ix2 n k) = _
  unfold Ideal.hostScatterAdd
  rw [rowScatter_sum]

end Scatter

end Cert.Sage

end
-- ==== Proof.GatherScatter.lean ====
/-
  The two programs' row gathers and accumulating row scatters, read at an index: each printed record of dimension
  numbers is the row gather's / row scatter's at its width, so the general facts apply.
-/
import proofs.«166945_j62663572848802_2_alg».proof.Proof.LibGatherScatter
import proofs.«166945_j62663572848802_2_alg».proof.ReferenceIdeal
import proofs.«166945_j62663572848802_2_alg».proof.KernelIdeal

noncomputable section

open scoped BigOperators

namespace Cert.Sage

open Idealize.ShloMosaic Idealize.ShloMosaic.ValueIdx

/-! ## Gathers -/

/-- The mean-first program's gather of hidden rows: result row `e` is the operand's row `srcRow I e`. -/
theorem gather256 [Cert.ReferenceIdeal.Facts₀] (X : FVec Ideal Cert.ReferenceIdeal.S50000x256 .f32)
    (I : IVec Cert.ReferenceIdeal.S800000x1 32) (e : Fin 800000) (k : Fin 256) :
    Host.gather Cert.ReferenceIdeal.gather_S50000x256_S800000x1_S800000x256_1_0_n_n_0_1_1256 X I (ix2 e k)
      = X (ix2 (srcRow I e) k) :=
  rowGather_apply (C := 256) Cert.ReferenceIdeal.Facts₀.gather_S50000x256_S800000x1_S800000x256_1_0_n_n_0_1_1256_wf X I e k

/-- The mean-first program's gather of feature rows. -/
theorem gather50R [Cert.ReferenceIdeal.Facts₀] (X : FVec Ideal Cert.ReferenceIdeal.S50000x50 .f32)
    (I : IVec Cert.ReferenceIdeal.S800000x1 32) (e : Fin 800000) (k : Fin 50) :
    Host.gather Cert.ReferenceIdeal.gather_S50000x50_S800000x1_S800000x50_1_0_n_n_0_1_150 X I (ix2 e k)
      = X (ix2 (srcRow I e) k) :=
  rowGather_apply (C := 50) Cert.ReferenceIdeal.Facts₀.gather_S50000x50_S800000x1_S800000x50_1_0_n_n_0_1_150_wf X I e k

/-- The project-first program's gather of projected rows. -/
theorem gather128 [Cert.KernelIdeal.Facts₀] (X : FVec Ideal Cert.KernelIdeal.S50000x128 .f32)
    (I : IVec Cert.KernelIdeal.S800000x1 32) (e : Fin 800000) (k : Fin 128) :
    Host.gather Cert.KernelIdeal.gather_S50000x128_S800000x1_S800000x128_1_0_n_n_0_1_1128 X I (ix2 e k)
      = X (ix2 (srcRow I e) k) :=
  rowGather_apply (C := 128) Cert.KernelIdeal.Facts₀.gather_S50000x128_S800000x1_S800000x128_1_0_n_n_0_1_1128_wf X I e k

/-- The project-first program's gather of feature rows. -/
theorem gather50K [Cert.KernelIdeal.Facts₀] (X : FVec Ideal Cert.KernelIdeal.S50000x50 .f32)
    (I : IVec Cert.KernelIdeal.S800000x1 32) (e : Fin 800000) (k : Fin 50) :
    Host.gather Cert.KernelIdeal.gather_S50000x50_S800000x1_S800000x50_1_0_n_n_0_1_150 X I (ix2 e k)
      = X (ix2 (srcRow I e) k) :=
  rowGather_apply (C := 50) Cert.KernelIdeal.Facts₀.gather_S50000x50_S800000x1_S800000x50_1_0_n_n_0_1_150_wf X I e k

/-! ## Accumulating scatters -/

/-- The mean-first program's sum of hidden rows over the edges into a node. -/
theorem scatter256 [Cert.ReferenceIdeal.Facts₀] (X0 : FVec Ideal Cert.ReferenceIdeal.S50000x256 .f32)
    (I : IVec Cert.ReferenceIdeal.S800000x1 32) (U : FVec Ideal Cert.ReferenceIdeal.S800000x256 .f32) (n : Fin 50000) (k : Fin 256) :
    Host.scatterAdd (F := Ideal) Cert.ReferenceIdeal.scatter_S50000x256_S800000x1_S800000x256_1_0_0_1 X0 I U (ix2 n k)
      = X0 (ix2 n k) + ∑ e ∈ edgesInto I n, U (ix2 e k) :=
  rowScatterAdd_apply (C := 256) Cert.ReferenceIdeal.Facts₀.scatter_S50000x256_S800000x1_S800000x256_1_0_0_1_wf X0 I U n k

/-- The mean-first program's sum of feature rows over the edges into a node. -/
theorem scatter50R [Cert.ReferenceIdeal.Facts₀] (X0 : FVec Ideal Cert.ReferenceIdeal.S50000x50 .f32)
    (I : IVec Cert.ReferenceIdeal.S800000x1 32) (U : FVec Ideal Cert.ReferenceIdeal.S800000x50 .f32) (n : Fin 50000) (k : Fin 50) :
    Host.scatterAdd (F := Ideal) Cert.ReferenceIdeal.scatter_S50000x50_S800000x1_S800000x50_1_0_0_1 X0 I U (ix2 n k)
      = X0 (ix2 n k) + ∑ e ∈ edgesInto I n, U (ix2 e k) :=
  rowScatterAdd_apply (C := 50) Cert.ReferenceIdeal.Facts₀.scatter_S50000x50_S800000x1_S800000x50_1_0_0_1_wf X0 I U n k

/-- The mean-first program's count of the edges into a node, as a sum of a one-column update. -/
theorem scatter1R [Cert.ReferenceIdeal.Facts₀] (X0 : FVec Ideal Cert.ReferenceIdeal.S50000x1 .f32)
    (I : IVec Cert.ReferenceIdeal.S800000x1 32) (U : FVec Ideal Cert.ReferenceIdeal.S800000x1 .f32) (n : Fin 50000) (k : Fin 1) :
    Host.scatterAdd (F := Ideal) Cert.ReferenceIdeal.scatter_S50000x1_S800000x1_S800000x1_1_0_0_1 X0 I U (ix2 n k)
      = X0 (ix2 n k) + ∑ e ∈ edgesInto I n, U (ix2 e k) :=
  rowScatterAdd_apply (C := 1) Cert.ReferenceIdeal.Facts₀.scatter_S50000x1_S800000x1_S800000x1_1_0_0_1_wf X0 I U n k

/-- The project-first program's sum of projected rows over the edges into a node. -/
theorem scatter128 [Cert.KernelIdeal.Facts₀] (X0 : FVec Ideal Cert.KernelIdeal.S50000x128 .f32)
    (I : IVec Cert.KernelIdeal.S800000x1 32) (U : FVec Ideal Cert.KernelIdeal.S800000x128 .f32) (n : Fin 50000) (k : Fin 128) :
    Host.scatterAdd (F := Ideal) Cert.KernelIdeal.scatter_S50000x128_S800000x1_S800000x128_1_0_0_1 X0 I U (ix2 n k)
      = X0 (ix2 n k) + ∑ e ∈ edgesInto I n, U (ix2 e k) :=
  rowScatterAdd_apply (C := 128) Cert.KernelIdeal.Facts₀.scatter_S50000x128_S800000x1_S800000x128_1_0_0_1_wf X0 I U n k

/-- The project-first program's sum of feature rows over the edges into a node. -/
theorem scatter50K [Cert.KernelIdeal.Facts₀] (X0 : FVec Ideal Cert.KernelIdeal.S50000x50 .f32)
    (I : IVec Cert.KernelIdeal.S800000x1 32) (U : FVec Ideal Cert.KernelIdeal.S800000x50 .f32) (n : Fin 50000) (k : Fin 50) :
    Host.scatterAdd (F := Ideal) Cert.KernelIdeal.scatter_S50000x50_S800000x1_S800000x50_1_0_0_1 X0 I U (ix2 n k)
      = X0 (ix2 n k) + ∑ e ∈ edgesInto I n, U (ix2 e k) :=
  rowScatterAdd_apply (C := 50) Cert.KernelIdeal.Facts₀.scatter_S50000x50_S800000x1_S800000x50_1_0_0_1_wf X0 I U n k

/-- The project-first program's count of the edges into a node, as a sum of a one-column update. -/
theorem scatter1K [Cert.KernelIdeal.Facts₀] (X0 : FVec Ideal Cert.KernelIdeal.S50000x1 .f32)
    (I : IVec Cert.KernelIdeal.S800000x1 32) (U : FVec Ideal Cert.KernelIdeal.S800000x1 .f32) (n : Fin 50000) (k : Fin 1) :
    Host.scatterAdd (F := Ideal) Cert.KernelIdeal.scatter_S50000x1_S800000x1_S800000x1_1_0_0_1 X0 I U (ix2 n k)
      = X0 (ix2 n k) + ∑ e ∈ edgesInto I n, U (ix2 e k) :=
  rowScatterAdd_apply (C := 1) Cert.KernelIdeal.Facts₀.scatter_S50000x1_S800000x1_S800000x1_1_0_0_1_wf X0 I U n k

end Cert.Sage

end
-- ==== Proof.KApply.lean ====
/-
  The idealized kernel program's result, entry by entry, in the specification's words.

  The second region's output row of node `n` is a layer row of what it finds in its arrays: the scaled sum, over the edges
  into `n`, of the first region's projected rows; the first region's hidden row of `n`; and the zero-padded weights and
  biases.  Each of these is read back to the launch memory's argument arrays, which makes the program's result the
  project-first function `Cert.Sage.outK` of the arguments, restricted to the first 121 columns.
-/
import proofs.«166945_j62663572848802_2_alg».proof.Proof.KChain
import proofs.«166945_j62663572848802_2_alg».proof.Proof.KRegion0
import proofs.«166945_j62663572848802_2_alg».proof.Proof.KRegion1
import proofs.«166945_j62663572848802_2_alg».proof.Proof.GatherScatter

set_option maxRecDepth 16384

noncomputable section

namespace Cert.KernelIdeal.KValue

open Idealize.ShloMosaic Idealize.ShloMosaic.TcCoe Idealize.ShloMosaic.ValueIdx
open Idealize.SL Idealize.SL.Sem
open Cert.KernelIdeal.Gen

/-- Equal rows give equal hidden rows, equal projections and equal layer rows. -/
theorem hrow_congr {mr mr' xr xr' : Fin 50 → EReal} {W2 W2' W4 W4' W5 W5' : Fin 50 → Fin 256 → EReal} {b3 b3' b6 b6' : Fin 256 → EReal}
    (h1 : mr = mr') (h2 : xr = xr') (h3 : W2 = W2') (h4 : W4 = W4') (h5 : W5 = W5') (h6 : b3 = b3') (h7 : b6 = b6') :
    Cert.Sage.hrow mr xr W2 W4 W5 b3 b6 = Cert.Sage.hrow mr' xr' W2' W4' W5' b3' b6' := by
  subst h1 h2 h3 h4 h5 h6 h7; rfl
theorem dot_congr {K N : Nat} {a a' : Fin K → EReal} {W W' : Fin K → Fin N → EReal} (h1 : a = a') (h2 : W = W') :
    Cert.Sage.dot a W = Cert.Sage.dot a' W' := by
  subst h1 h2; rfl
theorem layer_congr {K N : Nat} {u u' b b' : Fin N → EReal} {hr hr' : Fin K → EReal} {Wr Wr' Wl Wl' : Fin K → Fin N → EReal}
    {bl bl' : Fin N → EReal} (h1 : u = u') (h2 : b = b') (h3 : hr = hr') (h4 : Wr = Wr') (h5 : Wl = Wl') (h6 : bl = bl') :
    Cert.Sage.layer u b hr Wr Wl bl = Cert.Sage.layer u' b' hr' Wr' Wl' bl' := by
  subst h1 h2 h3 h4 h5 h6; rfl

section Apply

variable (m : (ℓ : Loc nD τ sig) → Buf (Elt Ideal) ℓ) (ρ : Dev nD → PrngReg) (c : Dev nD)

/-- The project-first function of the launch memory's argument arrays, with the program's own padding value. -/
def specOut (n : Fin 50000) (j : Fin 128) : EReal :=
  Cert.Sage.outK (Cert.Sage.edgesInto (Idst (m ((c : Thread nD τ).loc main_arg1))))
    (Cert.Sage.srcRow (Isrc (m ((c : Thread nD τ).loc main_arg1))))
    (fun n i => A1 (m ((c : Thread nD τ).loc main_arg0)) (m ((c : Thread nD τ).loc main_arg1)) (ix2 n i))
    (fun n => Dg (m ((c : Thread nD τ).loc main_arg1)) (ix2 n (0 : Fin 1)))
    (fun n i => m ((c : Thread nD τ).loc main_arg0) (ix2 n i))
    (fun i k => m ((c : Thread nD τ).loc main_arg2) (ix2 i k)) (fun i k => m ((c : Thread nD τ).loc main_arg4) (ix2 i k))
    (fun i k => m ((c : Thread nD τ).loc main_arg5) (ix2 i k))
    (fun k => m ((c : Thread nD τ).loc main_arg3) (ix1 k)) (fun k => m ((c : Thread nD τ).loc main_arg6) (ix1 k))
    (fun k j => m ((c : Thread nD τ).loc main_arg7) (ix2 k j)) (fun k j => m ((c : Thread nD τ).loc main_arg9) (ix2 k j))
    (fun k j => m ((c : Thread nD τ).loc main_arg10) (ix2 k j))
    (fun j => m ((c : Thread nD τ).loc main_arg8) (ix1 j)) (fun j => m ((c : Thread nD τ).loc main_arg11) (ix1 j)) zPad n j

/-- The first region's hidden rows are the specification's hidden rows of the arguments. -/
theorem hidden_apply (r : Fin 50000) (k : Fin 256) :
    (Gen.dat0 (Gen.V3 m ρ) c).arrAt 8 cfg0.N (ix2 r k)
      = Cert.Sage.hK (fun n i => A1 (m ((c : Thread nD τ).loc main_arg0)) (m ((c : Thread nD τ).loc main_arg1)) (ix2 n i))
          (fun n => Dg (m ((c : Thread nD τ).loc main_arg1)) (ix2 n (0 : Fin 1)))
          (fun n i => m ((c : Thread nD τ).loc main_arg0) (ix2 n i))
          (fun i k => m ((c : Thread nD τ).loc main_arg2) (ix2 i k)) (fun i k => m ((c : Thread nD τ).loc main_arg4) (ix2 i k))
          (fun i k => m ((c : Thread nD τ).loc main_arg5) (ix2 i k))
          (fun k => m ((c : Thread nD τ).loc main_arg3) (ix1 k)) (fun k => m ((c : Thread nD τ).loc main_arg6) (ix1 k)) r k := by
  refine (Cert.KernelIdeal.KRegion.h_final (Gen.V3 m ρ) c r k).trans ?_
  unfold Cert.Sage.hK
  exact congrFun (hrow_congr (funext fun i => V3_main_v23_apply m ρ c r i)
    (funext fun i => congrFun (V3_main_arg0 m ρ c) (ix2 r i))
    (funext fun i => funext fun k => congrFun (V3_main_arg2 m ρ c) (ix2 i k))
    (funext fun i => funext fun k => congrFun (V3_main_arg4 m ρ c) (ix2 i k))
    (funext fun i => funext fun k => congrFun (V3_main_arg5 m ρ c) (ix2 i k))
    (funext fun k => V3_main_v25_apply m ρ c k) (funext fun k => V3_main_v26_apply m ρ c k)) k

/-- The first region's projected rows are the specification's projected rows of the arguments. -/
theorem proj_apply (r : Fin 50000) (j : Fin 128) :
    (Gen.dat0 (Gen.V3 m ρ) c).arrAt 9 cfg0.N (ix2 r j)
      = Cert.Sage.projK (fun n i => A1 (m ((c : Thread nD τ).loc main_arg0)) (m ((c : Thread nD τ).loc main_arg1)) (ix2 n i))
          (fun n => Dg (m ((c : Thread nD τ).loc main_arg1)) (ix2 n (0 : Fin 1)))
          (fun n i => m ((c : Thread nD τ).loc main_arg0) (ix2 n i))
          (fun i k => m ((c : Thread nD τ).loc main_arg2) (ix2 i k)) (fun i k => m ((c : Thread nD τ).loc main_arg4) (ix2 i k))
          (fun i k => m ((c : Thread nD τ).loc main_arg5) (ix2 i k))
          (fun k => m ((c : Thread nD τ).loc main_arg3) (ix1 k)) (fun k => m ((c : Thread nD τ).loc main_arg6) (ix1 k))
          (fun k j => m ((c : Thread nD τ).loc main_arg7) (ix2 k j)) zPad r j := by
  refine (Cert.KernelIdeal.KRegion.hproj_final (Gen.V3 m ρ) c r j).trans ?_
  unfold Cert.Sage.projK Cert.Sage.hK
  exact congrFun (dot_congr (hrow_congr (funext fun i => V3_main_v23_apply m ρ c r i)
    (funext fun i => congrFun (V3_main_arg0 m ρ c) (ix2 r i))
    (funext fun i => funext fun k => congrFun (V3_main_arg2 m ρ c) (ix2 i k))
    (funext fun i => funext fun k => congrFun (V3_main_arg4 m ρ c) (ix2 i k))
    (funext fun i => funext fun k => congrFun (V3_main_arg5 m ρ c) (ix2 i k))
    (funext fun k => V3_main_v25_apply m ρ c k) (funext fun k => V3_main_v26_apply m ρ c k))
    (funext fun k => funext fun j => V3_main_v24_apply m ρ c k j)) j

/-- The second aggregate of an array whose rows are `f`: the zero start plus the sum of `f`'s source rows over the edges
    into the node. -/
theorem agg2_apply (P : Vec Ideal S50000x128 .f32) (a1 : Vec Ideal S2x800000 .i32) (f : Fin 50000 → Fin 128 → EReal)
    (hP : ∀ r j, P (ix2 r j) = f r j) (n : Fin 50000) (j : Fin 128) :
    A2 P a1 (ix2 n j) = Cert.Sage.agg (Cert.Sage.edgesInto (Idst a1)) (Cert.Sage.srcRow (Isrc a1)) f n j := by
  unfold A2 Cert.Sage.agg
  refine (Cert.Sage.scatter128 _ _ _ n j).trans ?_
  refine congrArg₂ (· + ·) rfl (Finset.sum_congr rfl fun e _ => ?_)
  exact (Cert.Sage.gather128 P _ e j).trans (hP _ j)

/-- The scaled aggregate the second region finds: the projected rows summed over the edges into the node, times the
    reciprocal of its degree. -/
theorem mean2_apply (n : Fin 50000) (j : Fin 128) :
    (Gen.V12 m ρ c main_v39) (ix2 n j)
      = Cert.Sage.agg (Cert.Sage.edgesInto (Idst (m ((c : Thread nD τ).loc main_arg1))))
          (Cert.Sage.srcRow (Isrc (m ((c : Thread nD τ).loc main_arg1))))
          (Cert.Sage.projK (fun n i => A1 (m ((c : Thread nD τ).loc main_arg0)) (m ((c : Thread nD τ).loc main_arg1)) (ix2 n i))
            (fun n => Dg (m ((c : Thread nD τ).loc main_arg1)) (ix2 n (0 : Fin 1)))
            (fun n i => m ((c : Thread nD τ).loc main_arg0) (ix2 n i))
            (fun i k => m ((c : Thread nD τ).loc main_arg2) (ix2 i k)) (fun i k => m ((c : Thread nD τ).loc main_arg4) (ix2 i k))
            (fun i k => m ((c : Thread nD τ).loc main_arg5) (ix2 i k))
            (fun k => m ((c : Thread nD τ).loc main_arg3) (ix1 k)) (fun k => m ((c : Thread nD τ).loc main_arg6) (ix1 k))
            (fun k j => m ((c : Thread nD τ).loc main_arg7) (ix2 k j)) zPad) n j
        * Ideal.div Cert.Sage.one32 (Dg (m ((c : Thread nD τ).loc main_arg1)) (ix2 n (0 : Fin 1))) := by
  exact (V12_main_v39_apply m ρ c n j).trans
    (congrArg (fun x => x * Ideal.div Cert.Sage.one32 (Dg (m ((c : Thread nD τ).loc main_arg1)) (ix2 n (0 : Fin 1))))
      (agg2_apply _ _ _ (fun r j => proj_apply m ρ c r j) n j))

/-- THE KERNEL PROGRAM'S RESULT at `(n, j)`, `j < 121`: the project-first function of the arguments. -/
theorem kernel_apply (n : Fin 50000) (j : Fin 121) :
    (Gen.W14 m ρ c (Proc.devRef .tc main_v47)) (ix2 n j) = specOut m c n (Fin.castAdd 7 j) := by
  refine (W14_main_v47_apply m ρ c n j).trans ?_
  refine (Cert.KernelIdeal.KRegion.out_final (Gen.V12 m ρ) c n _).trans ?_
  unfold specOut Cert.Sage.outK
  exact congrFun (layer_congr (funext fun j => mean2_apply m ρ c n j) (funext fun j => V12_main_v42_apply m ρ c j)
    (funext fun k => (congrFun (V12_main_v27_0 m ρ c) (ix2 n k)).trans (hidden_apply m ρ c n k))
    (funext fun k => funext fun j => V12_main_v40_apply m ρ c k j)
    (funext fun k => funext fun j => V12_main_v43_apply m ρ c k j)
    (funext fun j => V12_main_v45_apply m ρ c j)) (Fin.castAdd 7 j)

end Apply

end Cert.KernelIdeal.KValue

end
-- ==== Proof.RefRead.lean ====
/-
  The reference program's result read at an entry: it is the specification's mean-first output row.  First the layout
  and contraction operations at an entry (a product is the row times the column, a row sum is the sum of the row, a
  broadcast reads its operand), then each stage of the composed term, the hidden layer, and the result.  The two
  256-wide gather and scatter-add readings are hypotheses here; the 50-wide neighbour sum and the degree stay opaque.
-/
import proofs.«166945_j62663572848802_2_alg».proof.Proof.RefTerms
import proofs.«166945_j62663572848802_2_alg».proof.Proof.Spec
import Idealize.ShloMosaic.Lib.Pipeline.Value
import Idealize.ShloMosaic.Lib.ValueIdx
import Idealize.ShloMosaic.PureOps.Ideal.Laws
import Idealize.ShloMosaic.PureOps.IdealRules

noncomputable section

namespace Cert.ReferenceIdeal.RefValue

open Cert.ReferenceIdeal Cert.ReferenceIdeal.Gen Idealize.ShloMosaic Idealize.ShloMosaic.ValueIdx
open scoped BigOperators

/-! ## The layout and contraction operations read at an entry -/

section Library

theorem lhs50_0 (i : S50000x256.Idx) (q : dot_S50000x50_S50x256_S50000x256_1_0_0_1_n_n.contr.Idx) : (dot_S50000x50_S50x256_S50000x256_1_0_0_1_n_n.lhsIdx i q 0).val = (i 0).val := by
  unfold DotDims.lhsIdx
  rw [dif_neg (show ¬(0 : Fin S50000x50.rank) ∈ dot_S50000x50_S50x256_S50000x256_1_0_0_1_n_n.lhsBatch by decide), dif_pos (show (0 : Fin S50000x50.rank) ∈ dot_S50000x50_S50x256_S50000x256_1_0_0_1_n_n.lhsNonContracting by decide)]
  rfl
theorem lhs50_1 (i : S50000x256.Idx) (q : dot_S50000x50_S50x256_S50000x256_1_0_0_1_n_n.contr.Idx) : (dot_S50000x50_S50x256_S50000x256_1_0_0_1_n_n.lhsIdx i q 1).val = (q ⟨0, by decide⟩).val :=
  dot_S50000x50_S50x256_S50000x256_1_0_0_1_n_n.lhsIdx_val_of_single rfl i q
theorem rhs50_0 (i : S50000x256.Idx) (q : dot_S50000x50_S50x256_S50000x256_1_0_0_1_n_n.contr.Idx) : (dot_S50000x50_S50x256_S50000x256_1_0_0_1_n_n.rhsIdx i q 0).val = (q ⟨0, by decide⟩).val :=
  dot_S50000x50_S50x256_S50000x256_1_0_0_1_n_n.rhsIdx_val_of_single rfl i q
theorem rhs50_1 (i : S50000x256.Idx) (q : dot_S50000x50_S50x256_S50000x256_1_0_0_1_n_n.contr.Idx) : (dot_S50000x50_S50x256_S50000x256_1_0_0_1_n_n.rhsIdx i q 1).val = (i 1).val := by
  unfold DotDims.rhsIdx
  rw [dif_neg (show ¬(1 : Fin S50x256.rank) ∈ dot_S50000x50_S50x256_S50000x256_1_0_0_1_n_n.rhsBatch by decide), dif_pos (show (1 : Fin S50x256.rank) ∈ dot_S50000x50_S50x256_S50000x256_1_0_0_1_n_n.rhsNonContracting by decide)]
  rfl

/-- The host's product of a [50000, 50] array and a [50, 256] array, read at an entry: the row times the column. -/
theorem dot50_apply (l : FVec Ideal S50000x50 .f32) (r : FVec Ideal S50x256 .f32) (n : Fin 50000) (k : Fin 256) :
    Host.dotGeneral (F := Ideal) dot_S50000x50_S50x256_S50000x256_1_0_0_1_n_n none l r (ix2 n k) = ∑ i : Fin 50, l (ix2 n i) * r (ix2 i k) := by
  simp only [Host.dotGeneral]
  rw [Ideal.dotGeneral_apply, ← Equiv.sum_comp (ValueIdx.contrEquiv1 dot_S50000x50_S50x256_S50000x256_1_0_0_1_n_n 50 rfl rfl).symm]
  refine Finset.sum_congr rfl fun i _ => ?_
  have hk := ValueIdx.contrEquiv1_symm_val dot_S50000x50_S50x256_S50000x256_1_0_0_1_n_n 50 rfl rfl i
  have el : dot_S50000x50_S50x256_S50000x256_1_0_0_1_n_n.lhsIdx (ix2 n k) ((ValueIdx.contrEquiv1 dot_S50000x50_S50x256_S50000x256_1_0_0_1_n_n 50 rfl rfl).symm i) = ix2 n i := funext fun a => Fin.ext (by
    match a with
    | ⟨0, _⟩ => exact lhs50_0 _ _
    | ⟨1, _⟩ => exact (lhs50_1 _ _).trans hk)
  have er : dot_S50000x50_S50x256_S50000x256_1_0_0_1_n_n.rhsIdx (ix2 n k) ((ValueIdx.contrEquiv1 dot_S50000x50_S50x256_S50000x256_1_0_0_1_n_n 50 rfl rfl).symm i) = ix2 i k := funext fun a => Fin.ext (by
    match a with
    | ⟨0, _⟩ => exact (rhs50_0 _ _).trans hk
    | ⟨1, _⟩ => exact rhs50_1 _ _)
  rw [el, er]

theorem lhs256_0 (i : S50000x121.Idx) (q : dot_S50000x256_S256x121_S50000x121_1_0_0_1_n_n.contr.Idx) : (dot_S50000x256_S256x121_S50000x121_1_0_0_1_n_n.lhsIdx i q 0).val = (i 0).val := by
  unfold DotDims.lhsIdx
  rw [dif_neg (show ¬(0 : Fin S50000x256.rank) ∈ dot_S50000x256_S256x121_S50000x121_1_0_0_1_n_n.lhsBatch by decide), dif_pos (show (0 : Fin S50000x256.rank) ∈ dot_S50000x256_S256x121_S50000x121_1_0_0_1_n_n.lhsNonContracting by decide)]
  rfl
theorem lhs256_1 (i : S50000x121.Idx) (q : dot_S50000x256_S256x121_S50000x121_1_0_0_1_n_n.contr.Idx) : (dot_S50000x256_S256x121_S50000x121_1_0_0_1_n_n.lhsIdx i q 1).val = (q ⟨0, by decide⟩).val :=
  dot_S50000x256_S256x121_S50000x121_1_0_0_1_n_n.lhsIdx_val_of_single rfl i q
theorem rhs256_0 (i : S50000x121.Idx) (q : dot_S50000x256_S256x121_S50000x121_1_0_0_1_n_n.contr.Idx) : (dot_S50000x256_S256x121_S50000x121_1_0_0_1_n_n.rhsIdx i q 0).val = (q ⟨0, by decide⟩).val :=
  dot_S50000x256_S256x121_S50000x121_1_0_0_1_n_n.rhsIdx_val_of_single rfl i q
theorem rhs256_1 (i : S50000x121.Idx) (q : dot_S50000x256_S256x121_S50000x121_1_0_0_1_n_n.contr.Idx) : (dot_S50000x256_S256x121_S50000x121_1_0_0_1_n_n.rhsIdx i q 1).val = (i 1).val := by
  unfold DotDims.rhsIdx
  rw [dif_neg (show ¬(1 : Fin S256x121.rank) ∈ dot_S50000x256_S256x121_S50000x121_1_0_0_1_n_n.rhsBatch by decide), dif_pos (show (1 : Fin S256x121.rank) ∈ dot_S50000x256_S256x121_S50000x121_1_0_0_1_n_n.rhsNonContracting by decide)]
  rfl

/-- The host's product of a [50000, 256] array and a [256, 121] array, read at an entry: the row times the column. -/
theorem dot256_apply (l : FVec Ideal S50000x256 .f32) (r : FVec Ideal S256x121 .f32) (n : Fin 50000) (k : Fin 121) :
    Host.dotGeneral (F := Ideal) dot_S50000x256_S256x121_S50000x121_1_0_0_1_n_n none l r (ix2 n k) = ∑ i : Fin 256, l (ix2 n i) * r (ix2 i k) := by
  simp only [Host.dotGeneral]
  rw [Ideal.dotGeneral_apply, ← Equiv.sum_comp (ValueIdx.contrEquiv1 dot_S50000x256_S256x121_S50000x121_1_0_0_1_n_n 256 rfl rfl).symm]
  refine Finset.sum_congr rfl fun i _ => ?_
  have hk := ValueIdx.contrEquiv1_symm_val dot_S50000x256_S256x121_S50000x121_1_0_0_1_n_n 256 rfl rfl i
  have el : dot_S50000x256_S256x121_S50000x121_1_0_0_1_n_n.lhsIdx (ix2 n k) ((ValueIdx.contrEquiv1 dot_S50000x256_S256x121_S50000x121_1_0_0_1_n_n 256 rfl rfl).symm i) = ix2 n i := funext fun a => Fin.ext (by
    match a with
    | ⟨0, _⟩ => exact lhs256_0 _ _
    | ⟨1, _⟩ => exact (lhs256_1 _ _).trans hk)
  have er : dot_S50000x256_S256x121_S50000x121_1_0_0_1_n_n.rhsIdx (ix2 n k) ((ValueIdx.contrEquiv1 dot_S50000x256_S256x121_S50000x121_1_0_0_1_n_n 256 rfl rfl).symm i) = ix2 i k := funext fun a => Fin.ext (by
    match a with
    | ⟨0, _⟩ => exact (rhs256_0 _ _).trans hk
    | ⟨1, _⟩ => exact rhs256_1 _ _)
  rw [el, er]

/-- The host's sum along the rows of a [50000, 256] array from the zero literal, read at a row: the row's sum. -/
theorem rsum256_apply (x : FVec Ideal S50000x256 .f32) (n : Fin 50000) :
    Host.reduceAdd (F := Ideal) x (constant (F := Ideal) S_ .f32 0x00000000#32) reducesTo_S50000x256_S50000_d1 h_S_ (ix1 n)
      = ∑ k : Fin 256, x (ix2 n k) := by
  simp only [Host.reduceAdd, Ideal.hostReduceAdd_def]
  rw [Ideal.hostReduceAdd_single reducesTo_S50000x256_S50000_d1 (by decide)]
  show Ideal.ofBits .f32 0x00000000#32 + _ = _
  rw [Ideal.ofBits_zero_f32, zero_add]
  refine Finset.sum_congr rfl fun k _ => ?_
  exact congrArg x (funext fun a => Fin.ext (by match a with | ⟨0, _⟩ => rfl | ⟨1, _⟩ => rfl))

/-- The host's sum along the rows of a [50000, 121] array from the zero literal, read at a row: the row's sum. -/
theorem rsum121_apply (x : FVec Ideal S50000x121 .f32) (n : Fin 50000) :
    Host.reduceAdd (F := Ideal) x (constant (F := Ideal) S_ .f32 0x00000000#32) reducesTo_S50000x121_S50000_d1 h_S_ (ix1 n)
      = ∑ k : Fin 121, x (ix2 n k) := by
  simp only [Host.reduceAdd, Ideal.hostReduceAdd_def]
  rw [Ideal.hostReduceAdd_single reducesTo_S50000x121_S50000_d1 (by decide)]
  show Ideal.ofBits .f32 0x00000000#32 + _ = _
  rw [Ideal.ofBits_zero_f32, zero_add]
  refine Finset.sum_congr rfl fun k _ => ?_
  exact congrArg x (funext fun a => Fin.ext (by match a with | ⟨0, _⟩ => rfl | ⟨1, _⟩ => rfl))

/-- A scalar broadcast to any shape, read anywhere: the scalar. -/
theorem bcast_scalar_apply {α : Type} (t : Shape) (h : S_.BroadcastsInDim t (![] : Fin 0 → Fin t.rank)) (x : S_.Idx → α) (j : t.Idx) :
    broadcastInDim t ![] h x j = x ix0 :=
  broadcastInDim_apply _ h x j ix0 (fun a => a.elim0)

/-- A [50000, 1] column repeated across 50 columns, read at an entry: the column at the row. -/
theorem bcast_col50_apply {α : Type} (x : S50000x1.Idx → α) (n : Fin 50000) (k : Fin 50) :
    broadcastInDim S50000x50 ![0, 1] bcast_S50000x1_S50000x50_0_1 x (ix2 n k) = x (ix2 n (0 : Fin 1)) :=
  broadcastInDim_apply _ _ _ _ _ (fun a => by match a with | ⟨0, _⟩ => rfl | ⟨1, _⟩ => rfl)

/-- A [50000, 1] column repeated across 256 columns, read at an entry: the column at the row. -/
theorem bcast_col256_apply {α : Type} (x : S50000x1.Idx → α) (n : Fin 50000) (k : Fin 256) :
    broadcastInDim S50000x256 ![0, 1] bcast_S50000x1_S50000x256_0_1 x (ix2 n k) = x (ix2 n (0 : Fin 1)) :=
  broadcastInDim_apply _ _ _ _ _ (fun a => by match a with | ⟨0, _⟩ => rfl | ⟨1, _⟩ => rfl)

/-- A [50000, 1] column repeated across 121 columns, read at an entry: the column at the row. -/
theorem bcast_col121_apply {α : Type} (x : S50000x1.Idx → α) (n : Fin 50000) (k : Fin 121) :
    broadcastInDim S50000x121 ![0, 1] bcast_S50000x1_S50000x121_0_1 x (ix2 n k) = x (ix2 n (0 : Fin 1)) :=
  broadcastInDim_apply _ _ _ _ _ (fun a => by match a with | ⟨0, _⟩ => rfl | ⟨1, _⟩ => rfl)

/-- A [256] vector made a [1, 256] row and repeated down 50000 rows, read at an entry: the vector at the column. -/
theorem bcast_row256_apply {α : Type} (x : S256.Idx → α) (n : Fin 50000) (k : Fin 256) :
    broadcastInDim S50000x256 ![0, 1] bcast_S1x256_S50000x256_0_1 (broadcastInDim S1x256 ![1] bcast_S256_S1x256_1 x) (ix2 n k) = x (ix1 k) := by
  rw [broadcastInDim_apply _ _ _ _ (ix2 (0 : Fin 1) k) (fun a => by match a with | ⟨0, _⟩ => rfl | ⟨1, _⟩ => rfl)]
  exact broadcastInDim_apply _ _ _ _ (ix1 k) (fun a => by match a with | ⟨0, _⟩ => rfl)

/-- A [121] vector made a [1, 121] row and repeated down 50000 rows, read at an entry: the vector at the column. -/
theorem bcast_row121_apply {α : Type} (x : S121.Idx → α) (n : Fin 50000) (k : Fin 121) :
    broadcastInDim S50000x121 ![0, 1] bcast_S1x121_S50000x121_0_1 (broadcastInDim S1x121 ![1] bcast_S121_S1x121_1 x) (ix2 n k) = x (ix1 k) := by
  rw [broadcastInDim_apply _ _ _ _ (ix2 (0 : Fin 1) k) (fun a => by match a with | ⟨0, _⟩ => rfl | ⟨1, _⟩ => rfl)]
  exact broadcastInDim_apply _ _ _ _ (ix1 k) (fun a => by match a with | ⟨0, _⟩ => rfl)

/-- A [50000] vector made a [50000, 1] column, read at a row: the vector there. -/
theorem bcast_keep_apply {α : Type} (x : S50000.Idx → α) (n : Fin 50000) (z : Fin 1) :
    broadcastInDim S50000x1 ![0] bcast_S50000_S50000x1_0 x (ix2 n z) = x (ix1 n) :=
  broadcastInDim_apply _ _ _ _ _ (fun a => by match a with | ⟨0, _⟩ => rfl)

end Library

/-! ## The stages read at an entry -/

section Stages

open Cert.Sage

theorem hdivf_apply {s : Shape} (x y : FVec Ideal s .f32) (i : s.Idx) : Host.divf x y i = Ideal.div (x i) (y i) := rfl
theorem hsqrt_apply {s : Shape} (x : FVec Ideal s .f32) (i : s.Idx) : Host.sqrt x i = Ideal.sqrt (x i) := rfl

/-- The literal one is one. -/
theorem one32_eq : one32 = 1 := IdealRules.sign_bit.ideal_onePat .f32

/-- The masked spelling of the activation is the activation: where the entry is positive both select it; elsewhere the
    mask leaves the entry and the product by one drops. -/
theorem eluMasked_eq (p : EReal) : eluMasked p = elu p := by
  unfold eluMasked elu
  rcases BitVec.eq_zero_or_eq_one (Ideal.cmp .ogt p zero32) with h | h
  · rw [h]
    simp only [select_zero]
    rw [one32_eq, one_mul]
  · rw [h]
    simp only [select_one]

/-- A 256-wide array normalised row by row, at an entry: the row's normalisation. -/
theorem nrm256_apply (v : FVec Ideal S50000x256 .f32) (n : Fin 50000) (k : Fin 256) :
    nrm256 v (ix2 n k) = nrm (fun k => v (ix2 n k)) k := by
  unfold nrm256 nrm
  rw [hdivf_apply, bcast_col256_apply, maximumf_apply, hsqrt_apply, bcast_keep_apply, rsum256_apply, bcast_scalar_apply]
  rfl

theorem nrm121_apply (v : FVec Ideal S50000x121 .f32) (n : Fin 50000) (j : Fin 121) :
    nrm121 v (ix2 n j) = nrm (fun j => v (ix2 n j)) j := by
  unfold nrm121 nrm
  rw [hdivf_apply, bcast_col121_apply, maximumf_apply, hsqrt_apply, bcast_keep_apply, rsum121_apply, bcast_scalar_apply]
  rfl

/-- The first layer before normalisation, at an entry. -/
theorem sage1Of_apply (A : FVec Ideal S50000x50 .f32) (D : FVec Ideal S50000x1 .f32) (a0 : FVec Ideal S50000x50 .f32)
    (a2 : FVec Ideal S50x256 .f32) (a3 : FVec Ideal S256 .f32) (a4 : FVec Ideal S50x256 .f32) (n : Fin 50000) (k : Fin 256) :
    sage1Of A D a0 a2 a3 a4 (ix2 n k)
      = sage (dot (fun i => Ideal.div (A (ix2 n i)) (D (ix2 n 0))) (fun i k => a2 (ix2 i k))) (fun k => a3 (ix1 k))
          (fun i => a0 (ix2 n i)) (fun i k => a4 (ix2 i k)) k := by
  unfold sage1Of sage dot
  rw [addf_apply, addf_apply, dot50_apply, dot50_apply, bcast_row256_apply]
  refine congrArg₂ (· + ·) (congrArg₂ (· + ·) (Finset.sum_congr rfl fun i _ => ?_) rfl) rfl
  rw [hdivf_apply, bcast_col50_apply]

/-- The first layer before its activation, at an entry. -/
theorem lay1Of_apply (A : FVec Ideal S50000x50 .f32) (D : FVec Ideal S50000x1 .f32) (a0 : FVec Ideal S50000x50 .f32)
    (a2 : FVec Ideal S50x256 .f32) (a3 : FVec Ideal S256 .f32) (a4 a5 : FVec Ideal S50x256 .f32) (a6 : FVec Ideal S256 .f32)
    (n : Fin 50000) (k : Fin 256) :
    lay1Of A D a0 a2 a3 a4 a5 a6 (ix2 n k)
      = layer (dot (fun i => Ideal.div (A (ix2 n i)) (D (ix2 n 0))) (fun i k => a2 (ix2 i k))) (fun k => a3 (ix1 k))
          (fun i => a0 (ix2 n i)) (fun i k => a4 (ix2 i k)) (fun i k => a5 (ix2 i k)) (fun k => a6 (ix1 k)) k := by
  unfold lay1Of layer
  rw [addf_apply, nrm256_apply, addf_apply, dot50_apply, bcast_row256_apply]
  simp only [sage1Of_apply]
  rfl

/-- The activation as the program spells it, at an entry. -/
theorem eluOf_apply (v : FVec Ideal S50000x256 .f32) (n : Fin 50000) (k : Fin 256) :
    eluOf v (ix2 n k) = eluMasked (v (ix2 n k)) := rfl

/-- The hidden layer at an entry: the hidden row of the specification. -/
theorem hidOf_apply (A : FVec Ideal S50000x50 .f32) (D : FVec Ideal S50000x1 .f32) (a0 : FVec Ideal S50000x50 .f32)
    (a2 : FVec Ideal S50x256 .f32) (a3 : FVec Ideal S256 .f32) (a4 a5 : FVec Ideal S50x256 .f32) (a6 : FVec Ideal S256 .f32)
    (n : Fin 50000) (k : Fin 256) :
    hidOf A D a0 a2 a3 a4 a5 a6 (ix2 n k)
      = hrow (fun i => Ideal.div (A (ix2 n i)) (D (ix2 n 0))) (fun i => a0 (ix2 n i)) (fun i k => a2 (ix2 i k))
          (fun i k => a4 (ix2 i k)) (fun i k => a5 (ix2 i k)) (fun k => a3 (ix1 k)) (fun k => a6 (ix1 k)) k := by
  unfold hidOf hrow
  rw [eluOf_apply, lay1Of_apply, eluMasked_eq]

theorem hid_apply (a0 : FVec Ideal S50000x50 .f32) (a1 : IVec S2x800000 32) (a2 : FVec Ideal S50x256 .f32) (a3 : FVec Ideal S256 .f32)
    (a4 a5 : FVec Ideal S50x256 .f32) (a6 : FVec Ideal S256 .f32) (n : Fin 50000) (k : Fin 256) :
    hid a0 a1 a2 a3 a4 a5 a6 (ix2 n k)
      = hR (fun n i => A1 a0 a1 (ix2 n i)) (fun n => Dg a1 (ix2 n 0)) (fun n i => a0 (ix2 n i)) (fun i k => a2 (ix2 i k))
          (fun i k => a4 (ix2 i k)) (fun i k => a5 (ix2 i k)) (fun k => a3 (ix1 k)) (fun k => a6 (ix1 k)) n k := by
  unfold hid hR
  exact hidOf_apply (A1 a0 a1) (Dg a1) a0 a2 a3 a4 a5 a6 n k

section Second

variable (hG : ∀ (X : FVec Ideal S50000x256 .f32) (I : IVec S800000x1 32) (e : Fin 800000) (k : Fin 256),
    Host.gather gather_S50000x256_S800000x1_S800000x256_1_0_n_n_0_1_1256 X I (ix2 e k) = X (ix2 (srcRow I e) k))
  (hS : ∀ (X0 : FVec Ideal S50000x256 .f32) (I : IVec S800000x1 32) (U : FVec Ideal S800000x256 .f32) (n : Fin 50000) (k : Fin 256),
    Host.scatterAdd (F := Ideal) scatter_S50000x256_S800000x1_S800000x256_1_0_0_1 X0 I U (ix2 n k)
      = X0 (ix2 n k) + ∑ e ∈ edgesInto I n, U (ix2 e k))

include hG hS

/-- The second layer before normalisation, at an entry, from any hidden layer `H`. -/
theorem sage2Of_apply (H : FVec Ideal S50000x256 .f32) (Is Id : IVec S800000x1 32) (D : FVec Ideal S50000x1 .f32)
    (a7 : FVec Ideal S256x121 .f32) (a8 : FVec Ideal S121 .f32) (a9 : FVec Ideal S256x121 .f32) (n : Fin 50000) (j : Fin 121) :
    sage2Of H Is Id D a7 a8 a9 (ix2 n j)
      = sage (dot (fun k => Ideal.div (agg (edgesInto Id) (srcRow Is) (fun r k => H (ix2 r k)) n k) (D (ix2 n 0)))
            (fun k j => a7 (ix2 k j))) (fun j => a8 (ix1 j)) (fun k => H (ix2 n k)) (fun k j => a9 (ix2 k j)) j := by
  unfold sage2Of sage dot agg
  rw [addf_apply, addf_apply, dot256_apply, dot256_apply, bcast_row121_apply]
  refine congrArg₂ (· + ·) (congrArg₂ (· + ·) (Finset.sum_congr rfl fun k _ => ?_) rfl) rfl
  rw [hdivf_apply, bcast_col256_apply, hS, bcast_scalar_apply, Finset.sum_congr rfl (fun e _ => hG H Is e k)]
  rfl

/-- The output layer at an entry, from any hidden layer `H`. -/
theorem outOf_apply (H : FVec Ideal S50000x256 .f32) (Is Id : IVec S800000x1 32) (D : FVec Ideal S50000x1 .f32)
    (a7 : FVec Ideal S256x121 .f32) (a8 : FVec Ideal S121 .f32) (a9 a10 : FVec Ideal S256x121 .f32) (a11 : FVec Ideal S121 .f32)
    (n : Fin 50000) (j : Fin 121) :
    outOf H Is Id D a7 a8 a9 a10 a11 (ix2 n j)
      = layer (dot (fun k => Ideal.div (agg (edgesInto Id) (srcRow Is) (fun r k => H (ix2 r k)) n k) (D (ix2 n 0)))
            (fun k j => a7 (ix2 k j))) (fun j => a8 (ix1 j)) (fun k => H (ix2 n k)) (fun k j => a9 (ix2 k j))
          (fun k j => a10 (ix2 k j)) (fun j => a11 (ix1 j)) j := by
  unfold outOf layer
  rw [addf_apply, nrm121_apply, addf_apply, dot256_apply, bcast_row121_apply]
  simp only [sage2Of_apply hG hS]
  rfl

/-- The program's result at an entry is the specification's mean-first output row. -/
theorem out_apply (a0 : FVec Ideal S50000x50 .f32) (a1 : IVec S2x800000 32) (a2 : FVec Ideal S50x256 .f32) (a3 : FVec Ideal S256 .f32)
    (a4 a5 : FVec Ideal S50x256 .f32) (a6 : FVec Ideal S256 .f32) (a7 : FVec Ideal S256x121 .f32) (a8 : FVec Ideal S121 .f32)
    (a9 a10 : FVec Ideal S256x121 .f32) (a11 : FVec Ideal S121 .f32) (n : Fin 50000) (j : Fin 121) :
    out a0 a1 a2 a3 a4 a5 a6 a7 a8 a9 a10 a11 (ix2 n j)
      = outR (edgesInto (Idst a1)) (srcRow (Isrc a1)) (fun n i => A1 a0 a1 (ix2 n i)) (fun n => Dg a1 (ix2 n 0))
          (fun n i => a0 (ix2 n i)) (fun i k => a2 (ix2 i k)) (fun i k => a4 (ix2 i k)) (fun i k => a5 (ix2 i k))
          (fun k => a3 (ix1 k)) (fun k => a6 (ix1 k)) (fun k j => a7 (ix2 k j)) (fun k j => a9 (ix2 k j))
          (fun k j => a10 (ix2 k j)) (fun j => a8 (ix1 j)) (fun j => a11 (ix1 j)) n j := by
  unfold out outR
  rw [outOf_apply hG hS]
  simp only [hid_apply]

end Second

end Stages

end Cert.ReferenceIdeal.RefValue

end
-- ==== Proof.Finite.lean ====
/-
  From the precondition to "every float entry is a real number".

  The precondition is the conjunction, over the eleven float arguments, of "every entry's absolute value is below
  +infinity".  Over the extended reals `|x| < ⊤` says exactly that `x` is neither `⊤` nor `⊥`, that is, a real.
-/
import proofs.«166945_j62663572848802_2_alg».proof.Defs
import proofs.«166945_j62663572848802_2_alg».proof.Proof.Gen.Pre_finite_inputs
import Idealize.ShloMosaic.Lib.ReduceAll
import Idealize.ShloMosaic.Lib.ValueIdx

noncomputable section

namespace Cert.Sage.Finite

open Idealize.ShloMosaic Idealize.SL.Sem Idealize.ShloMosaic.ValueIdx

/-- The word `0x7F800000` denotes `+∞`. -/
theorem inf32 : Ideal.ofBits .f32 0x7F800000#32 = (⊤ : EReal) := by
  simp [Ideal.ofBits, Ideal.ieee]

/-- An extended real whose absolute value compares below `+∞` is a real number. -/
theorem real_of_abs_lt (x : EReal)
    (h : Ideal.cmp .olt (max x (-x)) (Ideal.ofBits .f32 0x7F800000#32) = 1#1) : ∃ r : ℝ, x = (r : EReal) := by
  rw [inf32] at h
  have hlt : max x (-x) < ⊤ := by
    by_contra hn
    simp [Ideal.cmp, hn] at h
  induction x using EReal.rec with
  | bot => simp at hlt
  | coe r => exact ⟨r, rfl⟩
  | top => simp at hlt

/-- The scalar shape has one index. -/
instance : Subsingleton Cert.Pre_finite_inputs.S_.Idx := ⟨fun a b => funext fun d => d.elim0⟩

/-- `all (|X| < +∞) = 1`: every entry of `X` is a real number. -/
theorem real_of_all {s : Shape} {axes : List (Fin s.rank)} (X : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
        (cmpf .olt (Host.absf X) (broadcastInDim s ![] hb (constant (F := Ideal) Cert.Pre_finite_inputs.S_ .f32 0x7F800000#32)))
        (constantI Cert.Pre_finite_inputs.S_ 1 1#1) hr hu ix0 = 1#1) (i : s.Idx) : ∃ r : ℝ, X i = (r : EReal) :=
  real_of_abs_lt (X i) (Host.reduce_andi_all _ _ hr hu ix0 h i)

/-- A conjunction of two one-bit arrays is 1 at an index exactly when both are. -/
theorem andi_apply_eq_one {s : Shape} (a b : IVec s 1) (i : s.Idx) : andi a b i = 1#1 ↔ a i = 1#1 ∧ b i = 1#1 :=
  IntOp.andi_eq_one

/-- Under the precondition every entry of every float argument is a real number. -/
theorem real_of_pre [hPre : Cert.Pre_finite_inputs.Facts] [hK : Cert.KernelIdeal.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S50000x50.Idx, ∃ r : ℝ, m ((c.tc : Thread Cert.KernelIdeal.nD Cert.KernelIdeal.τ).loc Cert.KernelIdeal.main_arg0) i = (r : EReal))
    ∧ (∀ i : Cert.KernelIdeal.S50x256.Idx, ∃ r : ℝ, m ((c.tc : Thread Cert.KernelIdeal.nD Cert.KernelIdeal.τ).loc Cert.KernelIdeal.main_arg2) i = (r : EReal))
    ∧ (∀ i : Cert.KernelIdeal.S256.Idx, ∃ r : ℝ, m ((c.tc : Thread Cert.KernelIdeal.nD Cert.KernelIdeal.τ).loc Cert.KernelIdeal.main_arg3) i = (r : EReal))
    ∧ (∀ i : Cert.KernelIdeal.S50x256.Idx, ∃ r : ℝ, m ((c.tc : Thread Cert.KernelIdeal.nD Cert.KernelIdeal.τ).loc Cert.KernelIdeal.main_arg4) i = (r : EReal))
    ∧ (∀ i : Cert.KernelIdeal.S50x256.Idx, ∃ r : ℝ, m ((c.tc : Thread Cert.KernelIdeal.nD Cert.KernelIdeal.τ).loc Cert.KernelIdeal.main_arg5) i = (r : EReal))
    ∧ (∀ i : Cert.KernelIdeal.S256.Idx, ∃ r : ℝ, m ((c.tc : Thread Cert.KernelIdeal.nD Cert.KernelIdeal.τ).loc Cert.KernelIdeal.main_arg6) i = (r : EReal))
    ∧ (∀ i : Cert.KernelIdeal.S256x121.Idx, ∃ r : ℝ, m ((c.tc : Thread Cert.KernelIdeal.nD Cert.KernelIdeal.τ).loc Cert.KernelIdeal.main_arg7) i = (r : EReal))
    ∧ (∀ i : Cert.KernelIdeal.S121.Idx, ∃ r : ℝ, m ((c.tc : Thread Cert.KernelIdeal.nD Cert.KernelIdeal.τ).loc Cert.KernelIdeal.main_arg8) i = (r : EReal))
    ∧ (∀ i : Cert.KernelIdeal.S256x121.Idx, ∃ r : ℝ, m ((c.tc : Thread Cert.KernelIdeal.nD Cert.KernelIdeal.τ).loc Cert.KernelIdeal.main_arg9) i = (r : EReal))
    ∧ (∀ i : Cert.KernelIdeal.S256x121.Idx, ∃ r : ℝ, m ((c.tc : Thread Cert.KernelIdeal.nD Cert.KernelIdeal.τ).loc Cert.KernelIdeal.main_arg10) i = (r : EReal))
    ∧ (∀ i : Cert.KernelIdeal.S121.Idx, ∃ r : ℝ, m ((c.tc : Thread Cert.KernelIdeal.nD Cert.KernelIdeal.τ).loc Cert.KernelIdeal.main_arg11) i = (r : EReal)) := by
  have h0 := congrFun (h c) ix0
  dsimp only [Cert.Pre_finite_inputs.fn, Cert.Pre_finite_inputs.fn_part1, Cert.Pre_finite_inputs.fn_part2,
    Cert.Pre_finite_inputs.fn_part3] at h0
  simp only [andi_apply_eq_one] at h0
  obtain ⟨⟨⟨⟨⟨⟨⟨⟨⟨⟨a0, a2⟩, a3⟩, a4⟩, a5⟩, a6⟩, a7⟩, a8⟩, a9⟩, a10⟩, a11⟩ := h0
  exact ⟨real_of_all _ _ _ _ a0, real_of_all _ _ _ _ a2, real_of_all _ _ _ _ a3, real_of_all _ _ _ _ a4,
    real_of_all _ _ _ _ a5, real_of_all _ _ _ _ a6, real_of_all _ _ _ _ a7, real_of_all _ _ _ _ a8,
    real_of_all _ _ _ _ a9, real_of_all _ _ _ _ a10, real_of_all _ _ _ _ a11⟩

end Cert.Sage.Finite

end
-- ==== Proof.Bridge.lean ====
/-
  The two arrangements of the second layer agree on the reals.

  Write h for the hidden rows (real numbers once every input entry is real and every degree is a real number other
  than zero), W for the projection, d for a node's degree and E for the edges into it.  Projecting first and summing
  afterwards gives (∑ e∈E, ∑ k, h(src e) k · W k j) · (1/d); averaging first gives ∑ k, ((∑ e∈E, h(src e) k)/d) · W k j.
  Over the reals these are one number: exchange the two finite sums and move the factor 1/d through them.  On the
  extended reals the exchange would fail at infinities, which is why every entry is first shown to be a real number.
  A column of zero padding adds 0 · 0 to the sum of squares under the norm and is sliced away from the result, so
  the 128-wide rows restricted to their first 121 columns are the 121-wide rows.
-/
import proofs.«166945_j62663572848802_2_alg».proof.Proof.Spec
import Idealize.ShloMosaic.PureOps.IdealRules

noncomputable section

namespace Cert.Sage

open Idealize.ShloMosaic

/-- An extended real that is a real number. -/
def IsR (v : EReal) : Prop := ∃ r : ℝ, v = (r : EReal)

/-- The coercion from the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max' (a b : ℝ) : max (a : EReal) (b : EReal) = ((max a b : ℝ) : EReal) :=
  (EReal.coe_strictMono.monotone.map_max).symm

theorem zero32_eq : zero32 = 0 := Ideal.ofBits_zero_f32
theorem one32_eq : one32 = 1 := IdealRules.sign_bit.ideal_onePat .f32

/-- The small literal is a positive real number. -/
theorem eps32_pos : ∃ ε : ℝ, 0 < ε ∧ eps32 = (ε : EReal) := by
  refine ⟨((2 ^ 23 + 834764 : ℕ) : ℝ) * (2 : ℝ) ^ ((87 : ℤ) - 127 - 23), by positivity, ?_⟩
  simp [eps32, Ideal.ofBits, Ideal.ieee, -EReal.coe_mul]

/-! ## Real numbers are closed under every operation of a row -/

theorem IsR.add {a b : EReal} (ha : IsR a) (hb : IsR b) : IsR (a + b) := by
  obtain ⟨x, rfl⟩ := ha; obtain ⟨y, rfl⟩ := hb; exact ⟨x + y, (EReal.coe_add x y).symm⟩
theorem IsR.mul {a b : EReal} (ha : IsR a) (hb : IsR b) : IsR (a * b) := by
  obtain ⟨x, rfl⟩ := ha; obtain ⟨y, rfl⟩ := hb; exact ⟨x * y, (EReal.coe_mul x y).symm⟩
theorem IsR.sub {a b : EReal} (ha : IsR a) (hb : IsR b) : IsR (a - b) := by
  obtain ⟨x, rfl⟩ := ha; obtain ⟨y, rfl⟩ := hb; exact ⟨x - y, (EReal.coe_sub x y).symm⟩
theorem IsR.sum {ι : Type} (s : Finset ι) (f : ι → EReal) (h : ∀ i ∈ s, IsR (f i)) : IsR (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))
theorem IsR.div {a b : EReal} (ha : IsR a) (hb : ∃ y : ℝ, y ≠ 0 ∧ b = (y : EReal)) : IsR (Ideal.div a b) := by
  obtain ⟨x, rfl⟩ := ha; obtain ⟨y, hy, rfl⟩ := hb
  rw [Ideal.div_coe hy]; exact ⟨x * (1 / y), (EReal.coe_mul _ _).symm⟩
theorem IsR.exp {a : EReal} (ha : IsR a) : IsR (Ideal.exp a) := by
  obtain ⟨x, rfl⟩ := ha; exact ⟨Real.exp x, rfl⟩
theorem IsR.select (c : BitVec 1) {a b : EReal} (ha : IsR a) (hb : IsR b) : IsR (Scalar.select c a b) := by
  unfold Scalar.select; split <;> assumption

theorem dot_isR {K N : Nat} (a : Fin K → EReal) (W : Fin K → Fin N → EReal) (ha : ∀ k, IsR (a k)) (hW : ∀ k j, IsR (W k j))
    (j : Fin N) : IsR (dot a W j) :=
  IsR.sum _ _ fun k _ => (ha k).mul (hW k j)

/-- A row of reals divided by its norm (kept at least the positive literal) is a row of reals: the sum of squares is
    a real that is not negative, its root a real, and the divisor a real that is at least the literal, so not zero. -/
theorem nrm_isR {N : Nat} (v : Fin N → EReal) (hv : ∀ k, IsR (v k)) (j : Fin N) : IsR (nrm v j) := by
  choose w hw using hv
  obtain ⟨ε, hε, he⟩ := eps32_pos
  have hs : (∑ k : Fin N, v k * v k) = ((∑ k : Fin N, w k * w k : ℝ) : EReal) := by
    rw [coe_sum]; exact Finset.sum_congr rfl fun k _ => by rw [hw k, EReal.coe_mul]
  have hnn : ¬ (∑ k : Fin N, w k * w k) < 0 := not_lt.mpr (Finset.sum_nonneg fun k _ => mul_self_nonneg _)
  unfold nrm
  rw [hs, Ideal.sqrt_coe, if_neg hnn, he, coe_max']
  exact IsR.div ⟨w j, hw j⟩ ⟨_, (lt_of_lt_of_le hε (le_max_right _ _)).ne', rfl⟩

theorem layer_isR {K N : Nat} (u b : Fin N → EReal) (hr : Fin K → EReal) (Wr Wl : Fin K → Fin N → EReal) (bl : Fin N → EReal)
    (hu : ∀ j, IsR (u j)) (hb : ∀ j, IsR (b j)) (hhr : ∀ k, IsR (hr k)) (hWr : ∀ k j, IsR (Wr k j))
    (hWl : ∀ k j, IsR (Wl k j)) (hbl : ∀ j, IsR (bl j)) (j : Fin N) : IsR (layer u b hr Wr Wl bl j) :=
  (nrm_isR _ (fun k => ((hu k).add (hb k)).add (dot_isR _ _ hhr hWr k)) j).add ((dot_isR _ _ hhr hWl j).add (hbl j))

theorem elu_isR (p : EReal) (hp : IsR p) : IsR (elu p) :=
  IsR.select _ hp (hp.exp.sub ⟨1, one32_eq⟩)

theorem hrow_isR (mr xr : Fin 50 → EReal) (W2 W4 W5 : Fin 50 → Fin 256 → EReal) (b3 b6 : Fin 256 → EReal)
    (hmr : ∀ i, IsR (mr i)) (hxr : ∀ i, IsR (xr i)) (hW2 : ∀ i k, IsR (W2 i k)) (hW4 : ∀ i k, IsR (W4 i k))
    (hW5 : ∀ i k, IsR (W5 i k)) (hb3 : ∀ k, IsR (b3 k)) (hb6 : ∀ k, IsR (b6 k)) (k : Fin 256) :
    IsR (hrow mr xr W2 W4 W5 b3 b6 k) :=
  elu_isR _ (layer_isR _ _ _ _ _ _ (fun j => dot_isR _ _ hmr hW2 j) hb3 hxr hW4 hW5 hb6 k)

/-! ## The reciprocal of the degree -/

/-- Multiplying by `1 / d` is dividing by `d`, for a real `d` other than zero, at every extended real. -/
theorem mul_recip (a D : EReal) (hD : ∃ d : ℝ, d ≠ 0 ∧ D = (d : EReal)) : a * Ideal.div one32 D = Ideal.div a D := by
  obtain ⟨d, hd, rfl⟩ := hD
  rw [Ideal.div_coe hd, Ideal.div_coe hd, one32_eq, one_mul]

section Programs

variable (E : Fin 50000 → Finset (Fin 800000)) (s : Fin 800000 → Fin 50000)
  (A1 : Fin 50000 → Fin 50 → EReal) (D : Fin 50000 → EReal) (x : Fin 50000 → Fin 50 → EReal)
  (W2 W4 W5 : Fin 50 → Fin 256 → EReal) (b3 b6 : Fin 256 → EReal)
  (W7 W9 W10 : Fin 256 → Fin 121 → EReal) (b8 b11 : Fin 121 → EReal)

/-- The two programs' hidden rows are the same rows. -/
theorem hK_eq_hR (hD : ∀ n, ∃ d : ℝ, d ≠ 0 ∧ D n = (d : EReal)) :
    hK A1 D x W2 W4 W5 b3 b6 = hR A1 D x W2 W4 W5 b3 b6 := by
  funext n
  unfold hK hR
  rw [show (fun i => A1 n i * Ideal.div one32 (D n)) = (fun i => Ideal.div (A1 n i) (D n)) from
    funext fun i => mul_recip _ _ (hD n)]

/-- Every hidden entry is a real number. -/
theorem hR_isR (hD : ∀ n, ∃ d : ℝ, d ≠ 0 ∧ D n = (d : EReal)) (hA1 : ∀ n i, IsR (A1 n i)) (hx : ∀ n i, IsR (x n i))
    (hW2 : ∀ i k, IsR (W2 i k)) (hW4 : ∀ i k, IsR (W4 i k)) (hW5 : ∀ i k, IsR (W5 i k)) (hb3 : ∀ k, IsR (b3 k))
    (hb6 : ∀ k, IsR (b6 k)) (n : Fin 50000) (k : Fin 256) : IsR (hR A1 D x W2 W4 W5 b3 b6 n k) :=
  hrow_isR _ _ _ _ _ _ _ (fun i => (hA1 n i).div (hD n)) (hx n) hW2 hW4 hW5 hb3 hb6 k

end Programs

/-! ## Padding -/

theorem padRow_lo (b : Fin 121 → EReal) (j : Fin 121) : padRow 0 b (Fin.castAdd 7 j) = b j := by
  unfold padRow; rw [dif_pos (show (Fin.castAdd 7 j).val < 121 from j.isLt)]; rfl
theorem padRow_hi (b : Fin 121 → EReal) (i : Fin 7) : padRow 0 b (Fin.natAdd 121 i) = 0 := by
  unfold padRow; rw [dif_neg (by simp)]
theorem padCols_lo {K : Nat} (W : Fin K → Fin 121 → EReal) (k : Fin K) (j : Fin 121) :
    padCols 0 W k (Fin.castAdd 7 j) = W k j := by
  unfold padCols; rw [dif_pos (show (Fin.castAdd 7 j).val < 121 from j.isLt)]; rfl
theorem padCols_hi {K : Nat} (W : Fin K → Fin 121 → EReal) (k : Fin K) (i : Fin 7) :
    padCols 0 W k (Fin.natAdd 121 i) = 0 := by
  unfold padCols; rw [dif_neg (by simp)]

theorem dot_pad_lo {K : Nat} (a : Fin K → EReal) (W : Fin K → Fin 121 → EReal) (j : Fin 121) :
    dot a (padCols 0 W) (Fin.castAdd 7 j) = dot a W j := by
  unfold dot; exact Finset.sum_congr rfl fun k _ => by rw [padCols_lo]
theorem dot_pad_hi {K : Nat} (a : Fin K → EReal) (W : Fin K → Fin 121 → EReal) (i : Fin 7) :
    dot a (padCols 0 W) (Fin.natAdd 121 i) = 0 := by
  unfold dot; exact Finset.sum_eq_zero fun k _ => by rw [padCols_hi, mul_zero]

/-- A layer's 128-wide row whose last seven aggregated entries are zero, over zero-padded weights and biases,
    restricted to its first 121 columns, is the 121-wide row: the padded `sage` entries are `0 + 0 + 0`, so the sum
    of squares under the norm is the unpadded one. -/
theorem layer_pad {K : Nat} (u' : Fin 128 → EReal) (u b : Fin 121 → EReal) (hr : Fin K → EReal)
    (Wr Wl : Fin K → Fin 121 → EReal) (bl : Fin 121 → EReal)
    (hu : ∀ j : Fin 121, u' (Fin.castAdd 7 j) = u j) (hu0 : ∀ i : Fin 7, u' (Fin.natAdd 121 i) = 0) (j : Fin 121) :
    layer u' (padRow 0 b) hr (padCols 0 Wr) (padCols 0 Wl) (padRow 0 bl) (Fin.castAdd 7 j) = layer u b hr Wr Wl bl j := by
  have hlo : ∀ j : Fin 121, sage u' (padRow 0 b) hr (padCols 0 Wr) (Fin.castAdd 7 j) = sage u b hr Wr j := fun j => by
    unfold sage; rw [hu, padRow_lo, dot_pad_lo]
  have hhi : ∀ i : Fin 7, sage u' (padRow 0 b) hr (padCols 0 Wr) (Fin.natAdd 121 i) = 0 := fun i => by
    unfold sage; rw [hu0, padRow_hi, dot_pad_hi, add_zero, add_zero]
  have hsum : (∑ k : Fin 128, sage u' (padRow 0 b) hr (padCols 0 Wr) k * sage u' (padRow 0 b) hr (padCols 0 Wr) k)
      = ∑ k : Fin 121, sage u b hr Wr k * sage u b hr Wr k := by
    rw [show (∑ k : Fin 128, sage u' (padRow 0 b) hr (padCols 0 Wr) k * sage u' (padRow 0 b) hr (padCols 0 Wr) k)
        = ∑ k : Fin (121 + 7), sage u' (padRow 0 b) hr (padCols 0 Wr) k * sage u' (padRow 0 b) hr (padCols 0 Wr) k from rfl,
      Fin.sum_univ_add]
    rw [Finset.sum_eq_zero (s := (Finset.univ : Finset (Fin 7))) (fun i _ => by rw [hhi, mul_zero]), add_zero]
    exact Finset.sum_congr rfl fun k _ => by rw [hlo]
  unfold layer nrm
  rw [hsum, hlo, dot_pad_lo, padRow_lo]

/-! ## The linear law -/

/-- Summing projected rows over the edges and scaling by `1/d` is projecting the mean: over real entries and a real
    degree other than zero the two finite sums exchange and the factor moves through them. -/
theorem proj_agg (E : Fin 50000 → Finset (Fin 800000)) (s : Fin 800000 → Fin 50000) (h : Fin 50000 → Fin 256 → EReal)
    (W : Fin 256 → Fin 121 → EReal) (Dn : EReal) (hh : ∀ r k, IsR (h r k)) (hW : ∀ k j, IsR (W k j))
    (hD : ∃ d : ℝ, d ≠ 0 ∧ Dn = (d : EReal)) (n : Fin 50000) (j : Fin 121) :
    agg E s (fun r j' => dot (h r) (padCols 0 W) j') n (Fin.castAdd 7 j) * Ideal.div one32 Dn
      = dot (fun k => Ideal.div (agg E s h n k) Dn) W j := by
  choose h' hh' using hh
  choose w hw using hW
  obtain ⟨d, hd, rfl⟩ := hD
  obtain rfl : h = fun r k => ((h' r k : ℝ) : EReal) := funext fun r => funext fun k => hh' r k
  obtain rfl : W = fun k j => ((w k j : ℝ) : EReal) := funext fun k => funext fun j => hw k j
  have hL : agg E s (fun r j' => dot (fun k => ((h' r k : ℝ) : EReal)) (padCols 0 fun k j => ((w k j : ℝ) : EReal)) j') n (Fin.castAdd 7 j)
      = ((∑ e ∈ E n, ∑ k : Fin 256, h' (s e) k * w k j : ℝ) : EReal) := by
    unfold agg
    rw [zero32_eq, zero_add, coe_sum]
    refine Finset.sum_congr rfl fun e _ => ?_
    beta_reduce
    rw [dot_pad_lo]; unfold dot
    rw [coe_sum]; exact Finset.sum_congr rfl fun k _ => (EReal.coe_mul _ _).symm
  have hR : ∀ k : Fin 256, Ideal.div (agg E s (fun r k => ((h' r k : ℝ) : EReal)) n k) (d : EReal)
      = (((∑ e ∈ E n, h' (s e) k) * (1 / d) : ℝ) : EReal) := fun k => by
    unfold agg
    rw [zero32_eq, zero_add, Ideal.div_coe hd, ← coe_sum, ← EReal.coe_mul]
  rw [hL, Ideal.div_coe hd, one32_eq, one_mul, ← EReal.coe_mul]
  unfold dot
  simp only [hR]
  rw [show (∑ k : Fin 256, (((∑ e ∈ E n, h' (s e) k) * (1 / d) : ℝ) : EReal) * ((w k j : ℝ) : EReal))
      = ((∑ k : Fin 256, ((∑ e ∈ E n, h' (s e) k) * (1 / d)) * w k j : ℝ) : EReal) from by
    rw [coe_sum]; exact Finset.sum_congr rfl fun k _ => (EReal.coe_mul _ _).symm]
  refine congrArg _ ?_
  rw [Finset.sum_comm, Finset.sum_mul]
  refine Finset.sum_congr rfl fun k _ => ?_
  rw [Finset.sum_mul, Finset.sum_mul, Finset.sum_mul]
  exact Finset.sum_congr rfl fun e _ => by ring

/-- The padded columns of the summed projection are zero. -/
theorem proj_agg_hi (E : Fin 50000 → Finset (Fin 800000)) (s : Fin 800000 → Fin 50000) (h : Fin 50000 → Fin 256 → EReal)
    (W : Fin 256 → Fin 121 → EReal) (Dn : EReal) (n : Fin 50000) (i : Fin 7) :
    agg E s (fun r j' => dot (h r) (padCols 0 W) j') n (Fin.natAdd 121 i) * Ideal.div one32 Dn = 0 := by
  unfold agg
  rw [Finset.sum_eq_zero fun e _ => dot_pad_hi _ _ i, zero32_eq, add_zero, zero_mul]

section Programs

variable (E : Fin 50000 → Finset (Fin 800000)) (s : Fin 800000 → Fin 50000)
  (A1 : Fin 50000 → Fin 50 → EReal) (D : Fin 50000 → EReal) (x : Fin 50000 → Fin 50 → EReal)
  (W2 W4 W5 : Fin 50 → Fin 256 → EReal) (b3 b6 : Fin 256 → EReal)
  (W7 W9 W10 : Fin 256 → Fin 121 → EReal) (b8 b11 : Fin 121 → EReal)

/-- THE BRIDGE: over real inputs and real nonzero degrees the project-first program's 128-wide output rows, restricted
    to their first 121 columns, are the mean-first program's output rows. -/
theorem outK_eq_outR (hD : ∀ n, ∃ d : ℝ, d ≠ 0 ∧ D n = (d : EReal)) (hA1 : ∀ n i, IsR (A1 n i)) (hx : ∀ n i, IsR (x n i))
    (hW2 : ∀ i k, IsR (W2 i k)) (hW4 : ∀ i k, IsR (W4 i k)) (hW5 : ∀ i k, IsR (W5 i k)) (hb3 : ∀ k, IsR (b3 k))
    (hb6 : ∀ k, IsR (b6 k)) (hW7 : ∀ k j, IsR (W7 k j)) (n : Fin 50000) (j : Fin 121) :
    outK E s A1 D x W2 W4 W5 b3 b6 W7 W9 W10 b8 b11 0 n (Fin.castAdd 7 j)
      = outR E s A1 D x W2 W4 W5 b3 b6 W7 W9 W10 b8 b11 n j := by
  unfold outK outR projK
  rw [hK_eq_hR A1 D x W2 W4 W5 b3 b6 hD]
  exact layer_pad _ _ _ _ _ _ _
    (fun j => proj_agg E s _ W7 (D n) (hR_isR A1 D x W2 W4 W5 b3 b6 hD hA1 hx hW2 hW4 hW5 hb3 hb6) hW7 (hD n) n j)
    (fun i => proj_agg_hi E s _ W7 (D n) n i) j

end Programs

end Cert.Sage

end
-- ==== Proof.HostFinite.lean ====
/-
  Real entries stay real through the host's aggregation: a gather only selects entries, an accumulating scatter adds
  finitely many of them to an entry, and a degree — one plus-one per incoming edge, kept at least one — is a real
  number that is at least one, so it is not zero.
-/
import proofs.«166945_j62663572848802_2_alg».proof.Proof.Bridge
import Idealize.ShloMosaic.PureOps.Contract

noncomputable section

namespace Cert.Sage

open Idealize.ShloMosaic

/-- A gathered entry is an entry of the operand. -/
theorem gather_isR {s si t : Shape} {w : Nat} (d : GatherDims s si t) (x : FVec Ideal s .f32) (I : IVec si w)
    (hx : ∀ i, IsR (x i)) (j : t.Idx) : IsR (Host.gather d x I j) :=
  hx _

/-- An accumulating scatter's entry is the operand's entry plus a finite sum of update entries. -/
theorem scatterAdd_isR {s si u : Shape} {w : Nat} (d : ScatterDims s si u) (X0 : FVec Ideal s .f32) (I : IVec si w)
    (U : FVec Ideal u .f32) (h0 : ∀ i, IsR (X0 i)) (hU : ∀ j, IsR (U j)) (i : s.Idx) :
    IsR (Host.scatterAdd (F := Ideal) d X0 I U i) := by
  show IsR (X0 i + ∑ j ∈ Finset.univ.filter (fun j => d.resultIdx? j I = some i), U j)
  exact (h0 i).add (IsR.sum _ _ fun j _ => hU j)

/-- The degree, as both programs compute it — ones scattered onto zeros, the result kept at least one — is a real number
    that is at least one, so it is not zero. -/
theorem degree_real {s si u : Shape} {w : Nat} (d : ScatterDims s si u) (X0 B : FVec Ideal s .f32) (I : IVec si w)
    (U : FVec Ideal u .f32) (h0 : ∀ i, X0 i = zero32) (hU : ∀ j, U j = one32) (hB : ∀ i, B i = one32) (i : s.Idx) :
    ∃ r : ℝ, r ≠ 0 ∧ maximumf (Host.scatterAdd (F := Ideal) d X0 I U) B i = (r : EReal) := by
  obtain ⟨a, ha⟩ := scatterAdd_isR d X0 I U (fun i => ⟨0, (h0 i).trans zero32_eq⟩) (fun j => ⟨1, (hU j).trans one32_eq⟩) i
  refine ⟨max a 1, (lt_of_lt_of_le one_pos (le_max_right _ _)).ne', ?_⟩
  show max (Host.scatterAdd (F := Ideal) d X0 I U i) (B i) = _
  rw [ha, hB i, one32_eq, ← EReal.coe_one, coe_max']

end Cert.Sage

end
-- ==== Proof.Value.lean ====
/-
  The two programs return the same array.

  Entry `(n, j)` of the kernel program's result is the project-first function of the argument arrays; entry `(n, j)` of
  the reference's is the mean-first function of the same arrays, with the same index columns, the same first aggregate
  and the same degrees (the two programs spell these four terms identically).  Under the precondition every float
  argument entry is a real number, hence so is every entry of the first aggregate (a finite sum of gathered input
  entries), and every degree is a real number that is at least one; the padding value is zero.  The bridge then
  identifies the two functions.
-/
import proofs.«166945_j62663572848802_2_alg».proof.Proof.KApply
import proofs.«166945_j62663572848802_2_alg».proof.Proof.RefRead
import proofs.«166945_j62663572848802_2_alg».proof.Proof.Finite
import proofs.«166945_j62663572848802_2_alg».proof.Proof.HostFinite
import proofs.«166945_j62663572848802_2_alg».proof.Proof.Bridge

set_option maxRecDepth 16384

noncomputable section

namespace Cert.Proof.Value

open Idealize.ShloMosaic Idealize.ShloMosaic.TcCoe Idealize.ShloMosaic.ValueIdx
open Idealize.SL Idealize.SL.Sem

/-! ## The four shared terms are spelt identically in the two programs -/

theorem Isrc_eq (a1 : IVec Cert.KernelIdeal.S2x800000 32) :
    Cert.KernelIdeal.KValue.Isrc a1 = Cert.ReferenceIdeal.RefValue.Isrc a1 := rfl
theorem Idst_eq (a1 : IVec Cert.KernelIdeal.S2x800000 32) :
    Cert.KernelIdeal.KValue.Idst a1 = Cert.ReferenceIdeal.RefValue.Idst a1 := rfl
theorem A1_eq (a0 : FVec Ideal Cert.KernelIdeal.S50000x50 .f32) (a1 : IVec Cert.KernelIdeal.S2x800000 32) :
    Cert.KernelIdeal.KValue.A1 a0 a1 = Cert.ReferenceIdeal.RefValue.A1 a0 a1 := rfl
theorem Dg_eq (a1 : IVec Cert.KernelIdeal.S2x800000 32) :
    Cert.KernelIdeal.KValue.Dg a1 = Cert.ReferenceIdeal.RefValue.Dg a1 := rfl

/-! ## Degrees and first aggregates are real numbers -/

theorem Dg_real (a1 : IVec Cert.KernelIdeal.S2x800000 32) (n : Fin 50000) :
    ∃ d : ℝ, d ≠ 0 ∧ Cert.KernelIdeal.KValue.Dg a1 (ix2 n (0 : Fin 1)) = (d : EReal) := by
  unfold Cert.KernelIdeal.KValue.Dg
  exact Cert.Sage.degree_real _ _ _ _ _ (fun _ => rfl) (fun _ => rfl) (fun _ => rfl) _

theorem A1_real (a0 : FVec Ideal Cert.KernelIdeal.S50000x50 .f32) (a1 : IVec Cert.KernelIdeal.S2x800000 32)
    (h0 : ∀ i, ∃ r : ℝ, a0 i = (r : EReal)) (n : Fin 50000) (i : Fin 50) :
    Cert.Sage.IsR (Cert.KernelIdeal.KValue.A1 a0 a1 (ix2 n i)) := by
  unfold Cert.KernelIdeal.KValue.A1
  exact Cert.Sage.scatterAdd_isR _ _ _ _ (fun _ => ⟨0, Cert.Sage.zero32_eq⟩)
    (fun j => Cert.Sage.gather_isR _ a0 _ h0 j) (ix2 n i)

/-! ## The kernel program's result is the reference's composed term -/

theorem kernel_value (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.KernelIdeal.Gen.W14 (F := Ideal) m ρ c (Proc.devRef .tc Cert.KernelIdeal.main_v47)
      = Cert.ReferenceIdeal.RefValue.out
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11)) := by
  obtain ⟨h0, h2, h3, h4, h5, h6, h7, -, -, -, -⟩ := Cert.Sage.Finite.real_of_pre m hpre c
  funext i
  obtain ⟨n, j, rfl⟩ : ∃ (n : Fin 50000) (j : Fin 121), i = ix2 n j := ⟨i 0, i 1, eq_ix2 i⟩
  refine (Cert.KernelIdeal.KValue.kernel_apply m ρ c n j).trans ?_
  refine Eq.trans ?_ (Cert.ReferenceIdeal.RefValue.out_apply (fun X I e k => Cert.Sage.gather256 X I e k)
      (fun X0 I U n k => Cert.Sage.scatter256 X0 I U n k) _ _ _ _ _ _ _ _ _ _ _ _ n j).symm
  unfold Cert.KernelIdeal.KValue.specOut
  rw [Cert.KernelIdeal.KValue.zPad_eq_zero, ← Isrc_eq, ← Idst_eq, ← A1_eq, ← Dg_eq]
  exact Cert.Sage.outK_eq_outR _ _ _ _ _ _ _ _ _ _ _ _ _ _ _
    (fun n => Dg_real _ n) (fun n i => A1_real _ _ h0 n i) (fun n i => h0 _) (fun i k => h2 _) (fun i k => h4 _)
    (fun i k => h5 _) (fun k => h3 _) (fun k => h6 _) (fun k j => h7 _) n j

end Cert.Proof.Value

end
-- ==== Proof.lean ====
/-
  The certificate of a two-layer mean-aggregating graph network computed by two fused row-blocked kernels, against its
  plain reference, over the extended reals.

  Both programs aggregate node rows over the edge list with the host's gather and accumulating scatter, and divide by
  the degree.  The kernel program multiplies by the reciprocal of the degree instead of dividing, projects every
  hidden row to the output width (padded from 121 to 128 columns with zeros) BEFORE the second aggregation instead of
  after it, and slices the padding away at the end.  With every float input finite these are the same real numbers:
  the projection is linear, so it commutes with the finite sum over a node's incoming edges and with the scaling by
  the reciprocal degree, and the zero columns add nothing to a row's norm.  The frames of the two kernel programs are
  the generated ones; the reference's frame is its run with the result dropped; the idealization rewrote nothing.
-/
import proofs.«166945_j62663572848802_2_alg».proof.Defs
import proofs.«166945_j62663572848802_2_alg».proof.Proof.Gen.Kernel
import proofs.«166945_j62663572848802_2_alg».proof.Proof.Gen.Kernel.Frame
import proofs.«166945_j62663572848802_2_alg».proof.Proof.Gen.KernelIdeal
import proofs.«166945_j62663572848802_2_alg».proof.Proof.Gen.KernelIdeal.Frame
import proofs.«166945_j62663572848802_2_alg».proof.Proof.Gen.ReferenceIdeal
import proofs.«166945_j62663572848802_2_alg».proof.Proof.Gen.Pre_finite_inputs
import proofs.«166945_j62663572848802_2_alg».proof.Proof.KRun
import proofs.«166945_j62663572848802_2_alg».proof.Proof.RefRun
import proofs.«166945_j62663572848802_2_alg».proof.Proof.Value
import Idealize.ShloMosaic.Adequacy
import Idealize.ShloMosaic.Init

noncomputable section

namespace Cert.Proof

open Idealize.ShloMosaic Idealize.SL.Sem

/-- The word-level kernel program runs and leaves its arguments unchanged: the generated frame. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and leaves its arguments unchanged: its run, with the result dropped. -/
theorem frame_ri : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories agreeing on the arguments both idealized programs end with the reference's composed term of the
    arguments in their result: the reference by its run, the kernel program by its run and the equality of values. -/
theorem algebraic : Cert.algebraic_KernelIdeal_ReferenceIdeal := by
  intro m ρ m' ρ' hpre hagree
  refine ⟨fun c => Cert.ReferenceIdeal.RefValue.out
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.Proof.Value.kernel_value m ρ hpre c), (h c).2⟩)
      (Cert.KernelIdeal.KValue.run m ρ)
  · refine (θ_run Cert.ReferenceIdeal.defs _ _).mono (fun _ h c => ⟨(h c).1.trans ?_, (h c).2⟩)
      (Cert.ReferenceIdeal.RefValue.run m' ρ')
    obtain ⟨e0, e1, e2, e3, e4, e5, e6, e7, e8, e9, e10, e11⟩ := hagree c
    rw [e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
